-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  main_v38

def fn_part1 {F : FTy → Type} [FloatOps F] (main_arg5 : FVec F S128 .f32) (main_arg6 : FVec F S128x128 .f32) (main_arg7 : FVec F S128 .f32) (main_arg8 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩

abbrev nBuf : Space → Nat
  | .hbm => 36
  | .vmem => 25
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .f32⟩
  | .hbm, ⟨23, _⟩ => ⟨S50000x128, .f32⟩
  | .hbm, ⟨24, _⟩ => ⟨S600000x1, .i32⟩
  | .hbm, ⟨25, _⟩ => ⟨S50000x128, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S1x128, .f32⟩
  | .hbm, ⟨35, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg11_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem11_1 : DmaSem sig := 22

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v31 : BitVec 1 := Scalar.cmpi .eq arg0 c9_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x128.size a ≤ S50000x128.size a
  hwx1_11 : ∀ i : grid1.Coords, EltTy.bits .f32 = 32 ∨ (Rect.block (s := S50000x128) S5000x128.size (cc1_transform_11 i) (hinb1_11 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21_0) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_1) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21_0) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21_1) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v20) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v16) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v22) S5000x128.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩

abbrev nBuf : Space → Nat
  | .hbm => 86
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S1x600000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x128, .f32⟩
  | .hbm, ⟨22, _⟩ => ⟨S_, .f32⟩
  | .hbm, ⟨23, _⟩ => ⟨S50000x128, .f32⟩
  | .hbm, ⟨24, _⟩ => ⟨S600000x1, .i32⟩
  | .hbm, ⟨25, _⟩ => ⟨S50000x128, .f32⟩
  | .hbm, ⟨26, _⟩ => ⟨S50000x128, .f32⟩
  | .hbm, ⟨27, _⟩ => ⟨S128x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S1x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S_, .f32⟩
  | .hbm, ⟨64, _⟩ => ⟨S50000x128, .f32⟩
  | .hbm, ⟨65, _⟩ => ⟨S50000x128, .i1⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S128x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S128x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S_, .f32⟩
  | .hbm, ⟨80, _⟩ => ⟨S50000x128, .f32⟩
  | .hbm, ⟨81, _⟩ => ⟨S50000x128, .i1⟩
  | .hbm, ⟨82, _⟩ => ⟨S_, .f32⟩
  | .hbm, ⟨83, _⟩ => ⟨S50000x128, .f32⟩
  | .hbm, ⟨84, _⟩ => ⟨S50000x128, .f32⟩
  | .hbm, ⟨85, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_7 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v54 : Ref sig .tc := ⟨.hbm, 85, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.AccSharedBits.lean ====
/-
  The first kernel call of the layer accumulates, over ten tiles of 5000 rows, the column sums and the column sums of squares of
  the first linear layer's output, in two one-row scratch buffers that live across the grid points: the first point resets them,
  every point adds its tile's sums to them, and the last point divides by the number of rows and stores the mean and the variance
  into the two one-row outputs. This module holds what the three kinds of point share: the two branch conditions in closed form over
  the grid, where the two outputs are idle, and the buffers the body is handed.
-/
import proofs.«142832_j44555990728952_1_alg».proof.Proof.Gen.Kernel.Launch
import proofs.«142832_j44555990728952_1_alg».proof.Proof.Gen.Kernel.Skeleton
import proofs.«142832_j44555990728952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the first call is entered
variable (V : (c : Dev nD) → (b : Ref sig .tc) → Buf (Elt F) ((c : Thread nD τ).loc b))

/-! ## The blocks -/

/-- Window `w`'s block at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds the window's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the ten grid points -/

/-- "This is the first tile": the reset of the two accumulators runs under it. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val % 10 = 0 :=
  (by decide +kernel : ∀ t : Fin grid0.N, condFirst (grid0.coords t) ↔ t.val % 10 = 0)

/-- "This is the last tile": the mean and the variance are stored under it. -/
abbrev condLast (i : grid0.Coords) : Prop := k0_cond2 i = 1#1
theorem hcondLast : ∀ t : Fin cfg0.N, condLast (grid0.coords t) ↔ t.val % 10 = 9 :=
  (by decide +kernel : ∀ t : Fin grid0.N, condLast (grid0.coords t) ↔ t.val % 10 = 9)

/-! ## Where the windows are idle: the inputs never, the two outputs everywhere but at the last tile, and they are written back
    only there -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬condLast (grid0.coords t) → cfg0.idle 4 (grid0.coords t) = true := by decide +kernel
theorem noFlush0_4 : ∀ t : Fin cfg0.N, ¬condLast (grid0.coords t) → (cfg0.win 4).flush t = false := by decide +kernel
theorem liveAt0_4 : ∀ t : Fin cfg0.N, condLast (grid0.coords t) → cfg0.idle 4 (grid0.coords t) = false := by decide +kernel
theorem idleAt0_5 : ∀ t : Fin cfg0.N, ¬condLast (grid0.coords t) → cfg0.idle 5 (grid0.coords t) = true := by decide +kernel
theorem noFlush0_5 : ∀ t : Fin cfg0.N, ¬condLast (grid0.coords t) → (cfg0.win 5).flush t = false := by decide +kernel
theorem liveAt0_5 : ∀ t : Fin cfg0.N, condLast (grid0.coords t) → cfg0.idle 5 (grid0.coords t) = false := by decide +kernel

/-! ## The buffers the body is handed -/

/-- One staging buffer of each output, through which that output's contents are stated. -/
abbrev VO4 : View sig .tc .vmem S1x128 .f32 := (Memref.whole cc0_stg4_0 : Memref sig .tc .vmem S1x128 .f32).view
abbrev VO5 : View sig .tc .vmem S1x128 .f32 := (Memref.whole cc0_stg5_0 : Memref sig .tc .vmem S1x128 .f32).view
/-- Each window's current staging buffer at point `t`, as the pipeline passes it, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- The two accumulators: whole scoped buffers of the kernel's own, passed beside the windows, and the views through which their
    contents are stated. -/
abbrev scM0 : Memref sig .tc .vmem S1x128 .f32 := Memref.whole cc0_scratch0
abbrev scM1 : Memref sig .tc .vmem S1x128 .f32 := Memref.whole cc0_scratch1
abbrev VS0 : View sig .tc .vmem S1x128 .f32 := scM0.view
abbrev VS1 : View sig .tc .vmem S1x128 .f32 := scM1.view

/-- The core's other scoped buffers (the second call's staging buffers), each whole at some contents: the first call never
    touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f))

/-- What every call keeps between its points, with the two accumulators singled out as buffers owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ otherScoped c) ∗ (∃ r, prngReg c r)) := by
  unfold Pipeline.ΦA otherScoped; rw [scopedRest0_eq]; simp only [scM0, scM1, owns_whole]; try rfl

end Cert.Kernel.Acc

end
-- ==== Proof.AccFirstBits.lean ====
/-
  The statistics kernel's body at the first tile: both accumulators are reset, then the tile's sums are added; nothing is stored into the outputs. The triple holds for the body run on whole buffers; its witness is the
  pieces each buffer ends with (last store first).
-/
import proofs.«142832_j44555990728952_1_alg».proof.Proof.AccSharedBits

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) :
    Σ' (L4 : List (View.Piece (Elt F) S1x128 .f32)) (L5 : List (View.Piece (Elt F) S1x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Acc

end
-- ==== Proof.AccMiddleBits.lean ====
/-
  The statistics kernel's body at a middle tile: the tile's sums are added to what the accumulators held; nothing is stored into the outputs. The triple holds for the body run on whole buffers; its witness is the
  pieces each buffer ends with (last store first).
-/
import proofs.«142832_j44555990728952_1_alg».proof.Proof.AccFirstBits

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S1x128 .f32)) (L5 : List (View.Piece (Elt F) S1x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.Kernel.Acc

end
-- ==== Proof.AccLastBits.lean ====
/-
  The statistics kernel's body at the last tile: the tile's sums are added, and the mean and the variance of all rows are stored into the two outputs. The triple holds for the body run on whole buffers; its witness is the
  pieces each buffer ends with (last store first).
-/
import proofs.«142832_j44555990728952_1_alg».proof.Proof.AccMiddleBits

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.Kernel.Acc

end
-- ==== Proof.AccBodyBits.lean ====
/-
  The statistics kernel over its ten grid points.

  What the two accumulators and the two outputs hold after each point is defined by recursion on the point: the first point's
  contents come from the reset followed by the first tile's sums; a later point's from the point before plus its tile's sums; the
  last point's outputs from the accumulators it ends with. The invariant kept between points says exactly that the accumulators
  hold the contents of the point before. With it the body's triple at any point is the triple of that point's kind.
-/
import proofs.«142832_j44555990728952_1_alg».proof.Proof.AccLastBits

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves: its pieces read back, and that they cover the buffer -/

theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.1 S1x128.size (by sl_kernel_rfl) y
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.2.1 S1x128.size (by sl_kernel_rfl) y
def out0_A_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) : Vec F S1x128 .f32 :=
  VO4.read (Elt F) (VO4.writes (Elt F) VO4.junk (kernelRun0_A c i arg1 harg1 arg2 harg2 arg3 harg3 arg4 harg4 arg5 harg5 arg6 harg6 arg7 harg7 arg8 harg8 hc0 hc1 x0 x1 x2 x3).1)
def out0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) : Vec F S1x128 .f32 :=
  VO5.read (Elt F) (VO5.writes (Elt F) VO5.junk (kernelRun0_A c i arg1 harg1 arg2 harg2 arg3 harg3 arg4 harg4 arg5 harg5 arg6 harg6 arg7 harg7 arg8 harg8 hc0 hc1 x0 x1 x2 x3).2.1)
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) : Vec F S1x128 .f32 :=
  VS0.read (Elt F) (VS0.writes (Elt F) VS0.junk (kernelRun0_A c i arg1 harg1 arg2 harg2 arg3 harg3 arg4 harg4 arg5 harg5 arg6 harg6 arg7 harg7 arg8 harg8 hc0 hc1 x0 x1 x2 x3).2.2.1)
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) : Vec F S1x128 .f32 :=
  VS1.read (Elt F) (VS1.writes (Elt F) VS1.junk (kernelRun0_A c i arg1 harg1 arg2 harg2 arg3 harg3 arg4 harg4 arg5 harg5 arg6 harg6 arg7 harg7 arg8 harg8 hc0 hc1 x0 x1 x2 x3).2.2.2.1)

theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.2.1 S1x128.size (by sl_kernel_rfl) y
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.2.2.1 S1x128.size (by sl_kernel_rfl) y
def out0_B_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO4.read (Elt F) (VO4.writes (Elt F) VO4.junk (kernelRun0_B c i arg1 harg1 arg2 harg2 arg3 harg3 arg4 harg4 arg5 harg5 arg6 harg6 arg7 harg7 arg8 harg8 hc0 hc1 x0 x1 x2 x3 xs0 xs1).1)
def out0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO5.read (Elt F) (VO5.writes (Elt F) VO5.junk (kernelRun0_B c i arg1 harg1 arg2 harg2 arg3 harg3 arg4 harg4 arg5 harg5 arg6 harg6 arg7 harg7 arg8 harg8 hc0 hc1 x0 x1 x2 x3 xs0 xs1).2.1)
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS0.read (Elt F) (VS0.writes (Elt F) VS0.junk (kernelRun0_B c i arg1 harg1 arg2 harg2 arg3 harg3 arg4 harg4 arg5 harg5 arg6 harg6 arg7 harg7 arg8 harg8 hc0 hc1 x0 x1 x2 x3 xs0 xs1).2.2.1)
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS1.read (Elt F) (VS1.writes (Elt F) VS1.junk (kernelRun0_B c i arg1 harg1 arg2 harg2 arg3 harg3 arg4 harg4 arg5 harg5 arg6 harg6 arg7 harg7 arg8 harg8 hc0 hc1 x0 x1 x2 x3 xs0 xs1).2.2.2.1)

theorem cover0_C_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S1x128.size (by sl_kernel_rfl) y
theorem cover0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x128.size (by sl_kernel_rfl) y
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x128.size (by sl_kernel_rfl) y
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x128.size (by sl_kernel_rfl) y
def out0_C_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO4.read (Elt F) (VO4.writes (Elt F) VO4.junk (kernelRun0_C c i arg1 harg1 arg2 harg2 arg3 harg3 arg4 harg4 arg5 harg5 arg6 harg6 arg7 harg7 arg8 harg8 hc0 hc1 x0 x1 x2 x3 xs0 xs1).1)
def out0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO5.read (Elt F) (VO5.writes (Elt F) VO5.junk (kernelRun0_C c i arg1 harg1 arg2 harg2 arg3 harg3 arg4 harg4 arg5 harg5 arg6 harg6 arg7 harg7 arg8 harg8 hc0 hc1 x0 x1 x2 x3 xs0 xs1).2.1)
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS0.read (Elt F) (VS0.writes (Elt F) VS0.junk (kernelRun0_C c i arg1 harg1 arg2 harg2 arg3 harg3 arg4 harg4 arg5 harg5 arg6 harg6 arg7 harg7 arg8 harg8 hc0 hc1 x0 x1 x2 x3 xs0 xs1).2.2.1)
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS1.read (Elt F) (VS1.writes (Elt F) VS1.junk (kernelRun0_C c i arg1 harg1 arg2 harg2 arg3 harg3 arg4 harg4 arg5 harg5 arg6 harg6 arg7 harg7 arg8 harg8 hc0 hc1 x0 x1 x2 x3 xs0 xs1).2.2.2.1)

/-! ## The contents after each point -/

/-- After the body at position `n`: (mean output, variance output, sum accumulator, sum-of-squares accumulator). At the points
    before the last the two outputs are placeholders nobody reads: the windows are idle there and not written back. -/
def outsAt0 (c : Dev nD) : (n : ℕ) → n < cfg0.N → Vec F S1x128 .f32 × Vec F S1x128 .f32 × Vec F S1x128 .f32 × Vec F S1x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcondFirst ⟨0, hn⟩).mpr (Nat.zero_mod _)) (fun h => absurd ((hcondLast ⟨0, hn⟩).mp h) (by show ¬ ((0 : ℕ) % 10 = 9); decide)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcondFirst ⟨0, hn⟩).mpr (Nat.zero_mod _)) (fun h => absurd ((hcondLast ⟨0, hn⟩).mp h) (by show ¬ ((0 : ℕ) % 10 = 9); decide)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcondFirst ⟨0, hn⟩).mpr (Nat.zero_mod _)) (fun h => absurd ((hcondLast ⟨0, hn⟩).mp h) (by show ¬ ((0 : ℕ) % 10 = 9); decide)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcondFirst ⟨0, hn⟩).mpr (Nat.zero_mod _)) (fun h => absurd ((hcondLast ⟨0, hn⟩).mp h) (by show ¬ ((0 : ℕ) % 10 = 9); decide)) (iblk0 V c 0 ⟨0, hn⟩) (iblk0 V c 1 ⟨0, hn⟩) (iblk0 V c 2 ⟨0, hn⟩) (iblk0 V c 3 ⟨0, hn⟩))
  | n + 1, hn =>
    if h1 : (n + 1) % 10 = 9 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) ((hcondLast ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) ((hcondLast ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) ((hcondLast ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) ((hcondLast ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) (fun h => h1 ((hcondLast ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) (fun h => h1 ((hcondLast ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) (fun h => h1 ((hcondLast ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) (fun h => h1 ((hcondLast ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcondFirst t).mpr (by rw [h0])) (fun h => absurd ((hcondLast t).mp h) (by rw [h0]; decide)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcondFirst t).mpr (by rw [h0])) (fun h => absurd ((hcondLast t).mp h) (by rw [h0]; decide)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcondFirst t).mpr (by rw [h0])) (fun h => absurd ((hcondLast t).mp h) (by rw [h0]; decide)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcondFirst t).mpr (by rw [h0])) (fun h => absurd ((hcondLast t).mp h) (by rw [h0]; decide)) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : t.val ≠ 0) (h1 : ¬t.val % 10 = 9) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) (fun h => h1 ((hcondLast t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) (fun h => h1 ((hcondLast t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) (fun h => h1 ((hcondLast t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) (fun h => h1 ((hcondLast t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt0_C (c : Dev nD) (t : Fin cfg0.N) (h0 : t.val ≠ 0) (h1 : t.val % 10 = 9) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) ((hcondLast t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) ((hcondLast t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) ((hcondLast t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) ((hcondLast t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The invariant between points -/

/-- Before position `n`: before the first point, what every call keeps; afterwards the two accumulators at what the point before
    left in them, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2.1) ∗ owns (c : Thread nD τ) scM1 fullShare ((outsAt0 V c n hn).2.2.2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2.2.1) ∗ owns (c : Thread nD τ) scM1 fullShare ((outsAt0 V c n hn).2.2.2) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2.2.1) ∗ owns (c : Thread nD τ) scM1 fullShare ((outsAt0 V c (n - 1) (by omega)).2.2.2) ∗ otherScoped c) ∗ (∃ r, prngReg c r)) := by
  cases n with
  | zero => exact absurd rfl hz
  | succ n => rfl

/-! ## The proof data of the first call -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point. The inputs' buffers hold their blocks; the closed forms of the two conditions say which kind of point
    it is; the invariant hands the body the accumulators at what the point before left (at anything before the first point, where
    the body resets them) and takes them back at this point's contents; at a point that is not the last the two outputs' buffers
    are handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h1 : t.val % 10 = 9
  · have h0 : t.val ≠ 0 := by omega
    rw [show (dat0 V c).leavesExact 4 t = owns (c : Thread nD τ) (ms0_4 t) fullShare ((dat0 V c).after 4 t) from by
      unfold Dat.leavesExact; rw [liveAt0_4 t ((hcondLast t).mpr h1)], after0_4]
    rw [show (dat0 V c).leavesExact 5 t = owns (c : Thread nD τ) (ms0_5 t) fullShare ((dat0 V c).after 5 t) from by
      unfold Dat.leavesExact; rw [liveAt0_5 t ((hcondLast t).mpr h1)], after0_5]
    rw [outsAt0_C V c t h0 h1]
    unfold out0_C_4 out0_C_5 sout0_C_0 sout0_C_1; (try dsimp only)
    rw [PhiS_castSucc V c t, PhiS_pos V c _ _ h0]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ _ _ (fun h => absurd ((hcondFirst t).mp h) (by have hN : t.val < 10 := lt_of_lt_of_eq t.isLt (show cfg0.N = 10 from N_0); omega)) ((hcondLast t).mpr h1) (iblk0 V c 0 t) (iblk0 V c 1 t) (iblk0 V c 2 t) (iblk0 V c 3 t) _ _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_C_4 c _ _ _ _ _ _ _ _ _ _ _ _ _ _ _ _ _ _ _ _ _ _ _ _ _)
    unfold owns; iexists _; isplitr
    swap; · iexact H5
    ipureintro; exact View.read_writes_of_cover _ _ _ _ _ (cover0_C_5 c _ _ _ _ _ _ _ _ _ _ _ _ _ _ _ _ _ _ _ _ _ _ _ _ _)
  · by_cases h0 : t.val = 0
    · rw [Dat.leavesExact_idle (dat0 V c) 4 t (idleAt0_4 t (fun h => absurd ((hcondLast t).mp h) (by rw [h0]; decide))) (noFlush0_4 t (fun h => absurd ((hcondLast t).mp h) (by rw [h0]; decide))),
        Dat.leavesExact_idle (dat0 V c) 5 t (idleAt0_5 t (fun h => absurd ((hcondLast t).mp h) (by rw [h0]; decide))) (noFlush0_5 t (fun h => absurd ((hcondLast t).mp h) (by rw [h0]; decide)))]
      rw [outsAt0_A V c t h0]
      unfold sout0_A_0 sout0_A_1; (try dsimp only)
      rw [PhiS_castSucc V c t, PhiS_zero V c _ _ h0, PhiA0_eq]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcondFirst t).mpr (by rw [h0])) (fun h => absurd ((hcondLast t).mp h) (by rw [h0]; decide)) (iblk0 V c 0 t) (iblk0 V c 1 t) (iblk0 V c 2 t) (iblk0 V c 3 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Dat.leavesExact_idle (dat0 V c) 4 t (idleAt0_4 t (fun h => h1 ((hcondLast t).mp h))) (noFlush0_4 t (fun h => h1 ((hcondLast t).mp h))),
        Dat.leavesExact_idle (dat0 V c) 5 t (idleAt0_5 t (fun h => h1 ((hcondLast t).mp h))) (noFlush0_5 t (fun h => h1 ((hcondLast t).mp h)))]
      rw [outsAt0_B V c t h0 h1]
      unfold sout0_B_0 sout0_B_1; (try dsimp only)
      rw [PhiS_castSucc V c t, PhiS_pos V c _ _ h0]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => absurd ((hcondFirst t).mp h) (by have hN : t.val < 10 := lt_of_lt_of_eq t.isLt (show cfg0.N = 10 from N_0); omega)) (fun h => h1 ((hcondLast t).mp h)) (iblk0 V c 0 t) (iblk0 V c 1 t) (iblk0 V c 2 t) (iblk0 V c 3 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation of the first call, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

theorem Phi_in0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives back what every call keeps: the accumulators' named contents are
    forgotten. -/
theorem Phi_out0 (c : Dev nD) : (dat0 V c).Φ (Fin.last cfg0.N) ⊢ Pipeline.ΦA spec0 c := by
  have ht : (Fin.last cfg0.N).val ≠ 0 := by rw [Fin.val_last]; have : cfg0.N = 10 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Cert.Kernel.Acc

end
-- ==== Proof.TileBits.lean ====
/-
  The second kernel call of the layer, one grid point at a time.

  At a grid point the body is handed eleven input blocks — a tile of 5000 rows of the node features and of the neighbour sums, the
  first weight matrix and bias, the batch mean and variance, the scale and shift, the second weight matrix and bias, the residual
  weights — and writes one output tile through a single store that covers the whole tile. So the output buffer after the body is
  a function of the input blocks alone: the canonical array of that one store, whose value is the body's arithmetic on the blocks.
  Every input buffer is left as found. Nothing is carried from one point to the next.
-/
import proofs.«142832_j44555990728952_1_alg».proof.Proof.Gen.Kernel.Launch
import proofs.«142832_j44555990728952_1_alg».proof.Proof.Gen.Kernel.Skeleton
import proofs.«142832_j44555990728952_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the second call is entered
variable (V : (c : Dev nD) → (b : Ref sig .tc) → Buf (Elt F) ((c : Thread nD τ).loc b))

/-! ## The blocks -/

/-- Window `w`'s block at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds the window's block at every point, whether the point fetched it or not:
    a point that does not fetch the window has the block index of the point before, and the body leaves an input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the one store take a whole buffer -/

abbrev rTile : Rect S5000x128 := Rect.unit (s := S5000x128) ![0, 0] S5000x128.size inb_S5000x128_S5000x128_0_0
abbrev rSq : Rect S128x128 := Rect.unit (s := S128x128) ![0, 0] S128x128.size inb_S128x128_S128x128_0_0
abbrev rRow : Rect S1x128 := Rect.unit (s := S1x128) ![0, 0] S1x128.size inb_S1x128_S1x128_0_0

/-! ## The output tile -/

/-- The output buffer after the body, from the eleven input blocks: the canonical array of the single store. Its value is the
    second half of the body's arithmetic (second linear layer, residual product, the final leaky rectifier) applied to the first
    half's (first linear layer, normalisation by the batch statistics, the first leaky rectifier). -/
def outTile (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (x10 : Vec F S128x128 .f32) : Vec F S5000x128 .f32 :=
  View.canon [⟨rTile, k1_pay1 (k1_pay2 (View.ld x0 rTile) (View.ld x1 rTile) (View.ld x2 rSq) (View.ld x3 rRow) (View.ld x5 rRow) (View.ld x4 rRow) (View.ld x6 rRow) (View.ld x7 rRow)) (View.ld x8 rSq) (View.ld x9 rRow) (View.ld x0 rTile) (View.ld x10 rSq)⟩]

/-- The single store covers the tile. -/
theorem cover_tile (p0 : Vec F S5000x128 .f32) (y : S5000x128.Idx) :
    ∃ pc ∈ ([⟨rTile, p0⟩] : List (View.Piece (Elt F) S5000x128 .f32)), y ∈ pc.1.set :=
  View.cover_of_tiled [⟨rTile, p0⟩] S5000x128.size (by rfl) y

/-! ## The body's triple -/

set_option maxHeartbeats 4000000 in
/-- The body, run on whole staging buffers with the inputs at contents `x0 … x10` and the output at anything, ends with the inputs
    as they were and the output at `outTile` of the inputs. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S5000x128 .f32) (harg12 : arg12.IsWhole)
    (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (x10 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outTile x0 x1 x2 x3 x4 x5 x6 x7 x8 x9 x10)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10 arg11 harg11 arg12 harg12) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover_tile _)

/-! ## The proof data of the second call -/

/-- On core `c`: the arrays as the call finds them; after the body at point `t` each input buffer at its block and the output
    buffer at `outTile` of the blocks; nothing kept between points beyond what every call keeps; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => outTile (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = outTile (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 2000000 in
/-- The body at any point: the input buffers hold their blocks, so the triple applies; what is kept between points and what the
    core owes pass through unread. The output buffer's contents before the body are whatever the pipeline left there. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end Cert.Kernel.Tile

end
-- ==== Proof.WholeBits.lean ====
/-
  The whole program: twenty-four host operations, the statistics call, the layer call.

  The contents of the core's buffers are followed from the launch through the three stretches: after the host operations every
  buffer holds the operations' fold of the launch memory; after the first call its two outputs hold what its write-backs leave and
  every other buffer is as before; likewise after the second call. Each call is entered from the state the stretch before it left
  and leaves the state the next is entered from. The run ends with every buffer at the last fold, from which both the frame (no
  argument is ever written) and the result (the second call's output array) are read.
-/
import proofs.«142832_j44555990728952_1_alg».proof.Proof.AccBodyBits
import proofs.«142832_j44555990728952_1_alg».proof.Proof.TileBits
import proofs.«142832_j44555990728952_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel.Acc Cert.Kernel.Tile

variable (m : (ℓ : Loc nD τ sig) → Buf (Elt F) ℓ) (ρ : Dev nD → PrngReg)

/-! ## The buffers' contents at each boundary -/

/-- At launch; after the host operations (the first call's entry). -/
abbrev B0 : Dev nD → Valuation τ sig (Elt F) := fun c => Gen.V0 m c
abbrev B1 : Dev nD → Valuation τ sig (Elt F) := fun c => Gen.V1 m c
/-- The same read at the core's references: what the first call's proof data take. -/
abbrev E1 : (c : Dev nD) → (b : Ref sig .tc) → Buf (Elt F) ((c : Thread nD τ).loc b) := fun c b => B1 m c b
/-- After the first call: its arrays at what its write-backs leave, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the second call. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ## No argument is ever written: the node features are read by both calls through an input window, the other arguments by
    host operations only -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := (B3_arr m c 0).trans (((dat1 (E2 m) c).arrAt_in 0 rfl _).trans (A_eq1 (E2 m) c 0))
    _ = B1 m c (Proc.devRef .tc main_arg0) := (B2_arr m c 0).trans (((dat0 (E1 m) c).arrAt_in 0 rfl _).trans (A_eq0 (E1 m) c 0))
    _ = m ((c : Thread nD τ).loc main_arg0) := Gen.V1_of m c main_arg0 (by decide)
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = m ((c : Thread nD τ).loc main_arg1) := Gen.V1_of m c main_arg1 (by decide)
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = m ((c : Thread nD τ).loc main_arg2) := Gen.V1_of m c main_arg2 (by decide)
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = m ((c : Thread nD τ).loc main_arg3) := Gen.V1_of m c main_arg3 (by decide)
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = m ((c : Thread nD τ).loc main_arg4) := Gen.V1_of m c main_arg4 (by decide)
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = m ((c : Thread nD τ).loc main_arg5) := Gen.V1_of m c main_arg5 (by decide)
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = m ((c : Thread nD τ).loc main_arg6) := Gen.V1_of m c main_arg6 (by decide)
theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = B1 m c (Proc.devRef .tc main_arg7) := B2_of_ne m c main_arg7 (by decide)
    _ = m ((c : Thread nD τ).loc main_arg7) := Gen.V1_of m c main_arg7 (by decide)
theorem B3_main_arg8 (c : Dev nD) : B3 m c (Proc.devRef .tc main_arg8) = m ((c : Thread nD τ).loc main_arg8) :=
  calc B3 m c (Proc.devRef .tc main_arg8)
    _ = B2 m c (Proc.devRef .tc main_arg8) := B3_of_ne m c main_arg8 (by decide)
    _ = B1 m c (Proc.devRef .tc main_arg8) := B2_of_ne m c main_arg8 (by decide)
    _ = m ((c : Thread nD τ).loc main_arg8) := Gen.V1_of m c main_arg8 (by decide)

/-! ## The proof data family and the state carried between stretches -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The two calls as segments -/

set_option backward.isDefEq.respectTransparency.types false in
/-- The statistics call: entered with every buffer at the host operations' fold, left with its two outputs at what its last
    point wrote back. The generator register passes into the invariant and out; the accumulators' contents are forgotten at the
    exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (Phi_out0 (E1 m) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The layer call: entered from what the statistics call left, left with the result array at what its ten write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as three segments, and its run -/

abbrev segs : List (Pipeline.Seg (pcfgs (F := F)) adm (pdats m) () defs₀ 𝒱₀ L lv) :=
  [ .host (hseg hostOps0 hostOps0_sub Gen.hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters, every weakly fair execution of the program terminates, nothing faulting, and in the final
    state every unscoped buffer of every core holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c),
    (h c _ (mem_uc main_arg8 (by decide))).trans (B3_main_arg8 m c)⟩) (run_all m ρ)

end Cert.Kernel.Whole

end
-- ==== Proof.AccSharedIdeal.lean ====
/-
  The first kernel call of the layer accumulates, over ten tiles of 5000 rows, the column sums and the column sums of squares of
  the first linear layer's output, in two one-row scratch buffers that live across the grid points: the first point resets them,
  every point adds its tile's sums to them, and the last point divides by the number of rows and stores the mean and the variance
  into the two one-row outputs. This module holds what the three kinds of point share: the two branch conditions in closed form over
  the grid, where the two outputs are idle, and the buffers the body is handed.
-/
import proofs.«142832_j44555990728952_1_alg».proof.Proof.Gen.KernelIdeal.Launch
import proofs.«142832_j44555990728952_1_alg».proof.Proof.Gen.KernelIdeal.Skeleton
import proofs.«142832_j44555990728952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the first call is entered
variable (V : (c : Dev nD) → (b : Ref sig .tc) → Buf (Elt F) ((c : Thread nD τ).loc b))

/-! ## The blocks -/

/-- Window `w`'s block at grid point `t`, read off the window's array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds the window's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions, decided over the ten grid points -/

/-- "This is the first tile": the reset of the two accumulators runs under it. -/
abbrev condFirst (i : grid0.Coords) : Prop := (Scalar.cmpi .ne (Scalar.extui (Scalar.cmpi .eq (BitVec.ofNat 32 (i 0).val) 0#32)) 0#32) = 1#1
theorem hcondFirst : ∀ t : Fin cfg0.N, condFirst (grid0.coords t) ↔ t.val % 10 = 0 :=
  (by decide +kernel : ∀ t : Fin grid0.N, condFirst (grid0.coords t) ↔ t.val % 10 = 0)

/-- "This is the last tile": the mean and the variance are stored under it. -/
abbrev condLast (i : grid0.Coords) : Prop := k0_cond2 i = 1#1
theorem hcondLast : ∀ t : Fin cfg0.N, condLast (grid0.coords t) ↔ t.val % 10 = 9 :=
  (by decide +kernel : ∀ t : Fin grid0.N, condLast (grid0.coords t) ↔ t.val % 10 = 9)

/-! ## Where the windows are idle: the inputs never, the two outputs everywhere but at the last tile, and they are written back
    only there -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬condLast (grid0.coords t) → cfg0.idle 4 (grid0.coords t) = true := by decide +kernel
theorem noFlush0_4 : ∀ t : Fin cfg0.N, ¬condLast (grid0.coords t) → (cfg0.win 4).flush t = false := by decide +kernel
theorem liveAt0_4 : ∀ t : Fin cfg0.N, condLast (grid0.coords t) → cfg0.idle 4 (grid0.coords t) = false := by decide +kernel
theorem idleAt0_5 : ∀ t : Fin cfg0.N, ¬condLast (grid0.coords t) → cfg0.idle 5 (grid0.coords t) = true := by decide +kernel
theorem noFlush0_5 : ∀ t : Fin cfg0.N, ¬condLast (grid0.coords t) → (cfg0.win 5).flush t = false := by decide +kernel
theorem liveAt0_5 : ∀ t : Fin cfg0.N, condLast (grid0.coords t) → cfg0.idle 5 (grid0.coords t) = false := by decide +kernel

/-! ## The buffers the body is handed -/

/-- One staging buffer of each output, through which that output's contents are stated. -/
abbrev VO4 : View sig .tc .vmem S1x128 .f32 := (Memref.whole cc0_stg4_0 : Memref sig .tc .vmem S1x128 .f32).view
abbrev VO5 : View sig .tc .vmem S1x128 .f32 := (Memref.whole cc0_stg5_0 : Memref sig .tc .vmem S1x128 .f32).view
/-- Each window's current staging buffer at point `t`, as the pipeline passes it, and its wholeness. -/
abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
/-- The two accumulators: whole scoped buffers of the kernel's own, passed beside the windows, and the views through which their
    contents are stated. -/
abbrev scM0 : Memref sig .tc .vmem S1x128 .f32 := Memref.whole cc0_scratch0
abbrev scM1 : Memref sig .tc .vmem S1x128 .f32 := Memref.whole cc0_scratch1
abbrev VS0 : View sig .tc .vmem S1x128 .f32 := scM0.view
abbrev VS1 : View sig .tc .vmem S1x128 .f32 := scM1.view

/-- The core's other scoped buffers (the second call's staging buffers), each whole at some contents: the first call never
    touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f))

/-- What every call keeps between its points, with the two accumulators singled out as buffers owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ otherScoped c) ∗ (∃ r, prngReg c r)) := by
  unfold Pipeline.ΦA otherScoped; rw [scopedRest0_eq]; simp only [scM0, scM1, owns_whole]; try rfl

end Cert.KernelIdeal.Acc

end
-- ==== Proof.AccFirstIdeal.lean ====
/-
  The statistics kernel's body at the first tile: both accumulators are reset, then the tile's sums are added; nothing is stored into the outputs. The triple holds for the body run on whole buffers; its witness is the
  pieces each buffer ends with (last store first).
-/
import proofs.«142832_j44555990728952_1_alg».proof.Proof.AccSharedIdeal

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) :
    Σ' (L4 : List (View.Piece (Elt F) S1x128 .f32)) (L5 : List (View.Piece (Elt F) S1x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Acc

end
-- ==== Proof.AccMiddleIdeal.lean ====
/-
  The statistics kernel's body at a middle tile: the tile's sums are added to what the accumulators held; nothing is stored into the outputs. The triple holds for the body run on whole buffers; its witness is the
  pieces each buffer ends with (last store first).
-/
import proofs.«142832_j44555990728952_1_alg».proof.Proof.AccFirstIdeal

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S1x128 .f32)) (L5 : List (View.Piece (Elt F) S1x128 .f32)) (LS0 : List (View.Piece (Elt F) S1x128 .f32)), { LS1 : List (View.Piece (Elt F) S1x128 .f32) //
      ∀ (xi4 : Vec F S1x128 .f32) (xi5 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

end Cert.KernelIdeal.Acc

end
-- ==== Proof.AccLastIdeal.lean ====
/-
  The statistics kernel's body at the last tile: the tile's sums are added, and the mean and the variance of all rows are stored into the two outputs. The triple holds for the body run on whole buffers; its witness is the
  pieces each buffer ends with (last store first).
-/
import proofs.«142832_j44555990728952_1_alg».proof.Proof.AccMiddleIdeal

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) :
    Σ' (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end Cert.KernelIdeal.Acc

end
-- ==== Proof.AccBodyIdeal.lean ====
/-
  The statistics kernel over its ten grid points.

  What the two accumulators and the two outputs hold after each point is defined by recursion on the point: the first point's
  contents come from the reset followed by the first tile's sums; a later point's from the point before plus its tile's sums; the
  last point's outputs from the accumulators it ends with. The invariant kept between points says exactly that the accumulators
  hold the contents of the point before. With it the body's triple at any point is the triple of that point's kind.
-/
import proofs.«142832_j44555990728952_1_alg».proof.Proof.AccLastIdeal

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves: its pieces read back, and that they cover the buffer -/

theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.1 S1x128.size (by sl_kernel_rfl) y
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) (y : S1x128.Idx) :
    ∃ pc ∈ (kernelRun0_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.2.1 S1x128.size (by sl_kernel_rfl) y
def out0_A_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) : Vec F S1x128 .f32 :=
  VO4.read (Elt F) (VO4.writes (Elt F) VO4.junk (kernelRun0_A c i arg1 harg1 arg2 harg2 arg3 harg3 arg4 harg4 arg5 harg5 arg6 harg6 arg7 harg7 arg8 harg8 hc0 hc1 x0 x1 x2 x3).1)
def out0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) : Vec F S1x128 .f32 :=
  VO5.read (Elt F) (VO5.writes (Elt F) VO5.junk (kernelRun0_A c i arg1 harg1 arg2 harg2 arg3 harg3 arg4 harg4 arg5 harg5 arg6 harg6 arg7 harg7 arg8 harg8 hc0 hc1 x0 x1 x2 x3).2.1)
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) : Vec F S1x128 .f32 :=
  VS0.read (Elt F) (VS0.writes (Elt F) VS0.junk (kernelRun0_A c i arg1 harg1 arg2 harg2 arg3 harg3 arg4 harg4 arg5 harg5 arg6 harg6 arg7 harg7 arg8 harg8 hc0 hc1 x0 x1 x2 x3).2.2.1)
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : condFirst i) (hc1 : ¬condLast i)
    (x0 : Vec F S5000x128 .f32) (x1 : Vec F S5000x128 .f32) (x2 : Vec F S128x128 .f32) (x3 : Vec F S1x128 .f32) : Vec F S1x128 .f32 :=
  VS1.read (Elt F) (VS1.writes (Elt F) VS1.junk (kernelRun0_A c i arg1 harg1 arg2 harg2 arg3 harg3 arg4 harg4 arg5 harg5 arg6 harg6 arg7 harg7 arg8 harg8 hc0 hc1 x0 x1 x2 x3).2.2.2.1)

theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.2.1 S1x128.size (by sl_kernel_rfl) y
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_B c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.2.2.1 S1x128.size (by sl_kernel_rfl) y
def out0_B_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO4.read (Elt F) (VO4.writes (Elt F) VO4.junk (kernelRun0_B c i arg1 harg1 arg2 harg2 arg3 harg3 arg4 harg4 arg5 harg5 arg6 harg6 arg7 harg7 arg8 harg8 hc0 hc1 x0 x1 x2 x3 xs0 xs1).1)
def out0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO5.read (Elt F) (VO5.writes (Elt F) VO5.junk (kernelRun0_B c i arg1 harg1 arg2 harg2 arg3 harg3 arg4 harg4 arg5 harg5 arg6 harg6 arg7 harg7 arg8 harg8 hc0 hc1 x0 x1 x2 x3 xs0 xs1).2.1)
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS0.read (Elt F) (VS0.writes (Elt F) VS0.junk (kernelRun0_B c i arg1 harg1 arg2 harg2 arg3 harg3 arg4 harg4 arg5 harg5 arg6 harg6 arg7 harg7 arg8 harg8 hc0 hc1 x0 x1 x2 x3 xs0 xs1).2.2.1)
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS1.read (Elt F) (VS1.writes (Elt F) VS1.junk (kernelRun0_B c i arg1 harg1 arg2 harg2 arg3 harg3 arg4 harg4 arg5 harg5 arg6 harg6 arg7 harg7 arg8 harg8 hc0 hc1 x0 x1 x2 x3 xs0 xs1).2.2.2.1)

theorem cover0_C_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S1x128.size (by sl_kernel_rfl) y
theorem cover0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x128.size (by sl_kernel_rfl) y
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x128.size (by sl_kernel_rfl) y
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) (y : S1x128.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x128.size (by sl_kernel_rfl) y
def out0_C_4 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO4.read (Elt F) (VO4.writes (Elt F) VO4.junk (kernelRun0_C c i arg1 harg1 arg2 harg2 arg3 harg3 arg4 harg4 arg5 harg5 arg6 harg6 arg7 harg7 arg8 harg8 hc0 hc1 x0 x1 x2 x3 xs0 xs1).1)
def out0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VO5.read (Elt F) (VO5.writes (Elt F) VO5.junk (kernelRun0_C c i arg1 harg1 arg2 harg2 arg3 harg3 arg4 harg4 arg5 harg5 arg6 harg6 arg7 harg7 arg8 harg8 hc0 hc1 x0 x1 x2 x3 xs0 xs1).2.1)
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS0.read (Elt F) (VS0.writes (Elt F) VS0.junk (kernelRun0_C c i arg1 harg1 arg2 harg2 arg3 harg3 arg4 harg4 arg5 harg5 arg6 harg6 arg7 harg7 arg8 harg8 hc0 hc1 x0 x1 x2 x3 xs0 xs1).2.2.1)
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) : Vec F S1x128 .f32 :=
  VS1.read (Elt F) (VS1.writes (Elt F) VS1.junk (kernelRun0_C c i arg1 harg1 arg2 harg2 arg3 harg3 arg4 harg4 arg5 harg5 arg6 harg6 arg7 harg7 arg8 harg8 hc0 hc1 x0 x1 x2 x3 xs0 xs1).2.2.2.1)

/-! ## The contents after each point -/

/-- After the body at position `n`: (mean output, variance output, sum accumulator, sum-of-squares accumulator). At the points
    before the last the two outputs are placeholders nobody reads: the windows are idle there and not written back. -/
def outsAt0 (c : Dev nD) : (n : ℕ) → n < cfg0.N → Vec F S1x128 .f32 × Vec F S1x128 .f32 × Vec F S1x128 .f32 × Vec F S1x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcondFirst ⟨0, hn⟩).mpr (Nat.zero_mod _)) (fun h => absurd ((hcondLast ⟨0, hn⟩).mp h) (by show ¬ ((0 : ℕ) % 10 = 9); decide)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcondFirst ⟨0, hn⟩).mpr (Nat.zero_mod _)) (fun h => absurd ((hcondLast ⟨0, hn⟩).mp h) (by show ¬ ((0 : ℕ) % 10 = 9); decide)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcondFirst ⟨0, hn⟩).mpr (Nat.zero_mod _)) (fun h => absurd ((hcondLast ⟨0, hn⟩).mp h) (by show ¬ ((0 : ℕ) % 10 = 9); decide)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) scM1 (Memref.isWhole_whole _) ((hcondFirst ⟨0, hn⟩).mpr (Nat.zero_mod _)) (fun h => absurd ((hcondLast ⟨0, hn⟩).mp h) (by show ¬ ((0 : ℕ) % 10 = 9); decide)) (iblk0 V c 0 ⟨0, hn⟩) (iblk0 V c 1 ⟨0, hn⟩) (iblk0 V c 2 ⟨0, hn⟩) (iblk0 V c 3 ⟨0, hn⟩))
  | n + 1, hn =>
    if h1 : (n + 1) % 10 = 9 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) ((hcondLast ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) ((hcondLast ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) ((hcondLast ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) ((hcondLast ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) (fun h => h1 ((hcondLast ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) (fun h => h1 ((hcondLast ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) (fun h => h1 ((hcondLast ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) scM1 (Memref.isWhole_whole _) (fun h => absurd ((hcondFirst ⟨n + 1, hn⟩).mp h) (by have hN : n + 1 < 10 := lt_of_lt_of_eq hn (show cfg0.N = 10 from N_0); (try dsimp only); omega)) (fun h => h1 ((hcondLast ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcondFirst t).mpr (by rw [h0])) (fun h => absurd ((hcondLast t).mp h) (by rw [h0]; decide)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcondFirst t).mpr (by rw [h0])) (fun h => absurd ((hcondLast t).mp h) (by rw [h0]; decide)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcondFirst t).mpr (by rw [h0])) (fun h => absurd ((hcondLast t).mp h) (by rw [h0]; decide)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) ((hcondFirst t).mpr (by rw [h0])) (fun h => absurd ((hcondLast t).mp h) (by rw [h0]; decide)) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : t.val ≠ 0) (h1 : ¬t.val % 10 = 9) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) (fun h => h1 ((hcondLast t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) (fun h => h1 ((hcondLast t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) (fun h => h1 ((hcondLast t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) (fun h => h1 ((hcondLast t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt0_C (c : Dev nD) (t : Fin cfg0.N) (h0 : t.val ≠ 0) (h1 : t.val % 10 = 9) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) ((hcondLast t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) ((hcondLast t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) ((hcondLast t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) scM1 (Memref.isWhole_whole _) (fun h => absurd ((hcondFirst t).mp h) (by have hN : t.val < 10 := lt_of_lt_of_eq t.isLt (show cfg0.N = 10 from N_0); omega)) ((hcondLast t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The invariant between points -/

/-- Before position `n`: before the first point, what every call keeps; afterwards the two accumulators at what the point before
    left in them, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2.2.1) ∗ owns (c : Thread nD τ) scM1 fullShare ((outsAt0 V c n hn).2.2.2) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2.2.1) ∗ owns (c : Thread nD τ) scM1 fullShare ((outsAt0 V c n hn).2.2.2) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2.2.1) ∗ owns (c : Thread nD τ) scM1 fullShare ((outsAt0 V c (n - 1) (by omega)).2.2.2) ∗ otherScoped c) ∗ (∃ r, prngReg c r)) := by
  cases n with
  | zero => exact absurd rfl hz
  | succ n => rfl

/-! ## The proof data of the first call -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point. The inputs' buffers hold their blocks; the closed forms of the two conditions say which kind of point
    it is; the invariant hands the body the accumulators at what the point before left (at anything before the first point, where
    the body resets them) and takes them back at this point's contents; at a point that is not the last the two outputs' buffers
    are handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h1 : t.val % 10 = 9
  · have h0 : t.val ≠ 0 := by omega
    rw [show (dat0 V c).leavesExact 4 t = owns (c : Thread nD τ) (ms0_4 t) fullShare ((dat0 V c).after 4 t) from by
      unfold Dat.leavesExact; rw [liveAt0_4 t ((hcondLast t).mpr h1)], after0_4]
    rw [show (dat0 V c).leavesExact 5 t = owns (c : Thread nD τ) (ms0_5 t) fullShare ((dat0 V c).after 5 t) from by
      unfold Dat.leavesExact; rw [liveAt0_5 t ((hcondLast t).mpr h1)], after0_5]
    rw [outsAt0_C V c t h0 h1]
    unfold out0_C_4 out0_C_5 sout0_C_0 sout0_C_1; (try dsimp only)
    rw [PhiS_castSucc V c t, PhiS_pos V c _ _ h0]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
    iapply ((kernelRun0_C c (grid0.coords t) _ _ _ _ _ _ _ _ _ _ _ _ _ _ _ _ (fun h => absurd ((hcondFirst t).mp h) (by have hN : t.val < 10 := lt_of_lt_of_eq t.isLt (show cfg0.N = 10 from N_0); omega)) ((hcondLast t).mpr h1) (iblk0 V c 0 t) (iblk0 V c 1 t) (iblk0 V c 2 t) (iblk0 V c 3 t) _ _).2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, ⟨%e4, H4⟩, ⟨%e5, H5⟩, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover0_C_1 c _ _ _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover0_C_4 c _ _ _ _ _ _ _ _ _ _ _ _ _ _ _ _ _ _ _ _ _ _ _ _ _)
    unfold owns; iexists _; isplitr
    swap; · iexact H5
    ipureintro; exact View.read_writes_of_cover _ _ _ _ _ (cover0_C_5 c _ _ _ _ _ _ _ _ _ _ _ _ _ _ _ _ _ _ _ _ _ _ _ _ _)
  · by_cases h0 : t.val = 0
    · rw [Dat.leavesExact_idle (dat0 V c) 4 t (idleAt0_4 t (fun h => absurd ((hcondLast t).mp h) (by rw [h0]; decide))) (noFlush0_4 t (fun h => absurd ((hcondLast t).mp h) (by rw [h0]; decide))),
        Dat.leavesExact_idle (dat0 V c) 5 t (idleAt0_5 t (fun h => absurd ((hcondLast t).mp h) (by rw [h0]; decide))) (noFlush0_5 t (fun h => absurd ((hcondLast t).mp h) (by rw [h0]; decide)))]
      rw [outsAt0_A V c t h0]
      unfold sout0_A_0 sout0_A_1; (try dsimp only)
      rw [PhiS_castSucc V c t, PhiS_zero V c _ _ h0, PhiA0_eq]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ ((hcondFirst t).mpr (by rw [h0])) (fun h => absurd ((hcondLast t).mp h) (by rw [h0]; decide)) (iblk0 V c 0 t) (iblk0 V c 1 t) (iblk0 V c 2 t) (iblk0 V c 3 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Dat.leavesExact_idle (dat0 V c) 4 t (idleAt0_4 t (fun h => h1 ((hcondLast t).mp h))) (noFlush0_4 t (fun h => h1 ((hcondLast t).mp h))),
        Dat.leavesExact_idle (dat0 V c) 5 t (idleAt0_5 t (fun h => h1 ((hcondLast t).mp h))) (noFlush0_5 t (fun h => h1 ((hcondLast t).mp h)))]
      rw [outsAt0_B V c t h0 h1]
      unfold sout0_B_0 sout0_B_1; (try dsimp only)
      rw [PhiS_castSucc V c t, PhiS_pos V c _ _ h0]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => absurd ((hcondFirst t).mp h) (by have hN : t.val < 10 := lt_of_lt_of_eq t.isLt (show cfg0.N = 10 from N_0); omega)) (fun h => h1 ((hcondLast t).mp h)) (iblk0 V c 0 t) (iblk0 V c 1 t) (iblk0 V c 2 t) (iblk0 V c 3 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body obligation of the first call, at every point. -/
theorem body_obligation0 (c : Dev nD) : BodyObligation (dat0 (F := F) V c) (defs₀ (F := F)) Variants.none () Set.univ := fun t => by
  rw [bigSep_W0, bigSep_W0]
  exact sound_body0 V c t

/-! ## Into the invariant and out of it -/

theorem Phi_in0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives back what every call keeps: the accumulators' named contents are
    forgotten. -/
theorem Phi_out0 (c : Dev nD) : (dat0 V c).Φ (Fin.last cfg0.N) ⊢ Pipeline.ΦA spec0 c := by
  have ht : (Fin.last cfg0.N).val ≠ 0 := by rw [Fin.val_last]; have : cfg0.N = 10 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Cert.KernelIdeal.Acc

end
-- ==== Proof.TileIdeal.lean ====
/-
  The second kernel call of the layer, one grid point at a time.

  At a grid point the body is handed eleven input blocks — a tile of 5000 rows of the node features and of the neighbour sums, the
  first weight matrix and bias, the batch mean and variance, the scale and shift, the second weight matrix and bias, the residual
  weights — and writes one output tile through a single store that covers the whole tile. So the output buffer after the body is
  a function of the input blocks alone: the canonical array of that one store, whose value is the body's arithmetic on the blocks.
  Every input buffer is left as found. Nothing is carried from one point to the next.
-/
import proofs.«142832_j44555990728952_1_alg».proof.Proof.Gen.KernelIdeal.Launch
import proofs.«142832_j44555990728952_1_alg».proof.Proof.Gen.KernelIdeal.Skeleton
import proofs.«142832_j44555990728952_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the second call is entered
variable (V : (c : Dev nD) → (b : Ref sig .tc) → Buf (Elt F) ((c : Thread nD τ).loc b))

/-! ## The blocks -/

/-- Window `w`'s block at grid point `t`, read off the window's array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds the window's block at every point, whether the point fetched it or not:
    a point that does not fetch the window has the block index of the point before, and the body leaves an input block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each load and the one store take a whole buffer -/

abbrev rTile : Rect S5000x128 := Rect.unit (s := S5000x128) ![0, 0] S5000x128.size inb_S5000x128_S5000x128_0_0
abbrev rSq : Rect S128x128 := Rect.unit (s := S128x128) ![0, 0] S128x128.size inb_S128x128_S128x128_0_0
abbrev rRow : Rect S1x128 := Rect.unit (s := S1x128) ![0, 0] S1x128.size inb_S1x128_S1x128_0_0

/-! ## The output tile -/

/-- The output buffer after the body, from the eleven input blocks: the canonical array of the single store. Its value is the
    second half of the body's arithmetic (second linear layer, residual product, the final leaky rectifier) applied to the first
    half's (first linear layer, normalisation by the batch statistics, the first leaky rectifier). -/
def outTile (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (x10 : Vec F S128x128 .f32) : Vec F S5000x128 .f32 :=
  View.canon [⟨rTile, k1_pay1 (k1_pay2 (View.ld x0 rTile) (View.ld x1 rTile) (View.ld x2 rSq) (View.ld x3 rRow) (View.ld x5 rRow) (View.ld x4 rRow) (View.ld x6 rRow) (View.ld x7 rRow)) (View.ld x8 rSq) (View.ld x9 rRow) (View.ld x0 rTile) (View.ld x10 rSq)⟩]

/-- The single store covers the tile. -/
theorem cover_tile (p0 : Vec F S5000x128 .f32) (y : S5000x128.Idx) :
    ∃ pc ∈ ([⟨rTile, p0⟩] : List (View.Piece (Elt F) S5000x128 .f32)), y ∈ pc.1.set :=
  View.cover_of_tiled [⟨rTile, p0⟩] S5000x128.size (by rfl) y

/-! ## The body's triple -/

set_option maxHeartbeats 4000000 in
/-- The body, run on whole staging buffers with the inputs at contents `x0 … x10` and the output at anything, ends with the inputs
    as they were and the output at `outTile` of the inputs. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (arg10 : Memref sig .tc .vmem S1x128 .f32) (harg10 : arg10.IsWhole) (arg11 : Memref sig .tc .vmem S128x128 .f32) (harg11 : arg11.IsWhole) (arg12 : Memref sig .tc .vmem S5000x128 .f32) (harg12 : arg12.IsWhole)
    (x0 : Vec F S5000x128 .f32) (x1 : Vec F S5000x128 .f32) (x2 : Vec F S128x128 .f32) (x3 : Vec F S1x128 .f32) (x4 : Vec F S1x128 .f32) (x5 : Vec F S1x128 .f32) (x6 : Vec F S1x128 .f32) (x7 : Vec F S1x128 .f32) (x8 : Vec F S128x128 .f32) (x9 : Vec F S1x128 .f32) (x10 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outTile x0 x1 x2 x3 x4 x5 x6 x7 x8 x9 x10)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10 arg11 harg11 arg12 harg12) K := by
  simp only [cc1__mlp_kernel_eq_skeleton]; unfold cc1__mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover_tile _)

/-! ## The proof data of the second call -/

/-- On core `c`: the arrays as the call finds them; after the body at point `t` each input buffer at its block and the output
    buffer at `outTile` of the blocks; nothing kept between points beyond what every call keeps; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => outTile (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = outTile (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! ## The body obligation at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t))

set_option maxHeartbeats 2000000 in
/-- The body at any point: the input buffers hold their blocks, so the triple applies; what is kept between points and what the
    core owes pass through unread. The output buffer's contents before the body are whatever the pipeline left there. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel1 c Set.univ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of the second call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Tile

end
-- ==== Proof.WholeIdeal.lean ====
/-
  The whole program: twenty-four host operations, the statistics call, the layer call.

  The contents of the core's buffers are followed from the launch through the three stretches: after the host operations every
  buffer holds the operations' fold of the launch memory; after the first call its two outputs hold what its write-backs leave and
  every other buffer is as before; likewise after the second call. Each call is entered from the state the stretch before it left
  and leaves the state the next is entered from. The run ends with every buffer at the last fold, from which both the frame (no
  argument is ever written) and the result (the second call's output array) are read.
-/
import proofs.«142832_j44555990728952_1_alg».proof.Proof.AccBodyIdeal
import proofs.«142832_j44555990728952_1_alg».proof.Proof.TileIdeal
import proofs.«142832_j44555990728952_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Acc Cert.KernelIdeal.Tile

variable (m : (ℓ : Loc nD τ sig) → Buf (Elt F) ℓ) (ρ : Dev nD → PrngReg)

/-! ## The buffers' contents at each boundary -/

/-- At launch; after the host operations (the first call's entry). -/
abbrev B0 : Dev nD → Valuation τ sig (Elt F) := fun c => Gen.V0 m c
abbrev B1 : Dev nD → Valuation τ sig (Elt F) := fun c => Gen.V1 m c
/-- The same read at the core's references: what the first call's proof data take. -/
abbrev E1 : (c : Dev nD) → (b : Ref sig .tc) → Buf (Elt F) ((c : Thread nD τ).loc b) := fun c b => B1 m c b
/-- After the first call: its arrays at what its write-backs leave, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- After the second call. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ## No argument is ever written: the node features are read by both calls through an input window, the other arguments by
    host operations only -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := (B3_arr m c 0).trans (((dat1 (E2 m) c).arrAt_in 0 rfl _).trans (A_eq1 (E2 m) c 0))
    _ = B1 m c (Proc.devRef .tc main_arg0) := (B2_arr m c 0).trans (((dat0 (E1 m) c).arrAt_in 0 rfl _).trans (A_eq0 (E1 m) c 0))
    _ = m ((c : Thread nD τ).loc main_arg0) := Gen.V1_of m c main_arg0 (by decide)
theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := B2_of_ne m c main_arg1 (by decide)
    _ = m ((c : Thread nD τ).loc main_arg1) := Gen.V1_of m c main_arg1 (by decide)
theorem B3_main_arg2 (c : Dev nD) : B3 m c (Proc.devRef .tc main_arg2) = m ((c : Thread nD τ).loc main_arg2) :=
  calc B3 m c (Proc.devRef .tc main_arg2)
    _ = B2 m c (Proc.devRef .tc main_arg2) := B3_of_ne m c main_arg2 (by decide)
    _ = B1 m c (Proc.devRef .tc main_arg2) := B2_of_ne m c main_arg2 (by decide)
    _ = m ((c : Thread nD τ).loc main_arg2) := Gen.V1_of m c main_arg2 (by decide)
theorem B3_main_arg3 (c : Dev nD) : B3 m c (Proc.devRef .tc main_arg3) = m ((c : Thread nD τ).loc main_arg3) :=
  calc B3 m c (Proc.devRef .tc main_arg3)
    _ = B2 m c (Proc.devRef .tc main_arg3) := B3_of_ne m c main_arg3 (by decide)
    _ = B1 m c (Proc.devRef .tc main_arg3) := B2_of_ne m c main_arg3 (by decide)
    _ = m ((c : Thread nD τ).loc main_arg3) := Gen.V1_of m c main_arg3 (by decide)
theorem B3_main_arg4 (c : Dev nD) : B3 m c (Proc.devRef .tc main_arg4) = m ((c : Thread nD τ).loc main_arg4) :=
  calc B3 m c (Proc.devRef .tc main_arg4)
    _ = B2 m c (Proc.devRef .tc main_arg4) := B3_of_ne m c main_arg4 (by decide)
    _ = B1 m c (Proc.devRef .tc main_arg4) := B2_of_ne m c main_arg4 (by decide)
    _ = m ((c : Thread nD τ).loc main_arg4) := Gen.V1_of m c main_arg4 (by decide)
theorem B3_main_arg5 (c : Dev nD) : B3 m c (Proc.devRef .tc main_arg5) = m ((c : Thread nD τ).loc main_arg5) :=
  calc B3 m c (Proc.devRef .tc main_arg5)
    _ = B2 m c (Proc.devRef .tc main_arg5) := B3_of_ne m c main_arg5 (by decide)
    _ = B1 m c (Proc.devRef .tc main_arg5) := B2_of_ne m c main_arg5 (by decide)
    _ = m ((c : Thread nD τ).loc main_arg5) := Gen.V1_of m c main_arg5 (by decide)
theorem B3_main_arg6 (c : Dev nD) : B3 m c (Proc.devRef .tc main_arg6) = m ((c : Thread nD τ).loc main_arg6) :=
  calc B3 m c (Proc.devRef .tc main_arg6)
    _ = B2 m c (Proc.devRef .tc main_arg6) := B3_of_ne m c main_arg6 (by decide)
    _ = B1 m c (Proc.devRef .tc main_arg6) := B2_of_ne m c main_arg6 (by decide)
    _ = m ((c : Thread nD τ).loc main_arg6) := Gen.V1_of m c main_arg6 (by decide)
theorem B3_main_arg7 (c : Dev nD) : B3 m c (Proc.devRef .tc main_arg7) = m ((c : Thread nD τ).loc main_arg7) :=
  calc B3 m c (Proc.devRef .tc main_arg7)
    _ = B2 m c (Proc.devRef .tc main_arg7) := B3_of_ne m c main_arg7 (by decide)
    _ = B1 m c (Proc.devRef .tc main_arg7) := B2_of_ne m c main_arg7 (by decide)
    _ = m ((c : Thread nD τ).loc main_arg7) := Gen.V1_of m c main_arg7 (by decide)
theorem B3_main_arg8 (c : Dev nD) : B3 m c (Proc.devRef .tc main_arg8) = m ((c : Thread nD τ).loc main_arg8) :=
  calc B3 m c (Proc.devRef .tc main_arg8)
    _ = B2 m c (Proc.devRef .tc main_arg8) := B3_of_ne m c main_arg8 (by decide)
    _ = B1 m c (Proc.devRef .tc main_arg8) := B2_of_ne m c main_arg8 (by decide)
    _ = m ((c : Thread nD τ).loc main_arg8) := Gen.V1_of m c main_arg8 (by decide)

/-! ## The proof data family and the state carried between stretches -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The two calls as segments -/

set_option backward.isDefEq.respectTransparency.types false in
/-- The statistics call: entered with every buffer at the host operations' fold, left with its two outputs at what its last
    point wrote back. The generator register passes into the invariant and out; the accumulators' contents are forgotten at the
    exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (Phi_out0 (E1 m) c).trans (by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The layer call: entered from what the statistics call left, left with the result array at what its ten write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as three segments, and its run -/

abbrev segs : List (Pipeline.Seg (pcfgs (F := F)) adm (pdats m) () defs₀ 𝒱₀ L lv) :=
  [ .host (hseg hostOps0 hostOps0_sub Gen.hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- From any memory with zero counters, every weakly fair execution of the program terminates, nothing faulting, and in the final
    state every unscoped buffer of every core holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c _ (mem_uc main_arg0 (by decide))).trans (B3_main_arg0 m c),
    (h c _ (mem_uc main_arg1 (by decide))).trans (B3_main_arg1 m c),
    (h c _ (mem_uc main_arg2 (by decide))).trans (B3_main_arg2 m c),
    (h c _ (mem_uc main_arg3 (by decide))).trans (B3_main_arg3 m c),
    (h c _ (mem_uc main_arg4 (by decide))).trans (B3_main_arg4 m c),
    (h c _ (mem_uc main_arg5 (by decide))).trans (B3_main_arg5 m c),
    (h c _ (mem_uc main_arg6 (by decide))).trans (B3_main_arg6 m c),
    (h c _ (mem_uc main_arg7 (by decide))).trans (B3_main_arg7 m c),
    (h c _ (mem_uc main_arg8 (by decide))).trans (B3_main_arg8 m c)⟩) (run_all m ρ)

end Cert.KernelIdeal.Whole

end
-- ==== Proof.RefRun.lean ====
/-
  The reference's run.

  The reference is a straight line of 77 host operations once the two calls of the leaky rectifier are replaced by the
  callee's seven operations each. Run from any memory, every buffer ends at the operations applied in order to the launch
  contents, so the result buffer holds one pure function of the nine argument arrays and the argument arrays are untouched.

  That function is named here stage by stage, as a graph-isomorphism-network layer reads:
    agg    : for every node, the sum over incoming edges of the source node's feature row (a gather of rows by the wrapped
             source index, then a scatter-add into a zero array by the destination index);
    h1     : (x + agg) · W1ᵀ + b1;
    mu     : per column, the sum over the 50000 rows divided by 50000;
    var    : per column, the sum over rows of (h1 − mu)², divided by 50000;
    normed : (h1 − mu) · rsqrt(var + ε) · γ + β;
    act1   : the leaky rectifier of slope 0.01: a where a ≥ 0, slope · a elsewhere;
    h2     : act1 · W2ᵀ + b2;
    xres   : x · Wresᵀ;
    result : the leaky rectifier of slope 0.2 of h2 + xres.
-/
import proofs.«142832_j44555990728952_1_alg».proof.Defs
import proofs.«142832_j44555990728952_1_alg».proof.Proof.Gen.ReferenceIdeal
import proofs.«142832_j44555990728952_1_alg».proof.Proof.Gen.Pre_finite_inputs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The arrays' types -/

/-- A 50000 × 128 array of floats: one feature row per node. -/
abbrev Feat (F : FTy → Type) : Type := (⟨S50000x128, .f32⟩ : BufTy).Contents (Elt F)
/-- A 128 × 128 weight matrix. -/
abbrev Wt (F : FTy → Type) : Type := (⟨S128x128, .f32⟩ : BufTy).Contents (Elt F)
/-- One float per column. -/
abbrev Chan (F : FTy → Type) : Type := (⟨S128, .f32⟩ : BufTy).Contents (Elt F)
/-- One float. -/
abbrev Scal (F : FTy → Type) : Type := (⟨S_, .f32⟩ : BufTy).Contents (Elt F)
/-- The 2 × 600000 edge list: row 0 the source node of each edge, row 1 its destination. -/
abbrev Edges (F : FTy → Type) : Type := (⟨S2x600000, .i32⟩ : BufTy).Contents (Elt F)
/-- One node index per edge, as a column. -/
abbrev EdgeCol (F : FTy → Type) : Type := (⟨S600000x1, .i32⟩ : BufTy).Contents (Elt F)

/-! ## The stages -/

/-- The source node of each edge: row 0 of the edge list, a negative entry moved into range by adding the row count. -/
def srcCol (ei : Edges F) : EdgeCol F :=
  broadcastInDim S600000x1 ![0] bcast_S600000_S600000x1_0
    (select
      (cmpi .slt (shapeCast S600000 (extractStridedSlice S1x600000 ![0, 0] ei slices_S2x600000_S1x600000_0_0) shapeCasts_S1x600000_S600000)
        (broadcastInDim S600000 ![] bcast_S_S600000 (constantI S_ 32 0#32)))
      (addi (shapeCast S600000 (extractStridedSlice S1x600000 ![0, 0] ei slices_S2x600000_S1x600000_0_0) shapeCasts_S1x600000_S600000)
        (broadcastInDim S600000 ![] bcast_S_S600000 (constantI S_ 32 50000#32)))
      (shapeCast S600000 (extractStridedSlice S1x600000 ![0, 0] ei slices_S2x600000_S1x600000_0_0) shapeCasts_S1x600000_S600000))

/-- The destination node of each edge: row 1 of the edge list. -/
def dstCol (ei : Edges F) : EdgeCol F :=
  broadcastInDim S600000x1 ![0] bcast_S600000_S600000x1_0
    (shapeCast S600000 (extractStridedSlice S1x600000 ![1, 0] ei slices_S2x600000_S1x600000_1_0) shapeCasts_S1x600000_S600000)

/-- Neighbour aggregation: into a zero array, at each edge's destination row, the feature row of the edge's source is added. -/
def agg (x : Feat F) (ei : Edges F) : Feat F :=
  Host.scatterAdd scatter_S50000x128_S600000x1_S600000x128_1_0_0_1
    (broadcastInDim S50000x128 ![] bcast_S_S50000x128 (constant (F := F) S_ .f32 0x00000000#32))
    (dstCol (F := F) ei)
    (Host.gather gather_S50000x128_S600000x1_S600000x128_1_0_n_n_0_1_1128 x (srcCol (F := F) ei))

/-- A per-column vector repeated down the 50000 rows. -/
def rowB (v : Chan F) : Feat F :=
  broadcastInDim S50000x128 ![0, 1] bcast_S1x128_S50000x128_0_1 (broadcastInDim S1x128 ![1] bcast_S128_S1x128_1 v)

/-- A product with the transposed weight matrix: entry (i, j) contracts row i of `a` with row j of `W`. -/
def mulT (a : Feat F) (W : Wt F) : Feat F :=
  Host.dotGeneral dot_S50000x128_S128x128_S50000x128_1_0_0_1_n_n none a (transpose S128x128 [1, 0] W transposes_S128x128_S128x128_1_0)

/-- A linear layer: a · Wᵀ + b. -/
def lin (a : Feat F) (W : Wt F) (b : Chan F) : Feat F :=
  addf (mulT a W) (rowB b)

/-- The first linear layer, of the node's own features plus its neighbours' sum. -/
def h1 (x : Feat F) (ei : Edges F) (W1 : Wt F) (b1 : Chan F) : Feat F :=
  lin (addf x (agg x ei)) W1 b1

/-- The column mean: the sum down the rows, from zero, divided by the row count 50000. -/
def colMean (h : Feat F) : Chan F :=
  Host.divf (Host.reduceAdd h (constant (F := F) S_ .f32 0x00000000#32) reducesTo_S50000x128_S128_d0 h_S_)
    (broadcastInDim S128 ![] bcast_S_S128 (constant (F := F) S_ .f32 0x47435000#32))

/-- The batch mean of each column. -/
def mu (h : Feat F) : Chan F := colMean h

/-- The deviation from the batch mean. -/
def centered (h : Feat F) : Feat F := subf h (rowB (mu h))

/-- The batch variance of each column: the mean of the squared deviations. -/
def var (h : Feat F) : Chan F := colMean (mulf (centered h) (centered h))

/-- Batch normalisation with the batch's own statistics, then the learnt scale and shift. -/
def normed (h : Feat F) (γ β : Chan F) : Feat F :=
  addf
    (mulf
      (mulf (centered h)
        (rowB (Host.rsqrt (addf (var h) (broadcastInDim S128 ![] bcast_S_S128 (constant (F := F) S_ .f32 0x3727C5AC#32))))))
      (rowB γ))
    (rowB β)

/-- The leaky rectifier: `a` where `a ≥ 0`, `slope · a` elsewhere. -/
def leaky (a : Feat F) (slope : Scal F) : Feat F :=
  select (cmpf .oge a (broadcastInDim S50000x128 ![] bcast_S_S50000x128 (constant (F := F) S_ .f32 0x00000000#32)))
    a (mulf (broadcastInDim S50000x128 ![] bcast_S_S50000x128 slope) a)

/-- The first activation: slope 0.01. -/
def act1 (x : Feat F) (ei : Edges F) (W1 : Wt F) (b1 γ β : Chan F) : Feat F :=
  leaky (normed (h1 x ei W1 b1) γ β) (constant (F := F) S_ .f32 0x3C23D70A#32)

/-- The second linear layer. -/
def h2 (x : Feat F) (ei : Edges F) (W1 : Wt F) (b1 γ β : Chan F) (W2 : Wt F) (b2 : Chan F) : Feat F :=
  lin (act1 x ei W1 b1 γ β) W2 b2

/-- The residual branch: the input features through their own weight matrix. -/
def xres (x : Feat F) (Wres : Wt F) : Feat F := mulT x Wres

/-- The layer's output: the two branches added, through the leaky rectifier of slope 0.2. -/
def result (x : Feat F) (ei : Edges F) (W1 : Wt F) (b1 γ β : Chan F) (W2 : Wt F) (b2 : Chan F) (Wres : Wt F) : Feat F :=
  leaky (addf (h2 x ei W1 b1 γ β W2 b2) (xres x Wres)) (constant (F := F) S_ .f32 0x3E4CCCCD#32)

/-! ## The program as a list of operations -/

/-- The 77 operations in order: statements 1 … 55, the first rectifier's seven over its call's buffers, statements 57 … 64,
    the second rectifier's seven. -/
abbrev ops : List (HloOp τ sig (Elt F)) :=
  [
    unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    reshape main_v2 main_v3 rfl shapeCasts_S1x600000_S600000,
    nullary main_c (constantI S_ 32 0#32),
    unary main_c main_v4 (broadcastInDim S600000 ![] bcast_S_S600000 : (⟨S_, .i32⟩ : BufTy).Contents (Elt F) → (⟨S600000, .i32⟩ : BufTy).Contents (Elt F)),
    binary main_v1 main_v4 main_v5 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v6 (broadcastInDim S600000 ![] bcast_S_S600000 : (⟨S_, .i32⟩ : BufTy).Contents (Elt F) → (⟨S600000, .i32⟩ : BufTy).Contents (Elt F)),
    binary main_v1 main_v6 main_v7 (addi : (⟨S600000, .i32⟩ : BufTy).Contents (Elt F) → (⟨S600000, .i32⟩ : BufTy).Contents (Elt F) → (⟨S600000, .i32⟩ : BufTy).Contents (Elt F)),
    ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v8 main_v9 (broadcastInDim S600000x1 ![0] bcast_S600000_S600000x1_0 : (⟨S600000, .i32⟩ : BufTy).Contents (Elt F) → (⟨S600000x1, .i32⟩ : BufTy).Contents (Elt F)),
    binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S600000x1 ![0] bcast_S600000_S600000x1_0 : (⟨S600000, .i32⟩ : BufTy).Contents (Elt F) → (⟨S600000x1, .i32⟩ : BufTy).Contents (Elt F)),
    ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_arg0 main_v13 main_v14 (addf : (⟨S50000x128, .f32⟩ : BufTy).Contents (Elt F) → (⟨S50000x128, .f32⟩ : BufTy).Contents (Elt F) → (⟨S50000x128, .f32⟩ : BufTy).Contents (Elt F)),
    unary main_arg2 main_v15 ((transpose S128x128 [1, 0] · transposes_S128x128_S128x128_1_0) : (⟨S128x128, .f32⟩ : BufTy).Contents (Elt F) → (⟨S128x128, .f32⟩ : BufTy).Contents (Elt F)),
    binary main_v14 main_v15 main_v16 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg3 main_v17 (broadcastInDim S1x128 ![1] bcast_S128_S1x128_1 : (⟨S128, .f32⟩ : BufTy).Contents (Elt F) → (⟨S1x128, .f32⟩ : BufTy).Contents (Elt F)),
    unary main_v17 main_v18 (broadcastInDim S50000x128 ![0, 1] bcast_S1x128_S50000x128_0_1 : (⟨S1x128, .f32⟩ : BufTy).Contents (Elt F) → (⟨S50000x128, .f32⟩ : BufTy).Contents (Elt F)),
    binary main_v16 main_v18 main_v19 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x00000000#32),
    binary main_v19 main_cst_1 main_v20 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_2 (constant S_ .f32 0x47435000#32),
    unary main_cst_2 main_v21 (broadcastInDim S128 ![] bcast_S_S128 : (⟨S_, .f32⟩ : BufTy).Contents (Elt F) → (⟨S128, .f32⟩ : BufTy).Contents (Elt F)),
    binary main_v20 main_v21 main_v22 (Host.divf : (⟨S128, .f32⟩ : BufTy).Contents (Elt F) → (⟨S128, .f32⟩ : BufTy).Contents (Elt F) → (⟨S128, .f32⟩ : BufTy).Contents (Elt F)),
    unary main_v22 main_v23 (broadcastInDim S1x128 ![1] bcast_S128_S1x128_1 : (⟨S128, .f32⟩ : BufTy).Contents (Elt F) → (⟨S1x128, .f32⟩ : BufTy).Contents (Elt F)),
    unary main_v23 main_v24 (broadcastInDim S50000x128 ![0, 1] bcast_S1x128_S50000x128_0_1 : (⟨S1x128, .f32⟩ : BufTy).Contents (Elt F) → (⟨S50000x128, .f32⟩ : BufTy).Contents (Elt F)),
    binary main_v19 main_v24 main_v25 (subf : (⟨S50000x128, .f32⟩ : BufTy).Contents (Elt F) → (⟨S50000x128, .f32⟩ : BufTy).Contents (Elt F) → (⟨S50000x128, .f32⟩ : BufTy).Contents (Elt F)),
    binary main_v25 main_v25 main_v26 (mulf : (⟨S50000x128, .f32⟩ : BufTy).Contents (Elt F) → (⟨S50000x128, .f32⟩ : BufTy).Contents (Elt F) → (⟨S50000x128, .f32⟩ : BufTy).Contents (Elt F)),
    nullary main_cst_3 (constant S_ .f32 0x00000000#32),
    binary main_v26 main_cst_3 main_v27 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_4 (constant S_ .f32 0x47435000#32),
    unary main_cst_4 main_v28 (broadcastInDim S128 ![] bcast_S_S128 : (⟨S_, .f32⟩ : BufTy).Contents (Elt F) → (⟨S128, .f32⟩ : BufTy).Contents (Elt F)),
    binary main_v27 main_v28 main_v29 (Host.divf : (⟨S128, .f32⟩ : BufTy).Contents (Elt F) → (⟨S128, .f32⟩ : BufTy).Contents (Elt F) → (⟨S128, .f32⟩ : BufTy).Contents (Elt F)),
    unary main_v22 main_v30 (broadcastInDim S1x128 ![1] bcast_S128_S1x128_1 : (⟨S128, .f32⟩ : BufTy).Contents (Elt F) → (⟨S1x128, .f32⟩ : BufTy).Contents (Elt F)),
    unary main_v30 main_v31 (broadcastInDim S50000x128 ![0, 1] bcast_S1x128_S50000x128_0_1 : (⟨S1x128, .f32⟩ : BufTy).Contents (Elt F) → (⟨S50000x128, .f32⟩ : BufTy).Contents (Elt F)),
    binary main_v19 main_v31 main_v32 (subf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v33 (broadcastInDim S128 ![] bcast_S_S128 : (⟨S_, .f32⟩ : BufTy).Contents (Elt F) → (⟨S128, .f32⟩ : BufTy).Contents (Elt F)),
    binary main_v29 main_v33 main_v34 (addf : (⟨S128, .f32⟩ : BufTy).Contents (Elt F) → (⟨S128, .f32⟩ : BufTy).Contents (Elt F) → (⟨S128, .f32⟩ : BufTy).Contents (Elt F)),
    unary main_v34 main_v35 (Host.rsqrt : (⟨S128, .f32⟩ : BufTy).Contents (Elt F) → (⟨S128, .f32⟩ : BufTy).Contents (Elt F)),
    unary main_v35 main_v36 (broadcastInDim S1x128 ![1] bcast_S128_S1x128_1 : (⟨S128, .f32⟩ : BufTy).Contents (Elt F) → (⟨S1x128, .f32⟩ : BufTy).Contents (Elt F)),
    unary main_v36 main_v37 (broadcastInDim S50000x128 ![0, 1] bcast_S1x128_S50000x128_0_1 : (⟨S1x128, .f32⟩ : BufTy).Contents (Elt F) → (⟨S50000x128, .f32⟩ : BufTy).Contents (Elt F)),
    binary main_v32 main_v37 main_v38 (mulf : (⟨S50000x128, .f32⟩ : BufTy).Contents (Elt F) → (⟨S50000x128, .f32⟩ : BufTy).Contents (Elt F) → (⟨S50000x128, .f32⟩ : BufTy).Contents (Elt F)),
    unary main_arg4 main_v39 (broadcastInDim S1x128 ![1] bcast_S128_S1x128_1 : (⟨S128, .f32⟩ : BufTy).Contents (Elt F) → (⟨S1x128, .f32⟩ : BufTy).Contents (Elt F)),
    unary main_v39 main_v40 (broadcastInDim S50000x128 ![0, 1] bcast_S1x128_S50000x128_0_1 : (⟨S1x128, .f32⟩ : BufTy).Contents (Elt F) → (⟨S50000x128, .f32⟩ : BufTy).Contents (Elt F)),
    binary main_v38 main_v40 main_v41 (mulf : (⟨S50000x128, .f32⟩ : BufTy).Contents (Elt F) → (⟨S50000x128, .f32⟩ : BufTy).Contents (Elt F) → (⟨S50000x128, .f32⟩ : BufTy).Contents (Elt F)),
    unary main_arg5 main_v42 (broadcastInDim S1x128 ![1] bcast_S128_S1x128_1 : (⟨S128, .f32⟩ : BufTy).Contents (Elt F) → (⟨S1x128, .f32⟩ : BufTy).Contents (Elt F)),
    unary main_v42 main_v43 (broadcastInDim S50000x128 ![0, 1] bcast_S1x128_S50000x128_0_1 : (⟨S1x128, .f32⟩ : BufTy).Contents (Elt F) → (⟨S50000x128, .f32⟩ : BufTy).Contents (Elt F)),
    binary main_v41 main_v43 main_v44 (addf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x3C23D70A#32),
    TRef.nullary main_call0.cst (constant S_ .f32 0x00000000#32),
    TRef.unary main_call0.cst main_call0.v0 (broadcastInDim S50000x128 ![] bcast_S_S50000x128),
    TRef.binary (.of main_v44 : TRef sig ⟨S50000x128, .f32⟩) main_call0.v0 main_call0.v1 (cmpf .oge),
    TRef.unary (.of main_cst_6 : TRef sig ⟨S_, .f32⟩) main_call0.v2 id,
    TRef.unary main_call0.v2 main_call0.v3 (broadcastInDim S50000x128 ![] bcast_S_S50000x128),
    TRef.binary main_call0.v3 (.of main_v44 : TRef sig ⟨S50000x128, .f32⟩) main_call0.v4 mulf,
    TRef.ternary main_call0.v1 (.of main_v44 : TRef sig ⟨S50000x128, .f32⟩) main_call0.v4 main_call0.call0.v0 select,
    unary main_arg6 main_v46 ((transpose S128x128 [1, 0] · transposes_S128x128_S128x128_1_0) : (⟨S128x128, .f32⟩ : BufTy).Contents (Elt F) → (⟨S128x128, .f32⟩ : BufTy).Contents (Elt F)),
    binary main_v45 main_v46 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    unary main_arg8 main_v51 ((transpose S128x128 [1, 0] · transposes_S128x128_S128x128_1_0) : (⟨S128x128, .f32⟩ : BufTy).Contents (Elt F) → (⟨S128x128, .f32⟩ : BufTy).Contents (Elt F)),
    binary main_arg0 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3E4CCCCD#32),
    TRef.nullary main_call1.cst (constant S_ .f32 0x00000000#32),
    TRef.unary main_call1.cst main_call1.v0 (broadcastInDim S50000x128 ![] bcast_S_S50000x128),
    TRef.binary (.of main_v53 : TRef sig ⟨S50000x128, .f32⟩) main_call1.v0 main_call1.v1 (cmpf .oge),
    TRef.unary (.of main_cst_7 : TRef sig ⟨S_, .f32⟩) main_call1.v2 id,
    TRef.unary main_call1.v2 main_call1.v3 (broadcastInDim S50000x128 ![] bcast_S_S50000x128),
    TRef.binary main_call1.v3 (.of main_v53 : TRef sig ⟨S50000x128, .f32⟩) main_call1.v4 mulf,
    TRef.ternary main_call1.v1 (.of main_v53 : TRef sig ⟨S50000x128, .f32⟩) main_call1.v4 main_call1.call0.v0 select ]

-- both sides unfold to one chain of steps: the two windows, the two calls and the list, one binder per operation
set_option maxRecDepth 8192 in
set_option maxHeartbeats 4000000 in
/-- The program is that straight line. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., binary_bufs_sub .., nullary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., binary_bufs_sub .., unary_bufs_sub .., unary_bufs_sub .., binary_bufs_sub ..,
    unary_bufs_sub .., binary_bufs_sub .., binary_bufs_sub .., nullary_bufs_sub .., nullary_bufs_sub .., unary_bufs_sub ..,
    binary_bufs_sub .., unary_bufs_sub .., unary_bufs_sub .., binary_bufs_sub .., ternary_bufs_sub ..⟩

/-! ## The run -/

-- the aggregation and the column sums are compared as wholes, never opened
attribute [local irreducible] Host.gather Host.scatterAdd Host.reduceAdd in
set_option maxRecDepth 16384 in
set_option maxHeartbeats 30000000 in
/-- After the 77 operations the result buffer holds `result` of the launch contents of the nine argument buffers. -/
theorem result_eq (V : Valuation τ sig (Elt F)) :
    after ops V (main_v54 : DevRef τ sig)
      = result (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp <;> rfl

set_option maxRecDepth 16384 in
set_option maxHeartbeats 30000000 in
/-- On every device, for any float values, from any memory with zero counters: every weakly fair execution of the
    reference terminates with the result buffer at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
          = result (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v54).trans (result_eq (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

/-- The reference runs to its end without a fault and leaves its argument arrays as they were (whatever the inputs:
    the precondition is not needed for this). -/
theorem frame_ri :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (run (F := Ideal) m ρ)

end Cert.ReferenceIdeal.RefRun

end
-- ==== Proof.StatsValueIdeal.lean ====
/-
  The statistics kernel's values. At every point the sum accumulator ends at its previous contents plus the column sums of the
  tile's first-layer output, the sum-of-squares accumulator likewise with the squares; the first point starts both from zero; the
  last point stores (sum / n) and (sum of squares / n) − (sum / n)² into the two outputs. So after the last point the accumulators
  are the ten tiles' sums chained in point order, and the two one-row output arrays — each written back once, at the last point, by
  a block that is the whole array — hold the mean and the variance computed from them.
-/
import proofs.«142832_j44555990728952_1_alg».proof.Proof.AccBodyIdeal
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz : (![0, 0] : Fin 2 → Nat) = fun _ => 0 := funext fun a => by fin_cases a <;> rfl

/-! ## What each kind of point leaves, as the body's arithmetic -/

theorem sout0_B_0_eq (c : Dev nD) (i : grid0.Coords) (a1 : Memref sig .tc .vmem S5000x128 .f32) (g1 : a1.IsWhole) (a2 : Memref sig .tc .vmem S5000x128 .f32) (g2 : a2.IsWhole) (a3 : Memref sig .tc .vmem S128x128 .f32) (g3 : a3.IsWhole) (a4 : Memref sig .tc .vmem S1x128 .f32) (g4 : a4.IsWhole) (a5 : Memref sig .tc .vmem S1x128 .f32) (g5 : a5.IsWhole) (a6 : Memref sig .tc .vmem S1x128 .f32) (g6 : a6.IsWhole) (a7 : Memref sig .tc .vmem S1x128 .f32) (g7 : a7.IsWhole) (a8 : Memref sig .tc .vmem S1x128 .f32) (g8 : a8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) :
    sout0_B_0 c i a1 g1 a2 g2 a3 g3 a4 g4 a5 g5 a6 g6 a7 g7 a8 g8 hc0 hc1 x0 x1 x2 x3 xs0 xs1 = k0_pay6 x0 x1 x2 x3 xs0 := by
  unfold sout0_B_0
  rw [View.read_writes_eq_canon _ _ _ (scover0_B_0 c i a1 g1 a2 g2 a3 g3 a4 g4 a5 g5 a6 g6 a7 g7 a8 g8 hc0 hc1 x0 x1 x2 x3 xs0 xs1)]
  unfold kernelRun0_B
  dsimp only
  sl_unfold_words
  rw [View.canon_unit_zero hz]
  try simp only [View.readCov_unit_zero (S := S1x128) _ hz]
  simp only [View.readAt_eq_ld, g1.read_unread, g2.read_unread, g3.read_unread, g4.read_unread, g5.read_unread, g6.read_unread, g7.read_unread, g8.read_unread,
    View.ld_unit_zero (S := S5000x128) hz, View.ld_unit_zero (S := S128x128) hz, View.ld_unit_zero (S := S1x128) hz]

theorem sout0_B_1_eq (c : Dev nD) (i : grid0.Coords) (a1 : Memref sig .tc .vmem S5000x128 .f32) (g1 : a1.IsWhole) (a2 : Memref sig .tc .vmem S5000x128 .f32) (g2 : a2.IsWhole) (a3 : Memref sig .tc .vmem S128x128 .f32) (g3 : a3.IsWhole) (a4 : Memref sig .tc .vmem S1x128 .f32) (g4 : a4.IsWhole) (a5 : Memref sig .tc .vmem S1x128 .f32) (g5 : a5.IsWhole) (a6 : Memref sig .tc .vmem S1x128 .f32) (g6 : a6.IsWhole) (a7 : Memref sig .tc .vmem S1x128 .f32) (g7 : a7.IsWhole) (a8 : Memref sig .tc .vmem S1x128 .f32) (g8 : a8.IsWhole) (hc0 : ¬condFirst i) (hc1 : ¬condLast i)
    (x0 : Vec F S5000x128 .f32) (x1 : Vec F S5000x128 .f32) (x2 : Vec F S128x128 .f32) (x3 : Vec F S1x128 .f32) (xs0 : Vec F S1x128 .f32) (xs1 : Vec F S1x128 .f32) :
    sout0_B_1 c i a1 g1 a2 g2 a3 g3 a4 g4 a5 g5 a6 g6 a7 g7 a8 g8 hc0 hc1 x0 x1 x2 x3 xs0 xs1 = k0_pay7 x0 x1 x2 x3 xs1 := by
  unfold sout0_B_1
  rw [View.read_writes_eq_canon _ _ _ (scover0_B_1 c i a1 g1 a2 g2 a3 g3 a4 g4 a5 g5 a6 g6 a7 g7 a8 g8 hc0 hc1 x0 x1 x2 x3 xs0 xs1)]
  unfold kernelRun0_B
  dsimp only
  sl_unfold_words
  rw [View.canon_unit_zero hz]
  try simp only [View.readCov_unit_zero (S := S1x128) _ hz]
  simp only [View.readAt_eq_ld, g1.read_unread, g2.read_unread, g3.read_unread, g4.read_unread, g5.read_unread, g6.read_unread, g7.read_unread, g8.read_unread,
    View.ld_unit_zero (S := S5000x128) hz, View.ld_unit_zero (S := S128x128) hz, View.ld_unit_zero (S := S1x128) hz]

theorem sout0_C_0_eq (c : Dev nD) (i : grid0.Coords) (a1 : Memref sig .tc .vmem S5000x128 .f32) (g1 : a1.IsWhole) (a2 : Memref sig .tc .vmem S5000x128 .f32) (g2 : a2.IsWhole) (a3 : Memref sig .tc .vmem S128x128 .f32) (g3 : a3.IsWhole) (a4 : Memref sig .tc .vmem S1x128 .f32) (g4 : a4.IsWhole) (a5 : Memref sig .tc .vmem S1x128 .f32) (g5 : a5.IsWhole) (a6 : Memref sig .tc .vmem S1x128 .f32) (g6 : a6.IsWhole) (a7 : Memref sig .tc .vmem S1x128 .f32) (g7 : a7.IsWhole) (a8 : Memref sig .tc .vmem S1x128 .f32) (g8 : a8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) :
    sout0_C_0 c i a1 g1 a2 g2 a3 g3 a4 g4 a5 g5 a6 g6 a7 g7 a8 g8 hc0 hc1 x0 x1 x2 x3 xs0 xs1 = k0_pay6 x0 x1 x2 x3 xs0 := by
  unfold sout0_C_0
  rw [View.read_writes_eq_canon _ _ _ (scover0_C_0 c i a1 g1 a2 g2 a3 g3 a4 g4 a5 g5 a6 g6 a7 g7 a8 g8 hc0 hc1 x0 x1 x2 x3 xs0 xs1)]
  unfold kernelRun0_C
  dsimp only
  sl_unfold_words
  rw [View.canon_unit_zero hz]
  try simp only [View.readCov_unit_zero (S := S1x128) _ hz]
  simp only [View.readAt_eq_ld, g1.read_unread, g2.read_unread, g3.read_unread, g4.read_unread, g5.read_unread, g6.read_unread, g7.read_unread, g8.read_unread,
    View.ld_unit_zero (S := S5000x128) hz, View.ld_unit_zero (S := S128x128) hz, View.ld_unit_zero (S := S1x128) hz]

theorem sout0_C_1_eq (c : Dev nD) (i : grid0.Coords) (a1 : Memref sig .tc .vmem S5000x128 .f32) (g1 : a1.IsWhole) (a2 : Memref sig .tc .vmem S5000x128 .f32) (g2 : a2.IsWhole) (a3 : Memref sig .tc .vmem S128x128 .f32) (g3 : a3.IsWhole) (a4 : Memref sig .tc .vmem S1x128 .f32) (g4 : a4.IsWhole) (a5 : Memref sig .tc .vmem S1x128 .f32) (g5 : a5.IsWhole) (a6 : Memref sig .tc .vmem S1x128 .f32) (g6 : a6.IsWhole) (a7 : Memref sig .tc .vmem S1x128 .f32) (g7 : a7.IsWhole) (a8 : Memref sig .tc .vmem S1x128 .f32) (g8 : a8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) :
    sout0_C_1 c i a1 g1 a2 g2 a3 g3 a4 g4 a5 g5 a6 g6 a7 g7 a8 g8 hc0 hc1 x0 x1 x2 x3 xs0 xs1 = k0_pay7 x0 x1 x2 x3 xs1 := by
  unfold sout0_C_1
  rw [View.read_writes_eq_canon _ _ _ (scover0_C_1 c i a1 g1 a2 g2 a3 g3 a4 g4 a5 g5 a6 g6 a7 g7 a8 g8 hc0 hc1 x0 x1 x2 x3 xs0 xs1)]
  unfold kernelRun0_C
  dsimp only
  sl_unfold_words
  rw [View.canon_unit_zero hz]
  try simp only [View.readCov_unit_zero (S := S1x128) _ hz]
  simp only [View.readAt_eq_ld, g1.read_unread, g2.read_unread, g3.read_unread, g4.read_unread, g5.read_unread, g6.read_unread, g7.read_unread, g8.read_unread,
    View.ld_unit_zero (S := S5000x128) hz, View.ld_unit_zero (S := S128x128) hz, View.ld_unit_zero (S := S1x128) hz]

theorem out0_C_4_eq (c : Dev nD) (i : grid0.Coords) (a1 : Memref sig .tc .vmem S5000x128 .f32) (g1 : a1.IsWhole) (a2 : Memref sig .tc .vmem S5000x128 .f32) (g2 : a2.IsWhole) (a3 : Memref sig .tc .vmem S128x128 .f32) (g3 : a3.IsWhole) (a4 : Memref sig .tc .vmem S1x128 .f32) (g4 : a4.IsWhole) (a5 : Memref sig .tc .vmem S1x128 .f32) (g5 : a5.IsWhole) (a6 : Memref sig .tc .vmem S1x128 .f32) (g6 : a6.IsWhole) (a7 : Memref sig .tc .vmem S1x128 .f32) (g7 : a7.IsWhole) (a8 : Memref sig .tc .vmem S1x128 .f32) (g8 : a8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) :
    out0_C_4 c i a1 g1 a2 g2 a3 g3 a4 g4 a5 g5 a6 g6 a7 g7 a8 g8 hc0 hc1 x0 x1 x2 x3 xs0 xs1 = k0_pay1 (k0_pay6 x0 x1 x2 x3 xs0) := by
  unfold out0_C_4
  rw [View.read_writes_eq_canon _ _ _ (cover0_C_4 c i a1 g1 a2 g2 a3 g3 a4 g4 a5 g5 a6 g6 a7 g7 a8 g8 hc0 hc1 x0 x1 x2 x3 xs0 xs1)]
  unfold kernelRun0_C
  dsimp only
  sl_unfold_words
  rw [View.canon_unit_zero hz]
  try simp only [View.readCov_unit_zero (S := S1x128) _ hz]
  simp only [View.readAt_eq_ld, g1.read_unread, g2.read_unread, g3.read_unread, g4.read_unread, g5.read_unread, g6.read_unread, g7.read_unread, g8.read_unread,
    View.ld_unit_zero (S := S5000x128) hz, View.ld_unit_zero (S := S128x128) hz, View.ld_unit_zero (S := S1x128) hz]

theorem out0_C_5_eq (c : Dev nD) (i : grid0.Coords) (a1 : Memref sig .tc .vmem S5000x128 .f32) (g1 : a1.IsWhole) (a2 : Memref sig .tc .vmem S5000x128 .f32) (g2 : a2.IsWhole) (a3 : Memref sig .tc .vmem S128x128 .f32) (g3 : a3.IsWhole) (a4 : Memref sig .tc .vmem S1x128 .f32) (g4 : a4.IsWhole) (a5 : Memref sig .tc .vmem S1x128 .f32) (g5 : a5.IsWhole) (a6 : Memref sig .tc .vmem S1x128 .f32) (g6 : a6.IsWhole) (a7 : Memref sig .tc .vmem S1x128 .f32) (g7 : a7.IsWhole) (a8 : Memref sig .tc .vmem S1x128 .f32) (g8 : a8.IsWhole) (hc0 : ¬condFirst i) (hc1 : condLast i)
    (x0 : Vec F S5000x128 .f32) (x1 : Vec F S5000x128 .f32) (x2 : Vec F S128x128 .f32) (x3 : Vec F S1x128 .f32) (xs0 : Vec F S1x128 .f32) (xs1 : Vec F S1x128 .f32) :
    out0_C_5 c i a1 g1 a2 g2 a3 g3 a4 g4 a5 g5 a6 g6 a7 g7 a8 g8 hc0 hc1 x0 x1 x2 x3 xs0 xs1 = k0_pay2 (k0_pay6 x0 x1 x2 x3 xs0) (k0_pay7 x0 x1 x2 x3 xs1) := by
  unfold out0_C_5
  rw [View.read_writes_eq_canon _ _ _ (cover0_C_5 c i a1 g1 a2 g2 a3 g3 a4 g4 a5 g5 a6 g6 a7 g7 a8 g8 hc0 hc1 x0 x1 x2 x3 xs0 xs1)]
  unfold kernelRun0_C
  dsimp only
  sl_unfold_words
  rw [View.canon_unit_zero hz]
  try simp only [View.readCov_unit_zero (S := S1x128) _ hz]
  simp only [View.readAt_eq_ld, g1.read_unread, g2.read_unread, g3.read_unread, g4.read_unread, g5.read_unread, g6.read_unread, g7.read_unread, g8.read_unread,
    View.ld_unit_zero (S := S5000x128) hz, View.ld_unit_zero (S := S128x128) hz, View.ld_unit_zero (S := S1x128) hz]

theorem sout0_A_0_eq (c : Dev nD) (i : grid0.Coords) (a1 : Memref sig .tc .vmem S5000x128 .f32) (g1 : a1.IsWhole) (a2 : Memref sig .tc .vmem S5000x128 .f32) (g2 : a2.IsWhole) (a3 : Memref sig .tc .vmem S128x128 .f32) (g3 : a3.IsWhole) (a4 : Memref sig .tc .vmem S1x128 .f32) (g4 : a4.IsWhole) (a5 : Memref sig .tc .vmem S1x128 .f32) (g5 : a5.IsWhole) (a6 : Memref sig .tc .vmem S1x128 .f32) (g6 : a6.IsWhole) (a7 : Memref sig .tc .vmem S1x128 .f32) (g7 : a7.IsWhole) (a8 : Memref sig .tc .vmem S1x128 .f32) (g8 : a8.IsWhole) (hc0 : condFirst i) (hc1 : ¬condLast i)
    (x0 : Vec F S5000x128 .f32) (x1 : Vec F S5000x128 .f32) (x2 : Vec F S128x128 .f32) (x3 : Vec F S1x128 .f32) :
    sout0_A_0 c i a1 g1 a2 g2 a3 g3 a4 g4 a5 g5 a6 g6 a7 g7 a8 g8 hc0 hc1 x0 x1 x2 x3 = k0_pay6 x0 x1 x2 x3 (k0_pay3 (F := F)) := by
  unfold sout0_A_0
  rw [View.read_writes_eq_canon _ _ _ (scover0_A_0 c i a1 g1 a2 g2 a3 g3 a4 g4 a5 g5 a6 g6 a7 g7 a8 g8 hc0 hc1 x0 x1 x2 x3)]
  unfold kernelRun0_A
  dsimp only
  sl_unfold_words
  rw [View.canon_cons_unit_zero (S := S1x128) hz, View.readCov_unit_zero (S := S1x128) _ hz]
  simp only [View.readAt_eq_ld, g1.read_unread, g2.read_unread, g3.read_unread, g4.read_unread, g5.read_unread, g6.read_unread, g7.read_unread, g8.read_unread,
    View.ld_unit_zero (S := S5000x128) hz, View.ld_unit_zero (S := S128x128) hz, View.ld_unit_zero (S := S1x128) hz]

theorem sout0_A_1_eq (c : Dev nD) (i : grid0.Coords) (a1 : Memref sig .tc .vmem S5000x128 .f32) (g1 : a1.IsWhole) (a2 : Memref sig .tc .vmem S5000x128 .f32) (g2 : a2.IsWhole) (a3 : Memref sig .tc .vmem S128x128 .f32) (g3 : a3.IsWhole) (a4 : Memref sig .tc .vmem S1x128 .f32) (g4 : a4.IsWhole) (a5 : Memref sig .tc .vmem S1x128 .f32) (g5 : a5.IsWhole) (a6 : Memref sig .tc .vmem S1x128 .f32) (g6 : a6.IsWhole) (a7 : Memref sig .tc .vmem S1x128 .f32) (g7 : a7.IsWhole) (a8 : Memref sig .tc .vmem S1x128 .f32) (g8 : a8.IsWhole) (hc0 : condFirst i) (hc1 : ¬condLast i)
    (x0 : Vec F S5000x128 .f32) (x1 : Vec F S5000x128 .f32) (x2 : Vec F S128x128 .f32) (x3 : Vec F S1x128 .f32) :
    sout0_A_1 c i a1 g1 a2 g2 a3 g3 a4 g4 a5 g5 a6 g6 a7 g7 a8 g8 hc0 hc1 x0 x1 x2 x3 = k0_pay7 x0 x1 x2 x3 (k0_pay4 (F := F)) := by
  unfold sout0_A_1
  rw [View.read_writes_eq_canon _ _ _ (scover0_A_1 c i a1 g1 a2 g2 a3 g3 a4 g4 a5 g5 a6 g6 a7 g7 a8 g8 hc0 hc1 x0 x1 x2 x3)]
  unfold kernelRun0_A
  dsimp only
  sl_unfold_words
  rw [View.canon_cons_unit_zero (S := S1x128) hz, View.readCov_unit_zero (S := S1x128) _ hz]
  simp only [View.readAt_eq_ld, g1.read_unread, g2.read_unread, g3.read_unread, g4.read_unread, g5.read_unread, g6.read_unread, g7.read_unread, g8.read_unread,
    View.ld_unit_zero (S := S5000x128) hz, View.ld_unit_zero (S := S128x128) hz, View.ld_unit_zero (S := S1x128) hz]

/-! ## The accumulators after each point -/

/-- The sum accumulator after point `n`: the reset value plus the first tile's column sums, then plus each later tile's. -/
def accSum (c : Dev nD) : (n : ℕ) → n < cfg0.N → Vec F S1x128 .f32
  | 0, h => k0_pay6 (iblk0 V c 0 ⟨0, h⟩) (iblk0 V c 1 ⟨0, h⟩) (iblk0 V c 2 ⟨0, h⟩) (iblk0 V c 3 ⟨0, h⟩) (k0_pay3 (F := F))
  | n + 1, h => k0_pay6 (iblk0 V c 0 ⟨n + 1, h⟩) (iblk0 V c 1 ⟨n + 1, h⟩) (iblk0 V c 2 ⟨n + 1, h⟩) (iblk0 V c 3 ⟨n + 1, h⟩) (accSum c n (Nat.lt_of_succ_lt h))

/-- The sum-of-squares accumulator after point `n`. -/
def accSq (c : Dev nD) : (n : ℕ) → n < cfg0.N → Vec F S1x128 .f32
  | 0, h => k0_pay7 (iblk0 V c 0 ⟨0, h⟩) (iblk0 V c 1 ⟨0, h⟩) (iblk0 V c 2 ⟨0, h⟩) (iblk0 V c 3 ⟨0, h⟩) (k0_pay4 (F := F))
  | n + 1, h => k0_pay7 (iblk0 V c 0 ⟨n + 1, h⟩) (iblk0 V c 1 ⟨n + 1, h⟩) (iblk0 V c 2 ⟨n + 1, h⟩) (iblk0 V c 3 ⟨n + 1, h⟩) (accSq c n (Nat.lt_of_succ_lt h))

set_option maxHeartbeats 1000000 in
/-- The recursion over the points' found pieces is that chain, by induction on the point. -/
theorem outsAt_acc (c : Dev nD) : ∀ (n : ℕ) (h : n < cfg0.N),
    (outsAt0 V c n h).2.2.1 = accSum V c n h ∧ (outsAt0 V c n h).2.2.2 = accSq V c n h
  | 0, h => by
    have e := outsAt0_A V c ⟨0, h⟩ rfl
    have e1 := congrArg (fun p => p.2.2.1) e
    have e2 := congrArg (fun p => p.2.2.2) e
    dsimp only at e1 e2
    rw [sout0_A_0_eq] at e1
    rw [sout0_A_1_eq] at e2
    exact ⟨e1, e2⟩
  | n + 1, h => by
    have ih := outsAt_acc c n (Nat.lt_of_succ_lt h)
    have h0 : ((⟨n + 1, h⟩ : Fin cfg0.N)).val ≠ 0 := Nat.succ_ne_zero n
    by_cases h1 : ((⟨n + 1, h⟩ : Fin cfg0.N)).val % 10 = 9
    · have e := outsAt0_C V c ⟨n + 1, h⟩ h0 h1
      have e1 := congrArg (fun p => p.2.2.1) e
      have e2 := congrArg (fun p => p.2.2.2) e
      dsimp only at e1 e2
      rw [sout0_C_0_eq] at e1
      rw [sout0_C_1_eq] at e2
      exact ⟨e1.trans (congrArg (k0_pay6 _ _ _ _) ih.1), e2.trans (congrArg (k0_pay7 _ _ _ _) ih.2)⟩
    · have e := outsAt0_B V c ⟨n + 1, h⟩ h0 h1
      have e1 := congrArg (fun p => p.2.2.1) e
      have e2 := congrArg (fun p => p.2.2.2) e
      dsimp only at e1 e2
      rw [sout0_B_0_eq] at e1
      rw [sout0_B_1_eq] at e2
      exact ⟨e1.trans (congrArg (k0_pay6 _ _ _ _) ih.1), e2.trans (congrArg (k0_pay7 _ _ _ _) ih.2)⟩

theorem nine_lt : 9 < cfg0.N := by rw [show cfg0.N = 10 from N_0]; decide

/-- The mean row and the variance row the last point stores. -/
abbrev meanRow (c : Dev nD) : Vec F S1x128 .f32 := k0_pay1 (accSum V c 9 nine_lt)
abbrev varRow (c : Dev nD) : Vec F S1x128 .f32 := k0_pay2 (accSum V c 9 nine_lt) (accSq V c 9 nine_lt)

set_option maxHeartbeats 1000000 in
/-- What the last point leaves in the two outputs' staging buffers. -/
theorem outs_last (c : Dev nD) :
    (outsAt0 V c 9 nine_lt).1 = meanRow V c ∧ (outsAt0 V c 9 nine_lt).2.1 = varRow V c := by
  have ih := outsAt_acc V c 8 (Nat.lt_of_succ_lt nine_lt)
  have e := outsAt0_C V c ⟨9, nine_lt⟩ (by decide) (by decide)
  have e1 := congrArg (fun p => p.1) e
  have e2 := congrArg (fun p => p.2.1) e
  dsimp only at e1 e2
  rw [out0_C_4_eq] at e1
  rw [out0_C_5_eq] at e2
  refine ⟨e1.trans ?_, e2.trans ?_⟩
  · exact congrArg (fun a => k0_pay1 (k0_pay6 _ _ _ _ a)) ih.1
  · exact (congrArg (fun a => k0_pay2 (k0_pay6 _ _ _ _ a) (k0_pay7 _ _ _ _ (outsAt0 V c 8 _).2.2.2)) ih.1).trans
      (congrArg (fun b => k0_pay2 (k0_pay6 _ _ _ _ (accSum V c 8 _)) (k0_pay7 _ _ _ _ b)) ih.2)

end Cert.KernelIdeal.Acc

end
-- ==== Proof.StatsFinalIdeal.lean ====
/-
  The statistics call's two result arrays. Each is one row of 128 features, written back once — after the last tile — by a block
  that is the whole array; so after the call the first holds the mean row and the second the variance row the last point stored.
-/
import proofs.«142832_j44555990728952_1_alg».proof.Proof.StatsValueIdeal
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The mean row as contents of its result array (the array's one block is the whole array). -/
abbrev meanRes (c : Dev nD) : Buf (Elt F) ((c : Thread nD τ).loc main_v21_0) := meanRow V c

/-- The one write-back of this output, at the last point, writes that row: block (0, 0) of the [1,128] array, read through zero
    offsets, is the array. -/
theorem flushed4_eq (c : Dev nD) (t : Fin cfg0.N) (hf : (cfg0.win 4).flush t = true) :
    (dat0 V c).flushed 4 t = ((cfg0.win 4).blk t).view.read (Elt F) (meanRes V c) := by
  have hN : cfg0.N = 10 := N_0
  have h9 : t.val = 9 := by have := (flush0_4 t).mp hf; have := t.isLt; omega
  obtain rfl : t = t0_9 := Fin.ext h9
  show (cfg0.win 4).cut (grid0.coords t0_9) ((dat0 V c).after 4 t0_9) = _
  rw [after0_4, show (outsAt0 V c t0_9.val t0_9.isLt).1 = meanRow V c from (outs_last V c).1]
  have hz' : (fun a => win0_4.index t0_9 a * main_v21_0.ty.shape.size a) = fun _ => 0 := funext fun a => by fin_cases a <;> decide
  exact (Memref.read_access_unit_zero (Elt F) main_v21_0 hz' (fun a => by rw [congrFun hz' a]; simp) (meanRes V c)).symm

/-- So the result array ends holding that row: the last point's block covers it. -/
theorem final4 (c : Dev nD) : (dat0 V c).arrAt 4 cfg0.N = meanRes V c :=
  (dat0 V c).arrAt_eq_of_cover 4 (meanRes V c) (flushed4_eq V c) fun i =>
    ⟨t0_9, (flush0_4 t0_9).mpr (by decide), by
      show i ∈ ((View.whole main_v21_0).slice (win0_4.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_4.index t0_9 0 * win0_4.size 0 ≤ (i 0 : Nat) ∧ (i 0 : Nat) < win0_4.index t0_9 0 * win0_4.size 0 + win0_4.xsize (grid0.coords t0_9) 0
                  rw [show win0_4.index t0_9 0 * win0_4.size 0 = 0 from by decide +kernel, show win0_4.xsize (grid0.coords t0_9) 0 = 1 from by decide +kernel]; omega
      | ⟨1, _⟩ => show win0_4.index t0_9 1 * win0_4.size 1 ≤ (i 1 : Nat) ∧ (i 1 : Nat) < win0_4.index t0_9 1 * win0_4.size 1 + win0_4.xsize (grid0.coords t0_9) 1
                  rw [show win0_4.index t0_9 1 * win0_4.size 1 = 0 from by decide +kernel, show win0_4.xsize (grid0.coords t0_9) 1 = 128 from by decide +kernel]; omega⟩

/-- The variance row as contents of its result array (the array's one block is the whole array). -/
abbrev varRes (c : Dev nD) : Buf (Elt F) ((c : Thread nD τ).loc main_v21_1) := varRow V c

/-- The one write-back of this output, at the last point, writes that row: block (0, 0) of the [1,128] array, read through zero
    offsets, is the array. -/
theorem flushed5_eq (c : Dev nD) (t : Fin cfg0.N) (hf : (cfg0.win 5).flush t = true) :
    (dat0 V c).flushed 5 t = ((cfg0.win 5).blk t).view.read (Elt F) (varRes V c) := by
  have hN : cfg0.N = 10 := N_0
  have h9 : t.val = 9 := by have := (flush0_5 t).mp hf; have := t.isLt; omega
  obtain rfl : t = t0_9 := Fin.ext h9
  show (cfg0.win 5).cut (grid0.coords t0_9) ((dat0 V c).after 5 t0_9) = _
  rw [after0_5, show (outsAt0 V c t0_9.val t0_9.isLt).2.1 = varRow V c from (outs_last V c).2]
  have hz' : (fun a => win0_5.index t0_9 a * main_v21_1.ty.shape.size a) = fun _ => 0 := funext fun a => by fin_cases a <;> decide
  exact (Memref.read_access_unit_zero (Elt F) main_v21_1 hz' (fun a => by rw [congrFun hz' a]; simp) (varRes V c)).symm

/-- So the result array ends holding that row: the last point's block covers it. -/
theorem final5 (c : Dev nD) : (dat0 V c).arrAt 5 cfg0.N = varRes V c :=
  (dat0 V c).arrAt_eq_of_cover 5 (varRes V c) (flushed5_eq V c) fun i =>
    ⟨t0_9, (flush0_5 t0_9).mpr (by decide), by
      show i ∈ ((View.whole main_v21_1).slice (win0_5.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_5.index t0_9 0 * win0_5.size 0 ≤ (i 0 : Nat) ∧ (i 0 : Nat) < win0_5.index t0_9 0 * win0_5.size 0 + win0_5.xsize (grid0.coords t0_9) 0
                  rw [show win0_5.index t0_9 0 * win0_5.size 0 = 0 from by decide +kernel, show win0_5.xsize (grid0.coords t0_9) 0 = 1 from by decide +kernel]; omega
      | ⟨1, _⟩ => show win0_5.index t0_9 1 * win0_5.size 1 ≤ (i 1 : Nat) ∧ (i 1 : Nat) < win0_5.index t0_9 1 * win0_5.size 1 + win0_5.xsize (grid0.coords t0_9) 1
                  rw [show win0_5.index t0_9 1 * win0_5.size 1 = 0 from by decide +kernel, show win0_5.xsize (grid0.coords t0_9) 1 = 128 from by decide +kernel]; omega⟩

end Cert.KernelIdeal.Acc

end
-- ==== Proof.ReadsIdeal.lean ====
/-
  What the layer call finds. The statistics call writes only its two result arrays, so the layer call finds the node features, the
  neighbour sums, the transposed weights and the bias rows as the host operations left them, and the two statistics arrays at the
  mean row and the variance row. The program's result is the layer call's result array after its ten write-backs.
-/
import proofs.«142832_j44555990728952_1_alg».proof.Proof.WholeIdeal
import proofs.«142832_j44555990728952_1_alg».proof.Proof.StatsFinalIdeal

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Acc Cert.KernelIdeal.Tile

variable (m : (ℓ : Loc nD τ sig) → Buf (Elt F) ℓ)

/-! Arrays the statistics call reads through an input window: left as found. -/
theorem E2_arg0 (c : Dev nD) : E2 m c main_arg0 = E1 m c main_arg0 :=
  (B2_arr m c 0).trans (((dat0 (E1 m) c).arrAt_in 0 rfl _).trans (A_eq0 (E1 m) c 0))
theorem E2_v13 (c : Dev nD) : E2 m c main_v13 = E1 m c main_v13 :=
  (B2_arr m c 1).trans (((dat0 (E1 m) c).arrAt_in 1 rfl _).trans (A_eq0 (E1 m) c 1))
theorem E2_v14 (c : Dev nD) : E2 m c main_v14 = E1 m c main_v14 :=
  (B2_arr m c 2).trans (((dat0 (E1 m) c).arrAt_in 2 rfl _).trans (A_eq0 (E1 m) c 2))
theorem E2_v17 (c : Dev nD) : E2 m c main_v17 = E1 m c main_v17 :=
  (B2_arr m c 3).trans (((dat0 (E1 m) c).arrAt_in 3 rfl _).trans (A_eq0 (E1 m) c 3))

/-! Arrays the statistics call does not touch. -/
theorem E2_v15 (c : Dev nD) : E2 m c main_v15 = E1 m c main_v15 := B2_of_ne m c main_v15 (by decide)
theorem E2_v16 (c : Dev nD) : E2 m c main_v16 = E1 m c main_v16 := B2_of_ne m c main_v16 (by decide)
theorem E2_v18 (c : Dev nD) : E2 m c main_v18 = E1 m c main_v18 := B2_of_ne m c main_v18 (by decide)
theorem E2_v19 (c : Dev nD) : E2 m c main_v19 = E1 m c main_v19 := B2_of_ne m c main_v19 (by decide)
theorem E2_v20 (c : Dev nD) : E2 m c main_v20 = E1 m c main_v20 := B2_of_ne m c main_v20 (by decide)

/-! Its two results. -/
theorem E2_mean (c : Dev nD) : E2 m c main_v21_0 = meanRes (E1 m) c := (B2_arr m c 4).trans (final4 (E1 m) c)
theorem E2_var (c : Dev nD) : E2 m c main_v21_1 = varRes (E1 m) c := (B2_arr m c 5).trans (final5 (E1 m) c)

/-- The program's result array is the layer call's result array after its last point. -/
theorem E3_result (c : Dev nD) : E3 m c main_v22 = (dat1 (E2 m) c).arrAt 11 cfg1.N := B3_arr m c 11

end Cert.KernelIdeal.Whole

end
-- ==== Proof.LibVarLaw.lean ====
/-
  The law that joins the two spellings of a batch variance, on the extended reals, for finite data.

  For a finite family `h r` of REAL numbers, a real `N` equal to the number of terms and not zero, and the mean
  `μ = (∑ r, h r) / N`:   (∑ r, (h r - μ) * (h r - μ)) / N  =  (∑ r, h r * h r) / N - μ * μ ,
  every operation read on the extended reals (`Ideal.div` the quotient). On the extended reals the identity needs
  the data to be finite: it uses distributivity and cancellation, which fail at the infinities. The proof pushes the
  coercion of the reals outward through the sums, the products, the differences and the quotients by the nonzero
  real `N`, and closes the resulting identity between real numbers by expanding the square.
-/
import Idealize.ShloMosaic.PureOps.Ideal

noncomputable section

namespace Cert.VarLaw

open Idealize.ShloMosaic
open scoped BigOperators

/-- The coercion of the reals into the extended reals commutes with finite sums. -/
theorem coe_sum {ι : Type*} (s : Finset ι) (f : ι → ℝ) :
    ((∑ r ∈ s, f r : ℝ) : EReal) = ∑ r ∈ s, (f r : EReal) := by
  classical
  induction s using Finset.induction_on with
  | empty => simp
  | insert a s ha ih => rw [Finset.sum_insert ha, Finset.sum_insert ha, EReal.coe_add, ih]

/-- A finite sum of extended reals each of which is a real number is a real number. -/
theorem sum_isReal {ι : Type*} (s : Finset ι) (v : ι → EReal) (hv : ∀ r ∈ s, ∃ q : ℝ, v r = (q : EReal)) :
    ∃ q : ℝ, ∑ r ∈ s, v r = (q : EReal) := by
  classical
  induction s using Finset.induction_on with
  | empty => exact ⟨0, by simp⟩
  | insert a s ha ih =>
    obtain ⟨qa, hqa⟩ := hv a (Finset.mem_insert_self a s)
    obtain ⟨qs, hqs⟩ := ih (fun r hr => hv r (Finset.mem_insert_of_mem hr))
    exact ⟨qa + qs, by rw [Finset.sum_insert ha, hqa, hqs, EReal.coe_add]⟩

/-- The identity between real numbers: the mean of the squared deviations from the mean is the mean of the
    squares minus the square of the mean. -/
theorem real_var_law {ι : Type*} [Fintype ι] (h : ι → ℝ) (N : ℝ) (hN : (Fintype.card ι : ℝ) = N) (hN0 : N ≠ 0) :
    (∑ r, (h r - (∑ r, h r) * (1 / N)) * (h r - (∑ r, h r) * (1 / N))) * (1 / N)
      = (∑ r, h r * h r) * (1 / N) - ((∑ r, h r) * (1 / N)) * ((∑ r, h r) * (1 / N)) := by
  generalize hS : (∑ r, h r) = S
  generalize hQ : (∑ r, h r * h r) = Q
  have expand : ∑ r, (h r - S * (1 / N)) * (h r - S * (1 / N))
      = Q - 2 * (S * (1 / N)) * S + N * ((S * (1 / N)) * (S * (1 / N))) := by
    have e : ∀ r, (h r - S * (1 / N)) * (h r - S * (1 / N))
        = h r * h r - 2 * (S * (1 / N)) * h r + (S * (1 / N)) * (S * (1 / N)) := fun r => by ring
    simp only [e]
    rw [Finset.sum_add_distrib, Finset.sum_sub_distrib, ← Finset.mul_sum, Finset.sum_const, Finset.card_univ,
      nsmul_eq_mul, hN, hS, hQ]
  rw [expand]
  field_simp
  ring

/-- THE LAW, for real data written as coerced reals: with `μ = Ideal.div (∑ r, h r) N`,
    `Ideal.div (∑ r, (h r - μ) * (h r - μ)) N = Ideal.div (∑ r, h r * h r) N - μ * μ` on the extended reals. -/
theorem var_law {ι : Type*} [Fintype ι] (h : ι → ℝ) (N : ℝ) (hN : (Fintype.card ι : ℝ) = N) (hN0 : N ≠ 0) :
    Ideal.div (∑ r, ((h r : EReal) - Ideal.div (∑ r, (h r : EReal)) (N : EReal))
        * ((h r : EReal) - Ideal.div (∑ r, (h r : EReal)) (N : EReal))) (N : EReal)
      = Ideal.div (∑ r, (h r : EReal) * (h r : EReal)) (N : EReal)
        - Ideal.div (∑ r, (h r : EReal)) (N : EReal) * Ideal.div (∑ r, (h r : EReal)) (N : EReal) := by
  have hμ : Ideal.div (∑ r, (h r : EReal)) (N : EReal) = (((∑ r, h r) * (1 / N) : ℝ) : EReal) := by
    rw [Ideal.div_coe hN0, ← coe_sum, ← EReal.coe_mul]
  rw [hμ]
  have h1 : ∀ r, ((h r : EReal) - (((∑ r, h r) * (1 / N) : ℝ) : EReal)) * ((h r : EReal) - (((∑ r, h r) * (1 / N) : ℝ) : EReal))
      = (((h r - (∑ r, h r) * (1 / N)) * (h r - (∑ r, h r) * (1 / N)) : ℝ) : EReal) := by
    intro r; rw [← EReal.coe_sub, ← EReal.coe_mul]
  have h2 : ∀ r, (h r : EReal) * (h r : EReal) = ((h r * h r : ℝ) : EReal) := fun r => (EReal.coe_mul _ _).symm
  simp only [h1, h2]
  rw [← coe_sum, ← coe_sum, Ideal.div_coe hN0, Ideal.div_coe hN0, ← EReal.coe_mul, ← EReal.coe_mul, ← EReal.coe_mul,
    ← EReal.coe_sub, real_var_law h N hN hN0]

/-! ## The three quantities are real numbers -/

/-- The mean of real data over a nonzero real count is the real mean. -/
theorem mean_eq_coe {ι : Type*} [Fintype ι] (h : ι → ℝ) (N : ℝ) (hN0 : N ≠ 0) :
    Ideal.div (∑ r, (h r : EReal)) (N : EReal) = (((∑ r, h r) * (1 / N) : ℝ) : EReal) := by
  rw [Ideal.div_coe hN0, ← coe_sum, ← EReal.coe_mul]

/-- The mean of the squares of real data is the real mean of squares. -/
theorem meansq_eq_coe {ι : Type*} [Fintype ι] (h : ι → ℝ) (N : ℝ) (hN0 : N ≠ 0) :
    Ideal.div (∑ r, (h r : EReal) * (h r : EReal)) (N : EReal) = (((∑ r, h r * h r) * (1 / N) : ℝ) : EReal) := by
  have h2 : ∀ r, (h r : EReal) * (h r : EReal) = ((h r * h r : ℝ) : EReal) := fun r => (EReal.coe_mul _ _).symm
  simp only [h2]
  rw [Ideal.div_coe hN0, ← coe_sum, ← EReal.coe_mul]

/-- The variance in the form "mean of squares minus square of the mean" is a real number. -/
theorem var_sumsq_eq_coe {ι : Type*} [Fintype ι] (h : ι → ℝ) (N : ℝ) (hN0 : N ≠ 0) :
    Ideal.div (∑ r, (h r : EReal) * (h r : EReal)) (N : EReal)
        - Ideal.div (∑ r, (h r : EReal)) (N : EReal) * Ideal.div (∑ r, (h r : EReal)) (N : EReal)
      = (((∑ r, h r * h r) * (1 / N) - ((∑ r, h r) * (1 / N)) * ((∑ r, h r) * (1 / N)) : ℝ) : EReal) := by
  rw [mean_eq_coe h N hN0, meansq_eq_coe h N hN0, ← EReal.coe_mul, ← EReal.coe_sub]

/-- The variance in the form "mean of the squared deviations" is the same real number. -/
theorem var_dev_eq_coe {ι : Type*} [Fintype ι] (h : ι → ℝ) (N : ℝ) (hN : (Fintype.card ι : ℝ) = N) (hN0 : N ≠ 0) :
    Ideal.div (∑ r, ((h r : EReal) - Ideal.div (∑ r, (h r : EReal)) (N : EReal))
        * ((h r : EReal) - Ideal.div (∑ r, (h r : EReal)) (N : EReal))) (N : EReal)
      = (((∑ r, h r * h r) * (1 / N) - ((∑ r, h r) * (1 / N)) * ((∑ r, h r) * (1 / N)) : ℝ) : EReal) := by
  rw [var_law h N hN hN0, var_sumsq_eq_coe h N hN0]

/-! ## The same for extended-real data known to be finite -/

/-- Extended-real data every entry of which is a real number is the coercion of a real family. -/
theorem exists_real_family {ι : Type*} (v : ι → EReal) (hv : ∀ r, ∃ q : ℝ, v r = (q : EReal)) :
    ∃ h : ι → ℝ, v = fun r => (h r : EReal) := by
  choose h hh using hv
  exact ⟨h, funext hh⟩

/-- THE LAW for extended-real data every entry of which is a real number. -/
theorem var_law_of_isReal {ι : Type*} [Fintype ι] (v : ι → EReal) (hv : ∀ r, ∃ q : ℝ, v r = (q : EReal)) (N : ℝ)
    (hN : (Fintype.card ι : ℝ) = N) (hN0 : N ≠ 0) :
    Ideal.div (∑ r, (v r - Ideal.div (∑ r, v r) (N : EReal)) * (v r - Ideal.div (∑ r, v r) (N : EReal))) (N : EReal)
      = Ideal.div (∑ r, v r * v r) (N : EReal) - Ideal.div (∑ r, v r) (N : EReal) * Ideal.div (∑ r, v r) (N : EReal) := by
  obtain ⟨h, rfl⟩ := exists_real_family v hv
  exact var_law h N hN hN0

/-- The mean of finite data is a real number. -/
theorem mean_isReal {ι : Type*} [Fintype ι] (v : ι → EReal) (hv : ∀ r, ∃ q : ℝ, v r = (q : EReal)) (N : ℝ) (hN0 : N ≠ 0) :
    ∃ q : ℝ, Ideal.div (∑ r, v r) (N : EReal) = (q : EReal) := by
  obtain ⟨h, rfl⟩ := exists_real_family v hv
  exact ⟨_, mean_eq_coe h N hN0⟩

/-- The variance of finite data, as mean of squares minus square of the mean, is a real number. -/
theorem var_sumsq_isReal {ι : Type*} [Fintype ι] (v : ι → EReal) (hv : ∀ r, ∃ q : ℝ, v r = (q : EReal)) (N : ℝ) (hN0 : N ≠ 0) :
    ∃ q : ℝ, Ideal.div (∑ r, v r * v r) (N : EReal) - Ideal.div (∑ r, v r) (N : EReal) * Ideal.div (∑ r, v r) (N : EReal)
      = (q : EReal) := by
  obtain ⟨h, rfl⟩ := exists_real_family v hv
  exact ⟨_, var_sumsq_eq_coe h N hN0⟩

/-- The variance of finite data, as mean of the squared deviations, is a real number. -/
theorem var_dev_isReal {ι : Type*} [Fintype ι] (v : ι → EReal) (hv : ∀ r, ∃ q : ℝ, v r = (q : EReal)) (N : ℝ)
    (hN : (Fintype.card ι : ℝ) = N) (hN0 : N ≠ 0) :
    ∃ q : ℝ, Ideal.div (∑ r, (v r - Ideal.div (∑ r, v r) (N : EReal)) * (v r - Ideal.div (∑ r, v r) (N : EReal))) (N : EReal)
      = (q : EReal) := by
  obtain ⟨h, rfl⟩ := exists_real_family v hv
  exact ⟨_, var_dev_eq_coe h N hN hN0⟩

/-! ## The instance: 50000 rows -/

/-- THE LAW over 50000 rows with the divisor the real number 50000. -/
theorem var_law_50000 (v : Fin 50000 → EReal) (hv : ∀ r, ∃ q : ℝ, v r = (q : EReal)) :
    Ideal.div (∑ r, (v r - Ideal.div (∑ r, v r) ((50000 : ℝ) : EReal)) * (v r - Ideal.div (∑ r, v r) ((50000 : ℝ) : EReal)))
        ((50000 : ℝ) : EReal)
      = Ideal.div (∑ r, v r * v r) ((50000 : ℝ) : EReal)
        - Ideal.div (∑ r, v r) ((50000 : ℝ) : EReal) * Ideal.div (∑ r, v r) ((50000 : ℝ) : EReal) :=
  var_law_of_isReal v hv 50000 (by simp) (by norm_num)

/-- Over 50000 rows the mean of finite data is a real number. -/
theorem mean_isReal_50000 (v : Fin 50000 → EReal) (hv : ∀ r, ∃ q : ℝ, v r = (q : EReal)) :
    ∃ q : ℝ, Ideal.div (∑ r, v r) ((50000 : ℝ) : EReal) = (q : EReal) :=
  mean_isReal v hv 50000 (by norm_num)

/-- Over 50000 rows the variance of finite data (mean of squares minus square of the mean) is a real number. -/
theorem var_sumsq_isReal_50000 (v : Fin 50000 → EReal) (hv : ∀ r, ∃ q : ℝ, v r = (q : EReal)) :
    ∃ q : ℝ, Ideal.div (∑ r, v r * v r) ((50000 : ℝ) : EReal)
        - Ideal.div (∑ r, v r) ((50000 : ℝ) : EReal) * Ideal.div (∑ r, v r) ((50000 : ℝ) : EReal) = (q : EReal) :=
  var_sumsq_isReal v hv 50000 (by norm_num)

/-- Over 50000 rows the variance of finite data (mean of the squared deviations) is a real number. -/
theorem var_dev_isReal_50000 (v : Fin 50000 → EReal) (hv : ∀ r, ∃ q : ℝ, v r = (q : EReal)) :
    ∃ q : ℝ, Ideal.div (∑ r, (v r - Ideal.div (∑ r, v r) ((50000 : ℝ) : EReal)) * (v r - Ideal.div (∑ r, v r) ((50000 : ℝ) : EReal)))
        ((50000 : ℝ) : EReal) = (q : EReal) :=
  var_dev_isReal v hv 50000 (by simp) (by norm_num)

/-! ## A sum over all rows, tile by tile

A sum over `m · n` rows is the sum over `m` tiles of the sums over each tile's `n` rows, row `r` of tile `t` being row
`t · n + r`: the re-indexing between a total accumulated tile by tile and the one sum over every row. -/

/-- Row `r` of tile `t` is a row. -/
theorem tile_lt {m n : ℕ} (t : Fin m) (r : Fin n) : t.val * n + r.val < m * n := by
  have h1 : t.val * n + r.val < t.val * n + n := Nat.add_lt_add_left r.isLt _
  have h2 : t.val * n + n = (t.val + 1) * n := by rw [Nat.add_mul, Nat.one_mul]
  have h3 : (t.val + 1) * n ≤ m * n := Nat.mul_le_mul_right n t.isLt
  omega

/-- The sum over `m` tiles of the sums over `n` rows each is the sum over all `m · n` rows. -/
theorem sum_blocks {M : Type*} [AddCommMonoid M] (m n : ℕ) (f : Fin (m * n) → M) :
    ∑ t : Fin m, ∑ r : Fin n, f ⟨t.val * n + r.val, tile_lt t r⟩ = ∑ i, f i := by
  rw [← Fintype.sum_prod_type', ← Equiv.sum_comp finProdFinEquiv f]
  refine Finset.sum_congr rfl fun x _ => congrArg f (Fin.ext ?_)
  show x.1.val * n + x.2.val = x.2.val + n * x.1.val
  rw [Nat.mul_comm, Nat.add_comm]

/-- The same with the number of rows given as a literal `N = m · n`. -/
theorem sum_tiles {M : Type*} [AddCommMonoid M] (m n N : ℕ) (hN : m * n = N) (f : Fin N → M) :
    ∑ t : Fin m, ∑ r : Fin n, f ⟨t.val * n + r.val, hN ▸ tile_lt t r⟩ = ∑ i, f i := by
  subst hN
  exact sum_blocks m n f

/-- Ten tiles of 5000 rows are the 50000 rows. -/
theorem sum_tiles_50000 {M : Type*} [AddCommMonoid M] (f : Fin 50000 → M) :
    ∑ t : Fin 10, ∑ r : Fin 5000, f ⟨t.val * 5000 + r.val, by have := t.isLt; have := r.isLt; omega⟩ = ∑ i, f i :=
  sum_tiles 10 5000 50000 (by norm_num) f

/-- The same, read from the one sum to the tiles. -/
theorem sum_eq_sum_tiles_50000 {M : Type*} [AddCommMonoid M] (f : Fin 50000 → M) :
    ∑ i, f i = ∑ t : Fin 10, ∑ r : Fin 5000, f ⟨t.val * 5000 + r.val, by have := t.isLt; have := r.isLt; omega⟩ :=
  (sum_tiles_50000 f).symm

/-! ## An accumulator filled tile by tile

An accumulator that starts at zero and adds one term per step holds, after `n` steps, the sum of the first `n` terms:
`(((0 + T 0) + T 1) + … + T (n − 1))`. Addition on the extended reals is commutative and associative and zero is
neutral with no finiteness condition, so this needs none. -/

/-- For terms indexed by the naturals. -/
theorem acc_eq_sum_range {M : Type*} [AddCommMonoid M] (T a : ℕ → M) (h0 : a 0 = 0) (hs : ∀ t, a (t + 1) = a t + T t) (n : ℕ) :
    a n = ∑ t ∈ Finset.range n, T t := by
  induction n with
  | zero => rw [h0, Finset.sum_range_zero]
  | succ n ih => rw [hs, ih, Finset.sum_range_succ]

/-- For `n` terms indexed by `Fin n` (the recurrence asked only at the `n` steps). -/
theorem acc_eq_sum_fin {M : Type*} [AddCommMonoid M] (n : ℕ) (T : Fin n → M) (a : ℕ → M) (h0 : a 0 = 0)
    (hs : ∀ t : Fin n, a (t.val + 1) = a t.val + T t) : a n = ∑ t : Fin n, T t := by
  have key : ∀ k (hk : k ≤ n), a k = ∑ t : Fin k, T (Fin.castLE hk t) := by
    intro k
    induction k with
    | zero => intro _; rw [h0]; simp
    | succ k ih =>
      intro hk
      rw [Fin.sum_univ_castSucc, hs ⟨k, hk⟩, ih (Nat.le_of_succ_le hk)]
      rfl
  have := key n le_rfl
  simpa using this

/-- Ten terms added one by one onto zero, written out. -/
theorem nest10 {M : Type*} [AddCommMonoid M] (T : Fin 10 → M) :
    ((((((((((0 + T 0) + T 1) + T 2) + T 3) + T 4) + T 5) + T 6) + T 7) + T 8) + T 9) = ∑ t, T t := by
  simp only [Fin.sum_univ_castSucc, Fin.sum_univ_zero]
  rfl

end Cert.VarLaw

end
-- ==== Proof.Consts.lean ====
/-
  The float constants this certificate's programs spell, as the extended reals their bit patterns denote. One module
  evaluates them, once: the row count `50000.0` (the divisor of both batch statistics) denotes the real number 50000 and
  `+0.0` denotes 0. The other three constants — the variance's epsilon and the two slopes of the leaky rectifiers —
  appear with the same pattern in both programs and are never evaluated: for each only that it denotes SOME real
  number (it is a normal pattern, neither an infinity nor a NaN) is recorded.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- A sum that starts from the pattern `+0.0` (a host sum's initial value, a kernel reduction's accumulator) is the sum. -/
theorem ofBits_zero_add (a : EReal) : Ideal.ofBits .f32 0x00000000#32 + a = a := by
  rw [ofBits_zero, zero_add]

/-- `50000.0` (sign 0, exponent 142, fraction 0x435000: (2^23 + 4411392) · 2^(142 - 150) = 12800000 / 256) denotes the
    real number 50000. -/
theorem ofBits_50000 : Ideal.ofBits .f32 0x47435000#32 = ((50000 : ℝ) : EReal) := by
  simp [Ideal.ofBits, Ideal.ieee, -EReal.coe_mul]; norm_num

/-- The pattern of `+∞` (the bound the precondition compares every input's absolute value with) denotes `⊤`. -/
theorem ofBits_inf : Ideal.ofBits .f32 0x7F800000#32 = ⊤ := by
  simp [Ideal.ofBits, Ideal.ieee]

/-- The real number 50000 is not zero. -/
theorem n_ne_zero : (50000 : ℝ) ≠ 0 := by norm_num

/-- A pattern whose exponent field is not all ones (neither an infinity nor a NaN) denotes a real number: a zero, a
    subnormal or a normal. -/
theorem ieee_isReal (e m : Nat) {w : Nat} (b : BitVec w) (h : (b.extractLsb' m e).toNat ≠ 2 ^ e - 1) :
    ∃ q : ℝ, Ideal.ieee e m b = (q : EReal) := by
  unfold Ideal.ieee
  simp only []
  rw [if_neg h]
  split
  · exact ⟨_, rfl⟩
  · exact ⟨_, rfl⟩

/-- The variance's epsilon (the pattern of `9.99999974e-6`) denotes a real number. -/
theorem ofBits_eps_isReal : ∃ q : ℝ, Ideal.ofBits .f32 0x3727C5AC#32 = (q : EReal) :=
  ieee_isReal 8 23 (0x3727C5AC#32 : BitVec 32) (by decide)

/-- The first rectifier's slope (the pattern of `0.00999999977`) denotes a real number. -/
theorem ofBits_slope01_isReal : ∃ q : ℝ, Ideal.ofBits .f32 0x3C23D70A#32 = (q : EReal) :=
  ieee_isReal 8 23 (0x3C23D70A#32 : BitVec 32) (by decide)

/-- The second rectifier's slope (the pattern of `0.2`) denotes a real number. -/
theorem ofBits_slope02_isReal : ∃ q : ℝ, Ideal.ofBits .f32 0x3E4CCCCD#32 = (q : EReal) :=
  ieee_isReal 8 23 (0x3E4CCCCD#32 : BitVec 32) (by decide)

end Cert.Consts

end
-- ==== Proof.LibFinite.lean ====
/-
  Finiteness is preserved by every operation between the inputs and the first linear layer's output, on the extended reals.

  An extended real IS REAL when it is the coercion of a real number (it is neither infinity); an array IS REAL when every
  entry is. Sums, differences and products of real numbers are real, so a finite sum of real entries is real; hence so are
  the entries of an elementwise sum, difference or product of real arrays, of a matrix product of real arrays (a finite
  sum of products, plus the accumulator's entry), of a sum over some axes, and of a scatter with addition (the operand's
  entry plus a finite sum of update entries). A gather, a broadcast, a transposition, a reshape and a slice only re-index:
  each entry of the result is an entry of the operand — whatever the start indices hold, since an out-of-range start index is
  clamped into the operand — so the result of a real operand is real. A quotient by a nonzero real number is real, and
  a change of float format is the identity.
-/
import Idealize.ShloMosaic.PureOps.Ideal.Laws
import Idealize.ShloMosaic.Lib.ValueIdx

noncomputable section

namespace Cert.Finite

open Idealize.ShloMosaic
open scoped BigOperators

/-! ## Real values -/

/-- An extended real that is (the coercion of) a real number. -/
def IsRealVal (x : EReal) : Prop := ∃ q : ℝ, x = (q : EReal)

/-- An array of extended reals every entry of which is a real number. -/
def IsReal {ι : Type*} (v : ι → EReal) : Prop := ∀ i, ∃ q : ℝ, v i = (q : EReal)

theorem IsReal.apply {ι : Type*} {v : ι → EReal} (h : IsReal v) (i : ι) : IsRealVal (v i) := h i

theorem isReal_iff {ι : Type*} (v : ι → EReal) : IsReal v ↔ ∀ i, IsRealVal (v i) := Iff.rfl

theorem IsRealVal.coe (q : ℝ) : IsRealVal (q : EReal) := ⟨q, rfl⟩

theorem IsRealVal.zero : IsRealVal 0 := ⟨0, EReal.coe_zero.symm⟩

theorem IsRealVal.one : IsRealVal 1 := ⟨1, EReal.coe_one.symm⟩

theorem IsRealVal.add {x y : EReal} (hx : IsRealVal x) (hy : IsRealVal y) : IsRealVal (x + y) := by
  obtain ⟨a, rfl⟩ := hx; obtain ⟨b, rfl⟩ := hy
  exact ⟨a + b, (EReal.coe_add a b).symm⟩

theorem IsRealVal.sub {x y : EReal} (hx : IsRealVal x) (hy : IsRealVal y) : IsRealVal (x - y) := by
  obtain ⟨a, rfl⟩ := hx; obtain ⟨b, rfl⟩ := hy
  exact ⟨a - b, (EReal.coe_sub a b).symm⟩

theorem IsRealVal.mul {x y : EReal} (hx : IsRealVal x) (hy : IsRealVal y) : IsRealVal (x * y) := by
  obtain ⟨a, rfl⟩ := hx; obtain ⟨b, rfl⟩ := hy
  exact ⟨a * b, (EReal.coe_mul a b).symm⟩

theorem IsRealVal.neg {x : EReal} (hx : IsRealVal x) : IsRealVal (-x) := by
  obtain ⟨a, rfl⟩ := hx
  exact ⟨-a, (EReal.coe_neg a).symm⟩

theorem IsRealVal.ne_top {x : EReal} (hx : IsRealVal x) : x ≠ ⊤ := by
  obtain ⟨a, rfl⟩ := hx; exact EReal.coe_ne_top a

theorem IsRealVal.ne_bot {x : EReal} (hx : IsRealVal x) : x ≠ ⊥ := by
  obtain ⟨a, rfl⟩ := hx; exact EReal.coe_ne_bot a

/-- An extended real other than the two infinities is a real number. -/
theorem isRealVal_of_ne {x : EReal} (ht : x ≠ ⊤) (hb : x ≠ ⊥) : IsRealVal x := by
  induction x using EReal.rec with
  | bot => exact absurd rfl hb
  | top => exact absurd rfl ht
  | coe r => exact ⟨r, rfl⟩

/-- An extended real whose absolute value `max x (-x)` is below `+∞` is a real number. -/
theorem isRealVal_of_abs_lt_top {x : EReal} (h : max x (-x) < ⊤) : IsRealVal x := by
  induction x using EReal.rec with
  | bot => simp at h
  | top => simp at h
  | coe r => exact ⟨r, rfl⟩

/-- The precondition's test, on one element: the host's `|x| < t` answers `1` for a bound `t` that denotes `+∞` only
    at a real number `x`. -/
theorem isRealVal_of_cmpf_abs {φ : FTy} (x t : Ideal φ) (ht : t = (⊤ : EReal))
    (h : FloatOps.cmpf .olt (FloatOps.hostAbsf x) t = 1#1) : IsRealVal x := by
  subst ht
  apply isRealVal_of_abs_lt_top
  by_contra hn
  have : FloatOps.cmpf (F := Ideal) (φ := φ) .olt (FloatOps.hostAbsf x) (⊤ : EReal) = 0#1 := by
    show Ideal.cmp .olt (max x (-x)) ⊤ = 0#1
    simp only [Ideal.cmp]
    rw [decide_eq_false hn]; rfl
  rw [this] at h
  exact absurd h (by decide)

/-- A finite sum of real numbers is a real number. -/
theorem IsRealVal.sum {ι : Type*} (s : Finset ι) (f : ι → EReal) (hf : ∀ i ∈ s, IsRealVal (f i)) :
    IsRealVal (∑ i ∈ s, f i) := by
  classical
  induction s using Finset.induction_on with
  | empty => rw [Finset.sum_empty]; exact IsRealVal.zero
  | insert a s ha ih =>
    rw [Finset.sum_insert ha]
    exact (hf a (Finset.mem_insert_self a s)).add (ih fun i hi => hf i (Finset.mem_insert_of_mem hi))

/-- A quotient of a real number by a nonzero real number is a real number. -/
theorem IsRealVal.div_coe {x : EReal} (hx : IsRealVal x) {N : ℝ} (hN : N ≠ 0) : IsRealVal (Ideal.div x (N : EReal)) := by
  rw [Ideal.div_coe hN]
  exact hx.mul (IsRealVal.coe _)

/-! ## Re-indexings: each entry of the result is an entry of the operand -/

/-- Reading a real array through any map of indices gives a real array. -/
theorem IsReal.comp {ι κ : Type*} {v : ι → EReal} (hv : IsReal v) (f : κ → ι) : IsReal (fun j => v (f j)) :=
  fun j => hv (f j)

/-- A gather's entry is the operand's at the operand index of the result index: the start index read off the index array,
    clamped so that the slice fits, plus the batch and offset coordinates — an index of the operand whatever the start
    indices hold. -/
theorem gather_apply {α : Type} {s si t : Shape} {w : Nat} (d : GatherDims s si t) (x : s.Idx → α) (idx : IVec si w) (j : t.Idx) :
    Host.gather d x idx j = x (d.operandIdx j idx) := rfl

/-- So a gather of a real array is real, at any dimension numbers and any start indices. -/
theorem IsReal.gather {s si t : Shape} {w : Nat} {φ : FTy} (d : GatherDims s si t) {x : FVec Ideal s φ} (hx : IsReal x)
    (idx : IVec si w) : IsReal (Host.gather d x idx) :=
  fun j => hx (d.operandIdx j idx)

theorem IsReal.broadcastInDim {s t : Shape} {φ : FTy} (dims : Fin s.rank → Fin t.rank) (h : s.BroadcastsInDim t dims)
    {x : FVec Ideal s φ} (hx : IsReal x) : IsReal (broadcastInDim t dims h x) :=
  fun _ => hx _

theorem IsReal.transpose {s t : Shape} {φ : FTy} (perm : List (Fin s.rank)) (h : s.Transposes perm t)
    {x : FVec Ideal s φ} (hx : IsReal x) : IsReal (transpose t perm x h) :=
  fun _ => hx _

theorem IsReal.shapeCast {s t : Shape} {φ : FTy} (h : s.ShapeCasts t) {x : FVec Ideal s φ} (hx : IsReal x) :
    IsReal (shapeCast t x h) :=
  fun _ => hx _

theorem IsReal.extractStridedSlice {s t : Shape} {φ : FTy} (off : Fin s.rank → Nat) (h : s.Slices off t)
    {x : FVec Ideal s φ} (hx : IsReal x) : IsReal (extractStridedSlice t off x h) :=
  fun _ => hx _

/-- A constant array is real when its pattern denotes a real number. -/
theorem IsReal.constant (s : Shape) (φ : FTy) (b : BitVec φ.bits) (hb : IsRealVal (Ideal.ofBits φ b)) :
    IsReal (constant (F := Ideal) s φ b) :=
  fun _ => hb

/-- The zero array (the pattern `+0.0` at `f32`) is real. -/
theorem IsReal.constant_zero_f32 (s : Shape) : IsReal (Idealize.ShloMosaic.constant (F := Ideal) s .f32 0x00000000#32) :=
  fun _ => ⟨0, by show Ideal.ofBits .f32 0x00000000#32 = _; rw [Ideal.ofBits_zero_f32, EReal.coe_zero]⟩

/-- A change of float format is the identity on the extended reals. -/
theorem IsReal.truncf {s : Shape} {φ ψ : FTy} {x : FVec Ideal s φ} (hx : IsReal x) (h : ψ.bits < φ.bits) :
    IsReal (truncf ψ x h : FVec Ideal s ψ) :=
  fun i => hx i

theorem IsReal.extf {s : Shape} {φ ψ : FTy} {x : FVec Ideal s φ} (hx : IsReal x) (h : φ.bits < ψ.bits) :
    IsReal (extf ψ x h : FVec Ideal s ψ) :=
  fun i => hx i

/-! ## Elementwise arithmetic -/

theorem IsReal.addf {s : Shape} {φ : FTy} {a b : FVec Ideal s φ} (ha : IsReal a) (hb : IsReal b) : IsReal (addf a b) :=
  fun i => (ha.apply i).add (hb.apply i)

theorem IsReal.subf {s : Shape} {φ : FTy} {a b : FVec Ideal s φ} (ha : IsReal a) (hb : IsReal b) : IsReal (subf a b) :=
  fun i => (ha.apply i).sub (hb.apply i)

theorem IsReal.mulf {s : Shape} {φ : FTy} {a b : FVec Ideal s φ} (ha : IsReal a) (hb : IsReal b) : IsReal (mulf a b) :=
  fun i => (ha.apply i).mul (hb.apply i)

/-- The host's quotient by an array whose entries are one nonzero real number. -/
theorem IsReal.hostDivf_coe {s : Shape} {φ : FTy} {a b : FVec Ideal s φ} (ha : IsReal a) {N : ℝ} (hN : N ≠ 0)
    (hb : ∀ i, b i = (N : EReal)) : IsReal (Host.divf a b) := fun i => by
  show IsRealVal (Ideal.div (a i) (b i))
  rw [hb i]
  exact (ha.apply i).div_coe hN

/-! ## Contractions and sums -/

/-- A kernel's matrix product of real arrays onto a real accumulator is real: at an index, the accumulator's entry plus the
    finite sum over the contraction index of the products of the operands' entries. -/
theorem IsReal.matmul {sl sr so : Shape} {φ₁ φ₂ : FTy} (d : DotDims sl sr so) (prec : Option ContractPrecision)
    {lhs : FVec Ideal sl φ₁} {rhs : FVec Ideal sr φ₂} {acc : FVec Ideal so .f32} (hl : IsReal lhs) (hr : IsReal rhs)
    (ha : IsReal acc) : IsReal (FloatOps.matmul d prec lhs rhs acc) := fun j => by
  rw [Ideal.matmul_apply]
  exact (ha.apply j).add (IsRealVal.sum _ _ fun k _ => (hl.apply _).mul (hr.apply _))

/-- The host's `dot_general` of real arrays is real: the same finite sum of products, onto zero. -/
theorem IsReal.dotGeneral {sl sr so : Shape} {φ₁ φ₂ : FTy} (d : DotDims sl sr so) (prec : Option ContractPrecision)
    (sched : HostSchedule) {lhs : FVec Ideal sl φ₁} {rhs : FVec Ideal sr φ₂} (hl : IsReal lhs) (hr : IsReal rhs) :
    IsReal (FloatOps.dotGeneral d prec sched lhs rhs) := fun j => by
  rw [Ideal.dotGeneral_apply]
  exact IsRealVal.sum _ _ fun k _ => (hl.apply _).mul (hr.apply _)

/-- The host's sum over some axes of a real array from a real initial value is real: at an index, the initial value plus
    the finite sum of the operand's entries that reduce to it. -/
theorem IsReal.hostReduceAdd {s t u : Shape} {φ : FTy} {axes : List (Fin s.rank)} {x : FVec Ideal s φ} (hx : IsReal x)
    {init : u.Idx → Ideal φ} (hi : IsReal init) (h : s.ReducesTo axes t) (hu : 0 < u.numel) :
    IsReal (Host.reduceAdd x init h hu) := fun j => by
  show IsRealVal (Ideal.hostReduceAdd h x (init (Shape.Idx.first hu)) j)
  unfold Ideal.hostReduceAdd
  exact (hi.apply _).add (IsRealVal.sum _ _ fun i _ => hx.apply i)

/-- A kernel's sum over some axes of a real array is real. -/
theorem IsReal.reduceAdd {s t : Shape} {axes : List (Fin s.rank)} (h : s.Reduces axes t) {x : s.Idx → EReal} (hx : IsReal x) :
    IsReal (Ideal.reduceAdd h x) := fun j => by
  unfold Ideal.reduceAdd
  exact IsRealVal.sum _ _ fun i _ => hx.apply i

/-- … as the printed `vector.multi_reduction <add>` spells it. -/
theorem IsReal.multiReduction_add {s t : Shape} {φ : FTy} {axes : List (Fin s.rank)} {src : FVec Ideal s φ} (hx : IsReal src)
    (acc : BitVec φ.bits) (h : s.Reduces axes t) (hφ : FKind.Formats φ) (hacc : acc = FKind.add.neutral φ hφ) :
    IsReal (multiReduction .add axes t src acc h hφ hacc) :=
  IsReal.reduceAdd h hx

/-- A scatter with addition, read at an index: the operand's entry plus the finite sum of the update entries whose result
    index is that index (an update that lands outside the operand is dropped). -/
theorem scatterAdd_apply {s si u : Shape} {w : Nat} {φ : FTy} (d : ScatterDims s si u) (x : FVec Ideal s φ) (idx : IVec si w)
    (upd : FVec Ideal u φ) (i : s.Idx) :
    Host.scatterAdd d x idx upd i = x i + ∑ j ∈ Finset.univ.filter (fun j => d.resultIdx? j idx = some i), upd j := rfl

/-- So a scatter with addition of real updates into a real operand is real, at any dimension numbers and any indices. -/
theorem IsReal.scatterAdd {s si u : Shape} {w : Nat} {φ : FTy} (d : ScatterDims s si u) {x : FVec Ideal s φ} (hx : IsReal x)
    (idx : IVec si w) {upd : FVec Ideal u φ} (hu : IsReal upd) : IsReal (Host.scatterAdd d x idx upd) := fun i => by
  rw [scatterAdd_apply]
  exact (hx.apply i).add (IsRealVal.sum _ _ fun j _ => hu.apply j)

end Cert.Finite

end
-- ==== Proof.Spec.lean ====
/-
  The layer as ONE function of the argument arrays, index by index.

  Rows are `Fin 50000`, columns `Fin 128`; every operation is the extended reals'. With `xa = x + agg` (the node's
  features plus its neighbours' sum) and the weights read transposed,
    h1 r j     = (∑ k, xa r k · W1t k j) + b1 j                       the first linear layer
    mean h j   = (∑ r, h r j) / n                                     the batch mean, n the pattern of 50000.0
    varDev h j = (∑ r, (h r j − mean h j)²) / n                       the batch variance as the mean of squared deviations
    varSq h j  = (∑ r, (h r j)²) / n − (mean h j)²                    … as the mean of squares minus the squared mean
    normed     = ((h r j − mu j) · rsqrt (var j + ε)) · γ j + β j
    leaky s v  = v where v ≥ 0, s · v elsewhere
    out r j    = leaky s₂ (((∑ k, act r k · W2t k j) + b2 j) + ∑ k, x r k · Wrt k j)
  and `layer` composes them, parametrised by the spelling of the variance. The two spellings agree when every entry of
  `h` is a real number (the law of Proof/LibVarLaw.lean), which every entry of `h1` is when `x`, `agg`, `W1t` and `b1` are
  real-valued (Proof/LibFinite.lean); so the layer with either spelling is one function.
-/
import Idealize.ShloMosaic.PureOps.Ideal.Laws
import Idealize.ShloMosaic.Lib.ValueIdx
import proofs.«142832_j44555990728952_1_alg».proof.Proof.LibVarLaw
import proofs.«142832_j44555990728952_1_alg».proof.Proof.Consts
import proofs.«142832_j44555990728952_1_alg».proof.Proof.LibFinite

noncomputable section

namespace Cert.Spec

open Idealize.ShloMosaic
open scoped BigOperators

abbrev Rows := Fin 50000
abbrev Cols := Fin 128

/-! ## The constants, as the programs spell them -/

/-- The row count: the pattern of `50000.0`. -/
def n50000 : EReal := Ideal.ofBits .f32 0x47435000#32
/-- The variance's epsilon. -/
def eps : EReal := Ideal.ofBits .f32 0x3727C5AC#32
/-- The first rectifier's slope. -/
def s01 : EReal := Ideal.ofBits .f32 0x3C23D70A#32
/-- The second rectifier's slope. -/
def s02 : EReal := Ideal.ofBits .f32 0x3E4CCCCD#32

theorem n50000_eq : n50000 = ((50000 : ℝ) : EReal) := Cert.Consts.ofBits_50000

/-! ## The leaky rectifier -/

/-- The leaky rectifier with slope `s`: `v` where `v ≥ 0`, `s · v` elsewhere. -/
def leaky (s v : EReal) : EReal := if 0 ≤ v then v else s * v

/-- The select on the comparison "`v` is at least zero", on one element, is the rectifier. -/
theorem select_cmp_oge_eq_leaky (s v : EReal) : Scalar.select (Ideal.cmp .oge v 0) v (s * v) = leaky s v := by
  unfold leaky Scalar.select Ideal.cmp
  by_cases h : (0 : EReal) ≤ v <;> simp [h]

/-- The same with the comparison and the product spelt as the float operations, against any element `z` that is zero. -/
theorem select_cmpf_oge_eq_leaky {φ : FTy} (s v z : Ideal φ) (hz : z = (0 : EReal)) :
    Scalar.select (FloatOps.cmpf .oge v z) v (FloatOps.mulf s v) = leaky s v := by
  subst hz
  exact select_cmp_oge_eq_leaky s v

/-- THE VECTOR EXPRESSION AT AN INDEX: `select (cmpf .oge v z) v (mulf sv v)`, for a zero array `z` and a slope array
    `sv`, read at an index is the rectifier of the element. -/
theorem select_cmpf_oge_apply {S : Shape} {φ : FTy} (v z sv : FVec Ideal S φ) (i : S.Idx) (hz : z i = (0 : EReal)) :
    select (cmpf .oge v z) v (mulf sv v) i = leaky (sv i) (v i) :=
  select_cmpf_oge_eq_leaky (sv i) (v i) (z i) hz

/-- … with the zero array given by its pattern: an array every element of which is the pattern `+0.0`. -/
theorem select_cmpf_oge_apply_of_ofBits {S : Shape} (v z sv : FVec Ideal S .f32) (i : S.Idx)
    (hz : z i = Ideal.ofBits .f32 0x00000000#32) : select (cmpf .oge v z) v (mulf sv v) i = leaky (sv i) (v i) :=
  select_cmpf_oge_apply v z sv i (hz.trans Cert.Consts.ofBits_zero)

/-! ## The first linear layer and the batch statistics -/

/-- The first linear layer: `xa` times the transposed weight, plus the bias. -/
def h1 (xa : Rows → Cols → EReal) (W1t : Cols → Cols → EReal) (b1 : Cols → EReal) (r : Rows) (j : Cols) : EReal :=
  (∑ k : Cols, xa r k * W1t k j) + b1 j

/-- The batch mean of column `j`. -/
def mean (h : Rows → Cols → EReal) (j : Cols) : EReal := Ideal.div (∑ r : Rows, h r j) n50000

/-- The batch variance of column `j` as the mean of the squares minus the square of the mean. -/
def varSq (h : Rows → Cols → EReal) (j : Cols) : EReal :=
  Ideal.div (∑ r : Rows, h r j * h r j) n50000 - mean h j * mean h j

/-- The batch variance of column `j` as the mean of the squared deviations. -/
def varDev (h : Rows → Cols → EReal) (j : Cols) : EReal :=
  Ideal.div (∑ r : Rows, (h r j - mean h j) * (h r j - mean h j)) n50000

/-- THE TWO SPELLINGS OF THE VARIANCE AGREE on real-valued data. -/
theorem var_eq (h : Rows → Cols → EReal) (hh : ∀ r j, ∃ q : ℝ, h r j = (q : EReal)) (j : Cols) : varDev h j = varSq h j := by
  unfold varDev varSq mean
  rw [n50000_eq]
  exact Cert.VarLaw.var_law_50000 (fun r => h r j) (fun r => hh r j)

/-- The batch mean of real-valued data is a real number. -/
theorem mean_isReal (h : Rows → Cols → EReal) (hh : ∀ r j, ∃ q : ℝ, h r j = (q : EReal)) (j : Cols) :
    ∃ q : ℝ, mean h j = (q : EReal) := by
  unfold mean
  rw [n50000_eq]
  exact Cert.VarLaw.mean_isReal_50000 (fun r => h r j) (fun r => hh r j)

/-- The batch variance of real-valued data is a real number. -/
theorem varSq_isReal (h : Rows → Cols → EReal) (hh : ∀ r j, ∃ q : ℝ, h r j = (q : EReal)) (j : Cols) :
    ∃ q : ℝ, varSq h j = (q : EReal) := by
  unfold varSq mean
  rw [n50000_eq]
  exact Cert.VarLaw.var_sumsq_isReal_50000 (fun r => h r j) (fun r => hh r j)

/-- Real-valued `x`, `agg`, `W1t` and `b1` give a real-valued first layer. -/
theorem h1_isReal (x agg : Rows → Cols → EReal) (W1t : Cols → Cols → EReal) (b1 : Cols → EReal)
    (hx : ∀ r k, ∃ q : ℝ, x r k = (q : EReal)) (ha : ∀ r k, ∃ q : ℝ, agg r k = (q : EReal))
    (hW : ∀ k j, ∃ q : ℝ, W1t k j = (q : EReal)) (hb : ∀ j, ∃ q : ℝ, b1 j = (q : EReal)) :
    ∀ r j, ∃ q : ℝ, h1 (fun r k => x r k + agg r k) W1t b1 r j = (q : EReal) := by
  intro r j
  unfold h1
  exact Cert.Finite.IsRealVal.add
    (Cert.Finite.IsRealVal.sum _ _ fun k _ => Cert.Finite.IsRealVal.mul (Cert.Finite.IsRealVal.add (hx r k) (ha r k)) (hW k j))
    (hb j)

/-! ## The rest of the layer -/

/-- The normalisation by given statistics, scaled and shifted: `((h − mu) · rsqrt (var + ε)) · γ + β`. -/
def normed (h : Rows → Cols → EReal) (mu var gamma beta : Cols → EReal) (r : Rows) (j : Cols) : EReal :=
  ((h r j - mu j) * Ideal.rsqrt (var j + eps)) * gamma j + beta j

/-- The second linear layer of the activations plus the residual projection of `x`, rectified. -/
def out (x : Rows → Cols → EReal) (act : Rows → Cols → EReal) (W2t Wrt : Cols → Cols → EReal) (b2 : Cols → EReal)
    (r : Rows) (j : Cols) : EReal :=
  leaky s02 (((∑ k : Cols, act r k * W2t k j) + b2 j) + ∑ k : Cols, x r k * Wrt k j)

/-- The whole layer, parametrised by the spelling `var` of the batch variance. -/
def layer (x agg : Rows → Cols → EReal) (W1t W2t Wrt : Cols → Cols → EReal) (b1 gamma beta b2 : Cols → EReal)
    (var : (Rows → Cols → EReal) → Cols → EReal) : Rows → Cols → EReal :=
  out x
    (fun r k => leaky s01 (normed (h1 (fun r k => x r k + agg r k) W1t b1) (mean (h1 (fun r k => x r k + agg r k) W1t b1))
      (var (h1 (fun r k => x r k + agg r k) W1t b1)) gamma beta r k))
    W2t Wrt b2

/-- With a real-valued first layer the layer is the same function under either spelling of the variance. -/
theorem layer_var_eq (x agg : Rows → Cols → EReal) (W1t W2t Wrt : Cols → Cols → EReal) (b1 gamma beta b2 : Cols → EReal)
    (hh : ∀ r j, ∃ q : ℝ, h1 (fun r k => x r k + agg r k) W1t b1 r j = (q : EReal)) :
    layer x agg W1t W2t Wrt b1 gamma beta b2 varDev = layer x agg W1t W2t Wrt b1 gamma beta b2 varSq := by
  have hv : varDev (h1 (fun r k => x r k + agg r k) W1t b1) = varSq (h1 (fun r k => x r k + agg r k) W1t b1) :=
    funext fun j => var_eq _ hh j
  unfold layer
  rw [hv]

/-- … so for real-valued `x`, `agg`, `W1t` and `b1`, whatever the other arguments hold. -/
theorem layer_var_eq_of_isReal (x agg : Rows → Cols → EReal) (W1t W2t Wrt : Cols → Cols → EReal) (b1 gamma beta b2 : Cols → EReal)
    (hx : ∀ r k, ∃ q : ℝ, x r k = (q : EReal)) (ha : ∀ r k, ∃ q : ℝ, agg r k = (q : EReal))
    (hW : ∀ k j, ∃ q : ℝ, W1t k j = (q : EReal)) (hb : ∀ j, ∃ q : ℝ, b1 j = (q : EReal)) :
    layer x agg W1t W2t Wrt b1 gamma beta b2 varDev = layer x agg W1t W2t Wrt b1 gamma beta b2 varSq :=
  layer_var_eq x agg W1t W2t Wrt b1 gamma beta b2 (h1_isReal x agg W1t b1 hx ha hW hb)

end Cert.Spec

end
-- ==== Proof.PayloadAt.lean ====
/-
  Each payload of the two kernel bodies read at an index, on the extended reals.

  A payload is a body's arithmetic as one pure term over the vectors the body loads. Read at the index `(r, j)` of a tile
  of 5000 rows and 128 columns (or `(0, j)` of a one-row vector) every pointwise operation acts on the elements, a
  change of float format is the identity, a shape cast to the same shape is the identity, the broadcast of a one-row
  vector reads that row, the matrix product into a zero accumulator is the sum over the 128 contraction positions of the
  products of the operands' elements, and the sum over the rows is the sum over the 5000 rows of the column's elements
  (the reduction's zero accumulator does not appear: on the extended reals the reduction is the plain sum).
-/
import proofs.«142832_j44555990728952_1_alg».proof.Proof.Gen.KernelIdeal.Skeleton
import proofs.«142832_j44555990728952_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.PayloadAt

open Idealize.ShloMosaic Idealize.ShloMosaic.ValueIdx Cert.KernelIdeal Cert.KernelIdeal.Gen
open scoped BigOperators

/-! ## The matrix product of a tile with a weight, at an index -/

/-- On the left operand's row axis the operand index is the output's row. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- On the left operand's column axis it is the contraction position. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

/-- On the right operand's row axis it is the contraction position. -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

/-- On the right operand's column axis it is the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The matrix product of a tile with a weight into the zero accumulator, at `(r, j)`: the sum over the 128 contraction
    positions of the products. -/
theorem matmul_zero_at {φ₁ φ₂ : FTy} (lhs : FVec Ideal S5000x128 φ₁) (rhs : FVec Ideal S128x128 φ₂) (r : Fin 5000) (j : Fin 128) :
    FloatOps.matmul dot_S5000x128_S128x128_S5000x128_1_0_0_1_n_n none lhs rhs (constant (F := Ideal) S5000x128 .f32 0x00000000#32)
        (ix2 r j)
      = ∑ k : Fin 128, lhs (ix2 r k) * rhs (ix2 k j) := by
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k :=
    funext fun a => Fin.ext (by
      match a with
      | ⟨0, _⟩ => exact lhs_0 _ _
      | ⟨1, _⟩ => exact (lhs_1 _ _).trans hk)
  have er : dot_S5000x128_S128x128_S5000x128_1_0_0_1_n_n.rhsIdx (ix2 r j)
      ((contrEquiv1 dot_S5000x128_S128x128_S5000x128_1_0_0_1_n_n 128 rfl rfl).symm k) = ix2 k j :=
    funext fun a => Fin.ext (by
      match a with
      | ⟨0, _⟩ => exact (rhs_0 _ _).trans hk
      | ⟨1, _⟩ => exact rhs_1 _ _)
  rw [el, er]

/-! ## The sum over a tile's rows, at a column -/

/-- The sum over the rows of a tile, at column `j`: the sum over the 5000 rows of the column's elements. -/
theorem rowsum_at (src : FVec Ideal S5000x128 .f32) (h : S5000x128.Reduces [0] S128) (hφ : FKind.Formats .f32)
    (hacc : (0x00000000#32 : BitVec 32) = 0x00000000#32) (j : Fin 128) :
    multiReduction .add [0] S128 src 0x00000000#32 h hφ hacc (ix1 j) = ∑ r : Fin 5000, src (ix2 r j) := by
  refine (Ideal.multiReduction_add_single src 0x00000000#32 h hφ hacc (ix1 j)).trans ?_
  refine Finset.sum_congr rfl fun k _ => congrArg src (funext fun a => Fin.ext ?_)
  match a with
  | ⟨0, _⟩ => rfl
  | ⟨1, _⟩ => rfl

/-- Every index of a one-row vector is in row zero. -/
theorem ix2_row (u : Fin 1) (j : Fin 128) : (ix2 u j : S1x128.Idx) = ix2 (0 : Fin 1) j := by
  have : u = 0 := Subsingleton.elim _ _
  rw [this]

/-! ## The statistics kernel -/

/-- The tile of the first linear layer, at `(r, j)`. -/
theorem k0_pay5_at (v3 v4 : Vec Ideal S5000x128 .f32) (v8 : Vec Ideal S128x128 .f32) (v12 : Vec Ideal S1x128 .f32)
    (r : Fin 5000) (j : Fin 128) :
    k0_pay5 v3 v4 v8 v12 (ix2 r j)
      = (∑ k : Fin 128, (v3 (ix2 r k) + v4 (ix2 r k)) * v8 (ix2 k j)) + v12 (ix2 (0 : Fin 1) j) := by
  unfold k0_pay5
  simp only [shapeCast_self]
  refine (addf_apply _ _ _).trans ?_
  refine congrArg₂ (· + ·) ?_ ?_
  · exact matmul_zero_at _ _ r j
  · exact broadcastTo_1b_ab_apply v12 _ r j

/-- The running column sums after a tile: what the accumulator held plus the sum over the tile's 5000 rows of the first
    layer's column. The reduction's zero accumulator does not appear: the sum is the plain sum. -/
theorem k0_pay6_at (v3 v4 : Vec Ideal S5000x128 .f32) (v8 : Vec Ideal S128x128 .f32) (v12 v16 : Vec Ideal S1x128 .f32)
    (j : Fin 128) :
    k0_pay6 v3 v4 v8 v12 v16 (ix2 (0 : Fin 1) j)
      = v16 (ix2 (0 : Fin 1) j) + ∑ r : Fin 5000, k0_pay5 v3 v4 v8 v12 (ix2 r j) := by
  unfold k0_pay6
  simp only [shapeCast_self]
  refine (addf_apply _ _ _).trans ?_
  refine congrArg (v16 (ix2 (0 : Fin 1) j) + ·) ?_
  refine (shapeCast_a_1a_apply _ _ (0 : Fin 1) j).trans ?_
  exact rowsum_at _ _ _ _ j

/-- The running column sums of squares after a tile. -/
theorem k0_pay7_at (v3 v4 : Vec Ideal S5000x128 .f32) (v8 : Vec Ideal S128x128 .f32) (v12 v23 : Vec Ideal S1x128 .f32)
    (j : Fin 128) :
    k0_pay7 v3 v4 v8 v12 v23 (ix2 (0 : Fin 1) j)
      = v23 (ix2 (0 : Fin 1) j)
        + ∑ r : Fin 5000, k0_pay5 v3 v4 v8 v12 (ix2 r j) * k0_pay5 v3 v4 v8 v12 (ix2 r j) := by
  unfold k0_pay7
  simp only [shapeCast_self]
  refine (addf_apply _ _ _).trans ?_
  refine congrArg (v23 (ix2 (0 : Fin 1) j) + ·) ?_
  refine (shapeCast_a_1a_apply _ _ (0 : Fin 1) j).trans ?_
  exact (rowsum_at _ _ _ _ j).trans rfl

/-- The accumulator of the sums starts at zero. -/
theorem k0_pay3_at (u : Fin 1) (j : Fin 128) : k0_pay3 (F := Ideal) (ix2 u j) = 0 := by
  unfold k0_pay3
  simp only [shapeCast_self]
  exact Ideal.ofBits_zero_f32

/-- The accumulator of the sums of squares starts at zero. -/
theorem k0_pay4_at (u : Fin 1) (j : Fin 128) : k0_pay4 (F := Ideal) (ix2 u j) = 0 := by
  unfold k0_pay4
  simp only [shapeCast_self]
  exact Ideal.ofBits_zero_f32

/-- The batch mean: the accumulated column sum over the row count. -/
theorem k0_pay1_at (v34 : Vec Ideal S1x128 .f32) (j : Fin 128) :
    k0_pay1 v34 (ix2 (0 : Fin 1) j) = Ideal.div (v34 (ix2 (0 : Fin 1) j)) Cert.Spec.n50000 := rfl

/-- The batch variance: the accumulated column sum of squares over the row count, minus the square of the mean. -/
theorem k0_pay2_at (v34 v37 : Vec Ideal S1x128 .f32) (j : Fin 128) :
    k0_pay2 v34 v37 (ix2 (0 : Fin 1) j)
      = Ideal.div (v37 (ix2 (0 : Fin 1) j)) Cert.Spec.n50000
        - k0_pay1 v34 (ix2 (0 : Fin 1) j) * k0_pay1 v34 (ix2 (0 : Fin 1) j) := rfl

/-! ## The layer kernel -/

/-- The first rectifier's output, at `(r, j)`: the first layer, normalised by the variance row `v13` and the mean row
    `v18`, scaled by `v24`, shifted by `v28`, rectified. -/
theorem k1_pay2_at (v0 v1 : Vec Ideal S5000x128 .f32) (v5 : Vec Ideal S128x128 .f32) (v9 v13 v18 v24 v28 : Vec Ideal S1x128 .f32)
    (r : Fin 5000) (j : Fin 128) :
    k1_pay2 v0 v1 v5 v9 v13 v18 v24 v28 (ix2 r j)
      = Cert.Spec.leaky Cert.Spec.s01
          ((((((∑ k : Fin 128, (v0 (ix2 r k) + v1 (ix2 r k)) * v5 (ix2 k j)) + v9 (ix2 (0 : Fin 1) j))
              - v18 (ix2 (0 : Fin 1) j)) * Ideal.rsqrt (v13 (ix2 (0 : Fin 1) j) + Cert.Spec.eps))
            * v24 (ix2 (0 : Fin 1) j)) + v28 (ix2 (0 : Fin 1) j)) := by
  unfold k1_pay2
  simp only [shapeCast_self]
  refine (truncf_apply (φ := .f32) (ψ := .bf16) _ bitsLt_bf16_f32 (ix2 r j)).trans ?_
  refine (Cert.Spec.select_cmpf_oge_apply _ _ _ (ix2 r j) Ideal.ofBits_zero_f32).trans ?_
  refine congrArg₂ Cert.Spec.leaky rfl ?_
  refine (addf_apply _ _ _).trans ?_
  refine congrArg₂ (· + ·) ?_ (broadcastTo_1b_ab_apply v28 _ r j)
  refine (mulf_apply _ _ _).trans ?_
  refine congrArg₂ (· * ·) ?_ (broadcastTo_1b_ab_apply v24 _ r j)
  refine (mulf_apply _ _ _).trans ?_
  refine congrArg₂ (· * ·) ?_ ((broadcastTo_1b_ab_apply _ _ r j).trans rfl)
  refine (subf_apply _ _ _).trans ?_
  refine congrArg₂ (· - ·) ?_ (broadcastTo_1b_ab_apply v18 _ r j)
  refine (addf_apply _ _ _).trans ?_
  refine congrArg₂ (· + ·) ?_ (broadcastTo_1b_ab_apply v9 _ r j)
  exact matmul_zero_at _ _ r j

/-- The layer's result, at `(r, j)`: the second linear layer of the activations plus the residual projection, rectified. -/
theorem k1_pay1_at (v37 : FVec Ideal S5000x128 .bf16) (v38 : Vec Ideal S128x128 .f32) (v42 : Vec Ideal S1x128 .f32)
    (v46 : Vec Ideal S5000x128 .f32) (v48 : Vec Ideal S128x128 .f32) (r : Fin 5000) (j : Fin 128) :
    k1_pay1 v37 v38 v42 v46 v48 (ix2 r j)
      = Cert.Spec.leaky Cert.Spec.s02
          (((∑ k : Fin 128, v37 (ix2 r k) * v38 (ix2 k j)) + v42 (ix2 (0 : Fin 1) j))
            + ∑ k : Fin 128, v46 (ix2 r k) * v48 (ix2 k j)) := by
  unfold k1_pay1
  simp only [shapeCast_self]
  refine (Cert.Spec.select_cmpf_oge_apply _ _ _ (ix2 r j) Ideal.ofBits_zero_f32).trans ?_
  refine congrArg₂ Cert.Spec.leaky rfl ?_
  refine (addf_apply _ _ _).trans ?_
  refine congrArg₂ (· + ·) ?_ (matmul_zero_at _ _ r j)
  refine (addf_apply _ _ _).trans ?_
  refine congrArg₂ (· + ·) (matmul_zero_at _ _ r j) (broadcastTo_1b_ab_apply v42 _ r j)

end Cert.KernelIdeal.PayloadAt

end
-- ==== Proof.BlockRead.lean ====
/-
  A window's block read at an index is the window's array read at the shifted index.

  Both kernel calls walk ten grid points. The two tiled windows of each (the node features and the neighbour sums) hold at
  point `t` rows `5000 t … 5000 t + 4999` of their arrays: an element of the block sits in the array at the block index times
  the block's size plus its own coordinate, and the block index is `(t, 0)`. Every other input window's block index is
  `(0, 0)` at every point and its block is its whole array.
-/
import proofs.«142832_j44555990728952_1_alg».proof.Proof.AccSharedIdeal
import proofs.«142832_j44555990728952_1_alg».proof.Proof.TileIdeal
import Idealize.ShloMosaic.Lib.ValueIdx
import Idealize.ShloMosaic.Lib.Pipeline.Value

set_option maxRecDepth 16384

noncomputable section

namespace Cert.KernelIdeal.BlockRead

open Cert.KernelIdeal Cert.KernelIdeal.Gen Cert.KernelIdeal.Acc Cert.KernelIdeal.Tile
open Idealize.ShloMosaic Idealize.ShloMosaic.TcCoe Idealize.ShloMosaic.ValueIdx
open Idealize.SL.Sem

variable {F : FTy → Type} [FloatOps F]
variable (V : (c : Dev nD) → (b : Ref sig .tc) → Buf (Elt F) ((c : Thread nD τ).loc b))

/-- Row `r` of tile `t` is a row of the array. -/
theorem row_lt (t : Fin cfg0.N) (r : Fin 5000) : t.val * 5000 + r.val < 50000 := by
  have ht : t.val < 10 := t.isLt
  have hr := r.isLt
  omega

/-! ## The statistics kernel's windows -/

/-- The block indices of the first call's tiled windows: `(t, 0)` at point `t`. -/
theorem index0_0 : ∀ t : Fin cfg0.N, win0_0.index t 0 = t.val ∧ win0_0.index t 1 = 0 :=
  (by decide +kernel : ∀ t : Fin grid0.N, win0_0.index t 0 = t.val ∧ win0_0.index t 1 = 0)

/-- The node features' tile at point `t`, at `(r, k)`: the array at row `5000 t + r`. -/
theorem tile0_0 (c : Dev nD) (t : Fin cfg0.N) (r : Fin 5000) (k : Fin 128) :
    (iblk0 V c 0 t : Vec F S5000x128 .f32) (ix2 r k) = V c main_arg0 (ix2 ⟨t.val * 5000 + r.val, row_lt t r⟩ k) := by
  have hi := index0_0 t
  unfold iblk0
  rw [View.read_apply]
  show V c main_arg0 _ = V c main_arg0 _
  congr 1
  funext a
  apply Fin.ext
  match a with
  | ⟨0, _⟩ => show win0_0.index t 0 * 5000 + 1 * r.val = t.val * 5000 + r.val; rw [hi.1]; omega
  | ⟨1, _⟩ => show win0_0.index t 1 * 128 + 1 * k.val = k.val; rw [hi.2]; omega

theorem index0_1 : ∀ t : Fin cfg0.N, win0_1.index t 0 = t.val ∧ win0_1.index t 1 = 0 :=
  (by decide +kernel : ∀ t : Fin grid0.N, win0_1.index t 0 = t.val ∧ win0_1.index t 1 = 0)

/-- The neighbour sums' tile at point `t`, at `(r, k)`: the array at row `5000 t + r`. -/
theorem tile0_1 (c : Dev nD) (t : Fin cfg0.N) (r : Fin 5000) (k : Fin 128) :
    (iblk0 V c 1 t : Vec F S5000x128 .f32) (ix2 r k) = V c main_v13 (ix2 ⟨t.val * 5000 + r.val, row_lt t r⟩ k) := by
  have hi := index0_1 t
  unfold iblk0
  rw [View.read_apply]
  show V c main_v13 _ = V c main_v13 _
  congr 1
  funext a
  apply Fin.ext
  match a with
  | ⟨0, _⟩ => show win0_1.index t 0 * 5000 + 1 * r.val = t.val * 5000 + r.val; rw [hi.1]; omega
  | ⟨1, _⟩ => show win0_1.index t 1 * 128 + 1 * k.val = k.val; rw [hi.2]; omega

/-- The block indices of the first call's whole-array windows: `(0, 0)` at every point. -/
theorem index0_2 : ∀ t : Fin cfg0.N, win0_2.index t 0 = 0 ∧ win0_2.index t 1 = 0 :=
  (by decide +kernel : ∀ t : Fin grid0.N, win0_2.index t 0 = 0 ∧ win0_2.index t 1 = 0)
theorem index0_3 : ∀ t : Fin cfg0.N, win0_3.index t 0 = 0 ∧ win0_3.index t 1 = 0 :=
  (by decide +kernel : ∀ t : Fin grid0.N, win0_3.index t 0 = 0 ∧ win0_3.index t 1 = 0)

/-- The first weight matrix's block is the whole (transposed) weight array, at every point. -/
theorem whole0_2 (c : Dev nD) (t : Fin cfg0.N) :
    (iblk0 V c 2 t : Vec F S128x128 .f32) = (V c main_v14 : Vec F S128x128 .f32) := by
  have hi := index0_2 t
  funext j
  unfold iblk0
  rw [View.read_apply]
  show V c main_v14 _ = V c main_v14 _
  congr 1
  funext a
  apply Fin.ext
  match a with
  | ⟨0, _⟩ => show win0_2.index t 0 * 128 + 1 * (j 0).val = (j 0).val; rw [hi.1]; omega
  | ⟨1, _⟩ => show win0_2.index t 1 * 128 + 1 * (j 1).val = (j 1).val; rw [hi.2]; omega

/-- The first bias row's block is the whole bias row, at every point. -/
theorem whole0_3 (c : Dev nD) (t : Fin cfg0.N) :
    (iblk0 V c 3 t : Vec F S1x128 .f32) = (V c main_v17 : Vec F S1x128 .f32) := by
  have hi := index0_3 t
  funext j
  unfold iblk0
  rw [View.read_apply]
  show V c main_v17 _ = V c main_v17 _
  congr 1
  funext a
  apply Fin.ext
  match a with
  | ⟨0, _⟩ => show win0_3.index t 0 * 1 + 1 * (j 0).val = (j 0).val; rw [hi.1]; omega
  | ⟨1, _⟩ => show win0_3.index t 1 * 128 + 1 * (j 1).val = (j 1).val; rw [hi.2]; omega

/-! ## The layer kernel's windows -/

/-- Row `r` of tile `t` of the second call is a row of the array. -/
theorem row_lt1 (t : Fin cfg1.N) (r : Fin 5000) : t.val * 5000 + r.val < 50000 := by
  have ht : t.val < 10 := t.isLt
  have hr := r.isLt
  omega

/-- The block indices of the second call's tiled windows: `(t, 0)` at point `t`. -/
theorem index1_0 : ∀ t : Fin cfg1.N, win1_0.index t 0 = t.val ∧ win1_0.index t 1 = 0 :=
  (by decide +kernel : ∀ t : Fin grid1.N, win1_0.index t 0 = t.val ∧ win1_0.index t 1 = 0)
theorem index1_1 : ∀ t : Fin cfg1.N, win1_1.index t 0 = t.val ∧ win1_1.index t 1 = 0 :=
  (by decide +kernel : ∀ t : Fin grid1.N, win1_1.index t 0 = t.val ∧ win1_1.index t 1 = 0)

/-- The node features' tile at point `t` of the second call, at `(r, k)`: the array at row `5000 t + r`. -/
theorem tile1_0 (c : Dev nD) (t : Fin cfg1.N) (r : Fin 5000) (k : Fin 128) :
    (iblk1 V c 0 t : Vec F S5000x128 .f32) (ix2 r k) = V c main_arg0 (ix2 ⟨t.val * 5000 + r.val, row_lt1 t r⟩ k) := by
  have hi := index1_0 t
  unfold iblk1
  rw [View.read_apply]
  show V c main_arg0 _ = V c main_arg0 _
  congr 1
  funext a
  apply Fin.ext
  match a with
  | ⟨0, _⟩ => show win1_0.index t 0 * 5000 + 1 * r.val = t.val * 5000 + r.val; rw [hi.1]; omega
  | ⟨1, _⟩ => show win1_0.index t 1 * 128 + 1 * k.val = k.val; rw [hi.2]; omega

/-- The neighbour sums' tile at point `t` of the second call, at `(r, k)`: the array at row `5000 t + r`. -/
theorem tile1_1 (c : Dev nD) (t : Fin cfg1.N) (r : Fin 5000) (k : Fin 128) :
    (iblk1 V c 1 t : Vec F S5000x128 .f32) (ix2 r k) = V c main_v13 (ix2 ⟨t.val * 5000 + r.val, row_lt1 t r⟩ k) := by
  have hi := index1_1 t
  unfold iblk1
  rw [View.read_apply]
  show V c main_v13 _ = V c main_v13 _
  congr 1
  funext a
  apply Fin.ext
  match a with
  | ⟨0, _⟩ => show win1_1.index t 0 * 5000 + 1 * r.val = t.val * 5000 + r.val; rw [hi.1]; omega
  | ⟨1, _⟩ => show win1_1.index t 1 * 128 + 1 * k.val = k.val; rw [hi.2]; omega

/-- The block indices of the second call's whole-array windows: `(0, 0)` at every point. -/
theorem index1_2 : ∀ t : Fin cfg1.N, win1_2.index t 0 = 0 ∧ win1_2.index t 1 = 0 :=
  (by decide +kernel : ∀ t : Fin grid1.N, win1_2.index t 0 = 0 ∧ win1_2.index t 1 = 0)
theorem index1_3 : ∀ t : Fin cfg1.N, win1_3.index t 0 = 0 ∧ win1_3.index t 1 = 0 :=
  (by decide +kernel : ∀ t : Fin grid1.N, win1_3.index t 0 = 0 ∧ win1_3.index t 1 = 0)
theorem index1_4 : ∀ t : Fin cfg1.N, win1_4.index t 0 = 0 ∧ win1_4.index t 1 = 0 :=
  (by decide +kernel : ∀ t : Fin grid1.N, win1_4.index t 0 = 0 ∧ win1_4.index t 1 = 0)
theorem index1_5 : ∀ t : Fin cfg1.N, win1_5.index t 0 = 0 ∧ win1_5.index t 1 = 0 :=
  (by decide +kernel : ∀ t : Fin grid1.N, win1_5.index t 0 = 0 ∧ win1_5.index t 1 = 0)
theorem index1_6 : ∀ t : Fin cfg1.N, win1_6.index t 0 = 0 ∧ win1_6.index t 1 = 0 :=
  (by decide +kernel : ∀ t : Fin grid1.N, win1_6.index t 0 = 0 ∧ win1_6.index t 1 = 0)
theorem index1_7 : ∀ t : Fin cfg1.N, win1_7.index t 0 = 0 ∧ win1_7.index t 1 = 0 :=
  (by decide +kernel : ∀ t : Fin grid1.N, win1_7.index t 0 = 0 ∧ win1_7.index t 1 = 0)
theorem index1_8 : ∀ t : Fin cfg1.N, win1_8.index t 0 = 0 ∧ win1_8.index t 1 = 0 :=
  (by decide +kernel : ∀ t : Fin grid1.N, win1_8.index t 0 = 0 ∧ win1_8.index t 1 = 0)
theorem index1_9 : ∀ t : Fin cfg1.N, win1_9.index t 0 = 0 ∧ win1_9.index t 1 = 0 :=
  (by decide +kernel : ∀ t : Fin grid1.N, win1_9.index t 0 = 0 ∧ win1_9.index t 1 = 0)
theorem index1_10 : ∀ t : Fin cfg1.N, win1_10.index t 0 = 0 ∧ win1_10.index t 1 = 0 :=
  (by decide +kernel : ∀ t : Fin grid1.N, win1_10.index t 0 = 0 ∧ win1_10.index t 1 = 0)

/-- The first weight matrix's block is the whole (transposed) first weight array. -/
theorem whole1_2 (c : Dev nD) (t : Fin cfg1.N) :
    (iblk1 V c 2 t : Vec F S128x128 .f32) = (V c main_v14 : Vec F S128x128 .f32) := by
  have hi := index1_2 t
  funext j
  unfold iblk1
  rw [View.read_apply]
  show V c main_v14 _ = V c main_v14 _
  congr 1
  funext a
  apply Fin.ext
  match a with
  | ⟨0, _⟩ => show win1_2.index t 0 * 128 + 1 * (j 0).val = (j 0).val; rw [hi.1]; omega
  | ⟨1, _⟩ => show win1_2.index t 1 * 128 + 1 * (j 1).val = (j 1).val; rw [hi.2]; omega

/-- The first bias row's block is the whole first bias row. -/
theorem whole1_3 (c : Dev nD) (t : Fin cfg1.N) :
    (iblk1 V c 3 t : Vec F S1x128 .f32) = (V c main_v17 : Vec F S1x128 .f32) := by
  have hi := index1_3 t
  funext j
  unfold iblk1
  rw [View.read_apply]
  show V c main_v17 _ = V c main_v17 _
  congr 1
  funext a
  apply Fin.ext
  match a with
  | ⟨0, _⟩ => show win1_3.index t 0 * 1 + 1 * (j 0).val = (j 0).val; rw [hi.1]; omega
  | ⟨1, _⟩ => show win1_3.index t 1 * 128 + 1 * (j 1).val = (j 1).val; rw [hi.2]; omega

/-- The mean row's block is the whole mean row (the first call's first output). -/
theorem whole1_4 (c : Dev nD) (t : Fin cfg1.N) :
    (iblk1 V c 4 t : Vec F S1x128 .f32) = (V c main_v21_0 : Vec F S1x128 .f32) := by
  have hi := index1_4 t
  funext j
  unfold iblk1
  rw [View.read_apply]
  show V c main_v21_0 _ = V c main_v21_0 _
  congr 1
  funext a
  apply Fin.ext
  match a with
  | ⟨0, _⟩ => show win1_4.index t 0 * 1 + 1 * (j 0).val = (j 0).val; rw [hi.1]; omega
  | ⟨1, _⟩ => show win1_4.index t 1 * 128 + 1 * (j 1).val = (j 1).val; rw [hi.2]; omega

/-- The variance row's block is the whole variance row (the first call's second output). -/
theorem whole1_5 (c : Dev nD) (t : Fin cfg1.N) :
    (iblk1 V c 5 t : Vec F S1x128 .f32) = (V c main_v21_1 : Vec F S1x128 .f32) := by
  have hi := index1_5 t
  funext j
  unfold iblk1
  rw [View.read_apply]
  show V c main_v21_1 _ = V c main_v21_1 _
  congr 1
  funext a
  apply Fin.ext
  match a with
  | ⟨0, _⟩ => show win1_5.index t 0 * 1 + 1 * (j 0).val = (j 0).val; rw [hi.1]; omega
  | ⟨1, _⟩ => show win1_5.index t 1 * 128 + 1 * (j 1).val = (j 1).val; rw [hi.2]; omega

/-- The scale row's block is the whole scale row. -/
theorem whole1_6 (c : Dev nD) (t : Fin cfg1.N) :
    (iblk1 V c 6 t : Vec F S1x128 .f32) = (V c main_v19 : Vec F S1x128 .f32) := by
  have hi := index1_6 t
  funext j
  unfold iblk1
  rw [View.read_apply]
  show V c main_v19 _ = V c main_v19 _
  congr 1
  funext a
  apply Fin.ext
  match a with
  | ⟨0, _⟩ => show win1_6.index t 0 * 1 + 1 * (j 0).val = (j 0).val; rw [hi.1]; omega
  | ⟨1, _⟩ => show win1_6.index t 1 * 128 + 1 * (j 1).val = (j 1).val; rw [hi.2]; omega

/-- The shift row's block is the whole shift row. -/
theorem whole1_7 (c : Dev nD) (t : Fin cfg1.N) :
    (iblk1 V c 7 t : Vec F S1x128 .f32) = (V c main_v20 : Vec F S1x128 .f32) := by
  have hi := index1_7 t
  funext j
  unfold iblk1
  rw [View.read_apply]
  show V c main_v20 _ = V c main_v20 _
  congr 1
  funext a
  apply Fin.ext
  match a with
  | ⟨0, _⟩ => show win1_7.index t 0 * 1 + 1 * (j 0).val = (j 0).val; rw [hi.1]; omega
  | ⟨1, _⟩ => show win1_7.index t 1 * 128 + 1 * (j 1).val = (j 1).val; rw [hi.2]; omega

/-- The second weight matrix's block is the whole (transposed) second weight array. -/
theorem whole1_8 (c : Dev nD) (t : Fin cfg1.N) :
    (iblk1 V c 8 t : Vec F S128x128 .f32) = (V c main_v15 : Vec F S128x128 .f32) := by
  have hi := index1_8 t
  funext j
  unfold iblk1
  rw [View.read_apply]
  show V c main_v15 _ = V c main_v15 _
  congr 1
  funext a
  apply Fin.ext
  match a with
  | ⟨0, _⟩ => show win1_8.index t 0 * 128 + 1 * (j 0).val = (j 0).val; rw [hi.1]; omega
  | ⟨1, _⟩ => show win1_8.index t 1 * 128 + 1 * (j 1).val = (j 1).val; rw [hi.2]; omega

/-- The second bias row's block is the whole second bias row. -/
theorem whole1_9 (c : Dev nD) (t : Fin cfg1.N) :
    (iblk1 V c 9 t : Vec F S1x128 .f32) = (V c main_v18 : Vec F S1x128 .f32) := by
  have hi := index1_9 t
  funext j
  unfold iblk1
  rw [View.read_apply]
  show V c main_v18 _ = V c main_v18 _
  congr 1
  funext a
  apply Fin.ext
  match a with
  | ⟨0, _⟩ => show win1_9.index t 0 * 1 + 1 * (j 0).val = (j 0).val; rw [hi.1]; omega
  | ⟨1, _⟩ => show win1_9.index t 1 * 128 + 1 * (j 1).val = (j 1).val; rw [hi.2]; omega

/-- The residual weight matrix's block is the whole (transposed) residual weight array. -/
theorem whole1_10 (c : Dev nD) (t : Fin cfg1.N) :
    (iblk1 V c 10 t : Vec F S128x128 .f32) = (V c main_v16 : Vec F S128x128 .f32) := by
  have hi := index1_10 t
  funext j
  unfold iblk1
  rw [View.read_apply]
  show V c main_v16 _ = V c main_v16 _
  congr 1
  funext a
  apply Fin.ext
  match a with
  | ⟨0, _⟩ => show win1_10.index t 0 * 128 + 1 * (j 0).val = (j 0).val; rw [hi.1]; omega
  | ⟨1, _⟩ => show win1_10.index t 1 * 128 + 1 * (j 1).val = (j 1).val; rw [hi.2]; omega

end Cert.KernelIdeal.BlockRead

end
-- ==== Proof.TileValue.lean ====
/-
  The second call's output array, index by index.

  At grid point t the body reads rows 5000 t … 5000 t + 4999 of the node features and of the neighbour sums, and the whole of
  every other operand: the first weight matrix (transposed) and bias row, the batch mean row and variance row, the scale and
  shift rows, the second weight matrix and bias row, the residual weight matrix. Its one store writes the whole output tile,
  whose entry (r, j) is the second linear layer of the first activation's row plus the residual product, rectified — the
  specification's output formula of the arrays the call reads, at row 5000 t + r. The ten tiles fill the 50000 rows, each
  point writes its tile back, so after the call the output array is that formula at every index.
-/
import proofs.«142832_j44555990728952_1_alg».proof.Proof.TileIdeal
import proofs.«142832_j44555990728952_1_alg».proof.Proof.PayloadAt
import proofs.«142832_j44555990728952_1_alg».proof.Proof.BlockRead
import proofs.«142832_j44555990728952_1_alg».proof.Proof.Spec
import Idealize.ShloMosaic.Lib.ValueIdx
import Idealize.ShloMosaic.Lib.Pipeline.Value

set_option maxRecDepth 16384

noncomputable section

namespace Cert.KernelIdeal.TileVal

open Cert.KernelIdeal Cert.KernelIdeal.Gen Cert.KernelIdeal.Tile Cert.KernelIdeal.PayloadAt Cert.KernelIdeal.BlockRead
open Idealize.ShloMosaic Idealize.ShloMosaic.TcCoe Idealize.ShloMosaic.ValueIdx
open Idealize.SL.Sem
open Idealize.ShloMosaic.Pipeline (Dat Cfg Window)
open scoped BigOperators

/-! ## The output tile from the blocks, at an index -/

theorem hz : (![0, 0] : Fin 2 → Nat) = fun _ => 0 := funext fun a => by fin_cases a <;> rfl

/-- The first activation of a tile at (r, k), from the eight blocks it is computed from: the first linear layer of the
    features plus the neighbour sums, less the mean row, times the reciprocal root of the variance row plus ε, scaled,
    shifted, rectified with the first slope. -/
def actTile (x0 x1 : Vec Ideal S5000x128 .f32) (x2 : Vec Ideal S128x128 .f32) (x3 x4 x5 x6 x7 : Vec Ideal S1x128 .f32)
    (r : Fin 5000) (k : Fin 128) : EReal :=
  Cert.Spec.leaky Cert.Spec.s01
    ((((((∑ q : Fin 128, (x0 (ix2 r q) + x1 (ix2 r q)) * x2 (ix2 q k)) + x3 (ix2 (0 : Fin 1) k))
        - x4 (ix2 (0 : Fin 1) k)) * Ideal.rsqrt (x5 (ix2 (0 : Fin 1) k) + Cert.Spec.eps))
      * x6 (ix2 (0 : Fin 1) k)) + x7 (ix2 (0 : Fin 1) k))

/-- The output tile at (r, j): the second linear layer of the first activation's row r, plus the residual product of the
    features' row r, rectified with the second slope. -/
theorem outTile_at (x0 x1 : Vec Ideal S5000x128 .f32) (x2 : Vec Ideal S128x128 .f32) (x3 x4 x5 x6 x7 : Vec Ideal S1x128 .f32)
    (x8 : Vec Ideal S128x128 .f32) (x9 : Vec Ideal S1x128 .f32) (x10 : Vec Ideal S128x128 .f32) (r : Fin 5000) (j : Fin 128) :
    outTile x0 x1 x2 x3 x4 x5 x6 x7 x8 x9 x10 (ix2 r j)
      = Cert.Spec.leaky Cert.Spec.s02
          (((∑ k : Fin 128, actTile x0 x1 x2 x3 x4 x5 x6 x7 r k * x8 (ix2 k j)) + x9 (ix2 (0 : Fin 1) j))
            + ∑ k : Fin 128, x0 (ix2 r k) * x10 (ix2 k j)) := by
  unfold outTile
  rw [View.canon_unit_zero hz]
  simp only [View.ld_unit_zero (S := S5000x128) hz, View.ld_unit_zero (S := S128x128) hz, View.ld_unit_zero (S := S1x128) hz]
  refine (k1_pay1_at _ x8 x9 x0 x10 r j).trans ?_
  refine congrArg (fun s => Cert.Spec.leaky Cert.Spec.s02 ((s + x9 (ix2 (0 : Fin 1) j)) + ∑ k : Fin 128, x0 (ix2 r k) * x10 (ix2 k j))) ?_
  exact Finset.sum_congr rfl fun k _ => congrArg (· * x8 (ix2 k j)) (k1_pay2_at x0 x1 x2 x3 x5 x4 x6 x7 r k)

/-! ## The arrays the call reads, as functions of row and column -/

section Arrays

variable (V : (c : Dev nD) → (b : Ref sig .tc) → Buf (Elt Ideal) ((c : Thread nD τ).loc b)) (c : Dev nD)

/-- The node features. -/
def xK : Cert.Spec.Rows → Cert.Spec.Cols → EReal := fun r k => V c main_arg0 (ix2 r k)
/-- The neighbour sums. -/
def aggK : Cert.Spec.Rows → Cert.Spec.Cols → EReal := fun r k => V c main_v13 (ix2 r k)
/-- The first weight matrix, transposed. -/
def w1tK : Cert.Spec.Cols → Cert.Spec.Cols → EReal := fun k j => V c main_v14 (ix2 k j)
/-- The first bias row. -/
def b1K : Cert.Spec.Cols → EReal := fun j => V c main_v17 (ix2 (0 : Fin 1) j)
/-- The batch mean row, as the first call left it. -/
def muK : Cert.Spec.Cols → EReal := fun j => V c main_v21_0 (ix2 (0 : Fin 1) j)
/-- The batch variance row, as the first call left it. -/
def varK : Cert.Spec.Cols → EReal := fun j => V c main_v21_1 (ix2 (0 : Fin 1) j)
/-- The scale row. -/
def gammaK : Cert.Spec.Cols → EReal := fun j => V c main_v19 (ix2 (0 : Fin 1) j)
/-- The shift row. -/
def betaK : Cert.Spec.Cols → EReal := fun j => V c main_v20 (ix2 (0 : Fin 1) j)
/-- The second weight matrix, transposed. -/
def w2tK : Cert.Spec.Cols → Cert.Spec.Cols → EReal := fun k j => V c main_v15 (ix2 k j)
/-- The second bias row. -/
def b2K : Cert.Spec.Cols → EReal := fun j => V c main_v18 (ix2 (0 : Fin 1) j)
/-- The residual weight matrix, transposed. -/
def wrtK : Cert.Spec.Cols → Cert.Spec.Cols → EReal := fun k j => V c main_v16 (ix2 k j)

/-- The first activation: the first linear layer normalised by the mean and variance rows the call is given, scaled, shifted,
    rectified. -/
def actK : Cert.Spec.Rows → Cert.Spec.Cols → EReal := fun r k =>
  Cert.Spec.leaky Cert.Spec.s01
    (Cert.Spec.normed (Cert.Spec.h1 (fun r k => xK V c r k + aggK V c r k) (w1tK V c) (b1K V c)) (muK V c) (varK V c)
      (gammaK V c) (betaK V c) r k)

/-- What the output array ends holding: the specification's output formula of the arrays the call reads. -/
def G : Buf (Elt Ideal) ((c : Thread nD τ).loc main_v22) := fun i =>
  Cert.Spec.out (xK V c) (actK V c) (w2tK V c) (wrtK V c) (b2K V c) (i 0) (i 1)

/-- The first activation of tile t at (r, k), computed from the blocks, is the first activation at row 5000 t + r. -/
theorem actTile_blk (t : Fin cfg1.N) (r : Fin 5000) (k : Fin 128) :
    actTile (iblk1 V c 0 t) (iblk1 V c 1 t) (iblk1 V c 2 t) (iblk1 V c 3 t) (iblk1 V c 4 t) (iblk1 V c 5 t) (iblk1 V c 6 t)
        (iblk1 V c 7 t) r k
      = actK V c ⟨t.val * 5000 + r.val, row_lt1 t r⟩ k := by
  unfold actTile actK Cert.Spec.normed Cert.Spec.h1 xK aggK w1tK b1K muK varK gammaK betaK
  simp only [tile1_0 V c t, tile1_1 V c t, whole1_2 V c t, whole1_3 V c t, whole1_4 V c t, whole1_5 V c t, whole1_6 V c t,
    whole1_7 V c t]

/-! ## What a point writes back -/

/-- The output window's block index at point t is (t, 0). -/
theorem index1_11 : ∀ t : Fin cfg1.N, win1_11.index t 0 = t.val ∧ win1_11.index t 1 = 0 :=
  (by decide +kernel : ∀ t : Fin grid1.N, win1_11.index t 0 = t.val ∧ win1_11.index t 1 = 0)

/-- Entry (r, j) of the output window's block at point t sits in the array at row 5000 t + r, column j. -/
theorem emb_out (t : Fin cfg1.N) (r : Fin 5000) (j : Fin 128) :
    ((cfg1.win 11).blk t).view.emb (ix2 r j) = ix2 ⟨t.val * 5000 + r.val, row_lt1 t r⟩ j := by
  have hi := index1_11 t
  funext a
  apply Fin.ext
  match a with
  | ⟨0, _⟩ => show win1_11.index t 0 * 5000 + 1 * r.val = t.val * 5000 + r.val; rw [hi.1]; omega
  | ⟨1, _⟩ => show win1_11.index t 1 * 128 + 1 * j.val = j.val; rw [hi.2]; omega

/-- WHAT POINT t WRITES BACK is block t of the output formula of the arrays as the call finds them. -/
theorem flushed_eq (t : Fin cfg1.N) :
    (dat1 V c).flushed 11 t = ((cfg1.win 11).blk t).view.read (Elt Ideal) (G V c) := by
  show (cfg1.win 11).cut (grid1.coords t) ((dat1 V c).after 11 t) = _
  rw [after1_11]
  funext y
  obtain ⟨r, j, rfl⟩ : ∃ (r : Fin 5000) (j : Fin 128), y = ix2 r j := ⟨y 0, y 1, eq_ix2 y⟩
  rw [View.read_apply, emb_out]
  show outTile (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (iblk1 V c 10 t) (ix2 r j)
    = Cert.Spec.out (xK V c) (actK V c) (w2tK V c) (wrtK V c) (b2K V c) ⟨t.val * 5000 + r.val, row_lt1 t r⟩ j
  refine (outTile_at (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) r j).trans ?_
  unfold Cert.Spec.out xK w2tK wrtK b2K
  simp only [actTile_blk V c t, tile1_0 V c t, whole1_8 V c t, whole1_9 V c t, whole1_10 V c t]

/-! ## The ten tiles fill the array -/

/-- An index of the array is in point t's block iff each coordinate is in the block's range on its axis. -/
theorem mem_blk (t : Fin cfg1.N) (i : S50000x128.Idx) :
    i ∈ ((cfg1.win 11).blk t).view.set
      ↔ ∀ a : Fin 2, win1_11.index t a * S5000x128.size a ≤ (i a).val ∧ (i a).val < win1_11.index t a * S5000x128.size a + S5000x128.size a := by
  show i ∈ ((View.whole main_v22).slice (win1_11.rect t)).set ↔ _
  rw [View.set_slice_whole, Rect.mem_set_unit]
  exact Iff.rfl

/-- Every index of the array is in the block of the point that holds its row: row i is in tile i / 5000. -/
theorem cover (i : S50000x128.Idx) :
    ∃ t : Fin cfg1.N, (cfg1.win 11).flush t = true ∧ i ∈ ((cfg1.win 11).blk t).view.set := by
  have hN : cfg1.N = 10 := N_1
  have hi0 : (i 0).val < 50000 := (i 0).isLt
  have hi1 : (i 1).val < 128 := (i 1).isLt
  have hq : (i 0).val / 5000 < cfg1.N := by rw [hN]; omega
  refine ⟨⟨(i 0).val / 5000, hq⟩, flush1_11 _, ?_⟩
  rw [mem_blk]
  obtain ⟨e0, e1⟩ := index1_11 ⟨(i 0).val / 5000, hq⟩
  intro a
  match a with
  | ⟨0, _⟩ =>
    show win1_11.index ⟨(i 0).val / 5000, hq⟩ 0 * 5000 ≤ (i 0).val
      ∧ (i 0).val < win1_11.index ⟨(i 0).val / 5000, hq⟩ 0 * 5000 + 5000
    rw [e0]
    show (i 0).val / 5000 * 5000 ≤ (i 0).val ∧ (i 0).val < (i 0).val / 5000 * 5000 + 5000
    omega
  | ⟨1, _⟩ =>
    show win1_11.index ⟨(i 0).val / 5000, hq⟩ 1 * 128 ≤ (i 1).val
      ∧ (i 1).val < win1_11.index ⟨(i 0).val / 5000, hq⟩ 1 * 128 + 128
    rw [e1]
    omega

/-- THE OUTPUT ARRAY AFTER THE CALL is the output formula of the arrays the call reads, at every index. -/
theorem final : (dat1 V c).arrAt 11 cfg1.N = G V c :=
  (dat1 V c).arrAt_eq_of_cover 11 (G V c) (fun t _ => flushed_eq V c t) (cover)

end Arrays

end Cert.KernelIdeal.TileVal

end
-- ==== Proof.StatsClosed.lean ====
/-
  The statistics kernel's accumulators in closed form, on the extended reals.

  With `H` the first linear layer of what the call finds in its arrays — `H i j = (∑ k, (x i k + agg i k) · W1t k j) + b1 j`
  over all 50000 rows —, a tile's contribution to the sum accumulator at column `j` is the sum of `H` over the tile's 5000
  rows; the accumulator starts from zero and adds one tile per point, so after the tenth point it is the sum of `H` over
  the ten tiles, which is the sum over all rows. The accumulator of squares likewise. Hence the mean row the last point
  stores is the batch mean of `H`, and the variance row its batch variance in the form "mean of squares minus square of
  the mean".
-/
import proofs.«142832_j44555990728952_1_alg».proof.Proof.StatsValueIdeal
import proofs.«142832_j44555990728952_1_alg».proof.Proof.PayloadAt
import proofs.«142832_j44555990728952_1_alg».proof.Proof.BlockRead
import proofs.«142832_j44555990728952_1_alg».proof.Proof.Spec
import proofs.«142832_j44555990728952_1_alg».proof.Proof.LibVarLaw

set_option maxRecDepth 16384

noncomputable section

namespace Cert.KernelIdeal.StatsClosed

open Cert.KernelIdeal Cert.KernelIdeal.Gen Cert.KernelIdeal.Acc Cert.KernelIdeal.PayloadAt Cert.KernelIdeal.BlockRead
open Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

/-! ## The arrays the call finds, as functions of coordinates -/

/-- A two-axis array of extended reals read at its coordinates. -/
abbrev rd2 {n d : ℕ} (A : (⟨2, ![n, d]⟩ : Shape).Idx → EReal) (r : Fin n) (k : Fin d) : EReal := A (ix2 r k)

/-- The node features plus the neighbour sums. -/
def xaK (c : Dev nD) : Cert.Spec.Rows → Cert.Spec.Cols → EReal := fun r k =>
  rd2 (n := 50000) (d := 128) (V c main_arg0) r k + rd2 (n := 50000) (d := 128) (V c main_v13) r k

/-- The transposed first weight. -/
def w1tK (c : Dev nD) : Cert.Spec.Cols → Cert.Spec.Cols → EReal := fun k j => rd2 (n := 128) (d := 128) (V c main_v14) k j

/-- The first bias. -/
def b1K (c : Dev nD) : Cert.Spec.Cols → EReal := fun j => rd2 (n := 1) (d := 128) (V c main_v17) (0 : Fin 1) j

/-- The first linear layer of what the call finds, over all rows. -/
def H (c : Dev nD) : Cert.Spec.Rows → Cert.Spec.Cols → EReal := Cert.Spec.h1 (xaK V c) (w1tK V c) (b1K V c)

/-! ## One tile -/

/-- The tile of the first layer that point `t` computes is `H` on the tile's rows. -/
theorem pay5_eq_H (c : Dev nD) (t : Fin cfg0.N) (r : Fin 5000) (j : Fin 128) :
    k0_pay5 (iblk0 V c 0 t) (iblk0 V c 1 t) (iblk0 V c 2 t) (iblk0 V c 3 t) (ix2 r j)
      = H V c ⟨t.val * 5000 + r.val, row_lt t r⟩ j := by
  refine (k0_pay5_at _ _ _ _ r j).trans ?_
  have e3 := congrFun (whole0_3 V c t) (ix2 (0 : Fin 1) j)
  have e2 := fun k : Fin 128 => congrFun (whole0_2 V c t) (ix2 k j)
  rw [e3]
  refine Eq.trans (congrArg (· + _) (Finset.sum_congr rfl fun k _ => ?_)) rfl
  rw [tile0_0 V c t r k, tile0_1 V c t r k, e2 k]
  rfl

/-- The contribution of tile `t` to column `j` of the sums (zero past the tenth tile). -/
def tileSum (c : Dev nD) (j : Fin 128) (t : ℕ) : EReal :=
  if h : t < 10 then ∑ r : Fin 5000, H V c ⟨t * 5000 + r.val, by have := r.isLt; omega⟩ j else 0

/-- The contribution of tile `t` to column `j` of the sums of squares. -/
def tileSq (c : Dev nD) (j : Fin 128) (t : ℕ) : EReal :=
  if h : t < 10 then ∑ r : Fin 5000, H V c ⟨t * 5000 + r.val, by have := r.isLt; omega⟩ j * H V c ⟨t * 5000 + r.val, by have := r.isLt; omega⟩ j
  else 0

theorem lt_ten {n : ℕ} (h : n < cfg0.N) : n < 10 := h

/-! ## The accumulators after each point -/

/-- After point `n` the sum accumulator holds, at column `j`, the contributions of tiles `0 … n`. -/
theorem accSum_eq (c : Dev nD) (j : Fin 128) : ∀ (n : ℕ) (h : n < cfg0.N),
    accSum V c n h (ix2 (0 : Fin 1) j) = ∑ t ∈ Finset.range (n + 1), tileSum V c j t
  | 0, h => by
    rw [accSum]
    refine (k0_pay6_at _ _ _ _ _ j).trans ?_
    rw [k0_pay3_at, zero_add, Finset.sum_range_one]
    unfold tileSum
    rw [dif_pos (by decide : (0 : ℕ) < 10)]
    exact Finset.sum_congr rfl fun r _ => pay5_eq_H V c ⟨0, h⟩ r j
  | n + 1, h => by
    rw [accSum]
    refine (k0_pay6_at _ _ _ _ _ j).trans ?_
    rw [accSum_eq c j n (Nat.lt_of_succ_lt h), Finset.sum_range_succ _ (n + 1)]
    refine congrArg (_ + ·) ?_
    unfold tileSum
    rw [dif_pos (lt_ten h)]
    exact Finset.sum_congr rfl fun r _ => pay5_eq_H V c ⟨n + 1, h⟩ r j

/-- After point `n` the accumulator of squares holds, at column `j`, the contributions of tiles `0 … n`. -/
theorem accSq_eq (c : Dev nD) (j : Fin 128) : ∀ (n : ℕ) (h : n < cfg0.N),
    accSq V c n h (ix2 (0 : Fin 1) j) = ∑ t ∈ Finset.range (n + 1), tileSq V c j t
  | 0, h => by
    rw [accSq]
    refine (k0_pay7_at _ _ _ _ _ j).trans ?_
    rw [k0_pay4_at, zero_add, Finset.sum_range_one]
    unfold tileSq
    rw [dif_pos (by decide : (0 : ℕ) < 10)]
    exact Finset.sum_congr rfl fun r _ => by rw [pay5_eq_H V c ⟨0, h⟩ r j]
  | n + 1, h => by
    rw [accSq]
    refine (k0_pay7_at _ _ _ _ _ j).trans ?_
    rw [accSq_eq c j n (Nat.lt_of_succ_lt h), Finset.sum_range_succ _ (n + 1)]
    refine congrArg (_ + ·) ?_
    unfold tileSq
    rw [dif_pos (lt_ten h)]
    exact Finset.sum_congr rfl fun r _ => by rw [pay5_eq_H V c ⟨n + 1, h⟩ r j]

/-! ## After the last point: sums over all rows -/

/-- Ten tiles' contributions, over the naturals below ten, are the sum over the ten tiles. -/
theorem sum_range_ten (f : ℕ → EReal) : ∑ t ∈ Finset.range 10, f t = ∑ t : Fin 10, f t.val :=
  (Fin.sum_univ_eq_sum_range f 10).symm

/-- THE SUM ACCUMULATOR after the last point: the sum of `H` over all 50000 rows. -/
theorem accSum_closed (c : Dev nD) (j : Fin 128) :
    accSum V c 9 nine_lt (ix2 (0 : Fin 1) j) = ∑ i : Fin 50000, H V c i j := by
  rw [accSum_eq V c j 9 nine_lt, sum_range_ten]
  refine Eq.trans ?_ (Cert.VarLaw.sum_tiles_50000 (fun i => H V c i j))
  refine Finset.sum_congr rfl fun t _ => ?_
  unfold tileSum
  rw [dif_pos t.isLt]

/-- THE ACCUMULATOR OF SQUARES after the last point: the sum of the squares of `H` over all 50000 rows. -/
theorem accSq_closed (c : Dev nD) (j : Fin 128) :
    accSq V c 9 nine_lt (ix2 (0 : Fin 1) j) = ∑ i : Fin 50000, H V c i j * H V c i j := by
  rw [accSq_eq V c j 9 nine_lt, sum_range_ten]
  refine Eq.trans ?_ (Cert.VarLaw.sum_tiles_50000 (fun i => H V c i j * H V c i j))
  refine Finset.sum_congr rfl fun t _ => ?_
  unfold tileSq
  rw [dif_pos t.isLt]

/-! ## The two rows the last point stores -/

/-- The mean row is the batch mean of `H`. -/
theorem meanRow_eq (c : Dev nD) (j : Fin 128) : meanRow V c (ix2 (0 : Fin 1) j) = Cert.Spec.mean (H V c) j := by
  show k0_pay1 (accSum V c 9 nine_lt) (ix2 (0 : Fin 1) j) = _
  refine (k0_pay1_at _ j).trans ?_
  rw [accSum_closed]
  rfl

/-- The variance row is the batch variance of `H`, as the mean of squares minus the square of the mean. -/
theorem varRow_eq (c : Dev nD) (j : Fin 128) : varRow V c (ix2 (0 : Fin 1) j) = Cert.Spec.varSq (H V c) j := by
  show k0_pay2 (accSum V c 9 nine_lt) (accSq V c 9 nine_lt) (ix2 (0 : Fin 1) j) = _
  refine (k0_pay2_at _ _ j).trans ?_
  rw [k0_pay1_at, accSum_closed, accSq_closed]
  rfl

end Cert.KernelIdeal.StatsClosed

end
-- ==== Proof.LibFold.lean ====
/-
  Reading a fold of host operations in one pass.

  The contents of a buffer after a straight line of host operations is a fold: each operation rewrites the buffer it writes
  and leaves every other buffer as it was. The tactic below unfolds such a fold — also through a concatenation of lines and
  through nested folds — down to the operations' functions applied to the contents the fold starts from, visiting each
  shared intermediate once.
-/
import Idealize.ShloMosaic.Lib.StableHlo.Run
import Idealize.ShloMosaic.Lib.Pipeline.Frame

namespace Cert.LibFold

open Idealize.ShloMosaic Idealize.ShloMosaic.StableHlo

/-- Rewrites every `after ops V b` in the goal, for literal lines `ops` over literal references, to the operations' functions of
    `V` at the buffers read: one simplifier pass per round, and between rounds one rewrite at a time for a reshape's result and frame and
    for whatever occurrence the pass left. -/
macro "after_all" : tactic =>
  `(tactic| (try simp only [StableHlo.after_append, after_cons, after_nil]
             repeat (first
               | rw [reshape_result]
               | (rw [reshape_result_ne]; rotate_left; decide)
               | simp (disch := decide) only [StableHlo.after_append, after_cons, after_nil,
                   nullary_result', unary_result', binary_result', ternary_result', quaternary_result', nary4_result', nary_result',
                   unaryIndexed_result', binaryIndexed_result',
                   nullary_result_ne', unary_result_ne', binary_result_ne', ternary_result_ne', quaternary_result_ne',
                   nary_result_ne', unaryIndexed_result_ne', binaryIndexed_result_ne']
               | rw [nullary_result] | rw [unary_result] | rw [binary_result] | rw [ternary_result] | rw [quaternary_result]
               | rw [binaryIndexed_result] | rw [nary4_result] | rw [nary_result] | rw [unaryIndexed_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [binaryIndexed_result_ne]; rotate_left; decide)
               | (rw [nary_result_ne]; rotate_left; decide)
               | (rw [unaryIndexed_result_ne]; rotate_left; decide))))

end Cert.LibFold
-- ==== Proof.KernelHost.lean ====
/-
  What the host operations before the two kernel calls leave in the buffers the calls read.

  The program's host part is a straight line of twenty-four array operations. Three of them transpose the three weight
  matrices, four of them lay a vector of 128 entries out as a one-row matrix, and the rest compute the neighbourhood
  aggregation: row 0 of the edge list is the source of each edge (a negative entry counted from the end, as an index of a
  list of 50000 rows), row 1 its destination; the source rows of the feature matrix are gathered, one per edge, and added
  into a zero matrix at the destination rows. This module reads each of these buffers after the line as that function of
  the argument arrays, reads the transposed matrices and the one-row matrices entry by entry, and shows that the
  aggregation of a feature matrix of real numbers is again a matrix of real numbers (each entry is zero plus a finite sum
  of entries of the feature matrix), whatever the edge list holds.
-/
import proofs.«142832_j44555990728952_1_alg».proof.Proof.Gen.KernelIdeal.Regions
import proofs.«142832_j44555990728952_1_alg».proof.Proof.LibFold
import proofs.«142832_j44555990728952_1_alg».proof.Proof.LibFinite
import Idealize.ShloMosaic.Lib.ValueLayout
import Idealize.ShloMosaic.Lib.StableHlo.Run

noncomputable section

namespace Cert.KernelIdeal.Host

open Idealize.ShloMosaic Idealize.ShloMosaic.TcCoe Idealize.ShloMosaic.ValueIdx
open Cert.KernelIdeal.Gen Cert.LibFold Cert.Finite

variable {F : FTy → Type} [FloatOps F]

/-! ## The aggregation as one function of the features and the edge list -/

/-- The neighbourhood aggregation: for the edge list `ei` (row 0 the sources, row 1 the destinations, 600000 edges) and
    the feature matrix `x`, the matrix whose row `r` is the sum, over the edges with destination `r`, of the source's row
    of `x` — a zero matrix into which the gathered source rows are added at the destination rows. A source below zero is
    first raised by 50000. -/
def aggK (x : FVec F S50000x128 .f32) (ei : IVec S2x600000 32) : FVec F S50000x128 .f32 :=
  Host.scatterAdd scatter_S50000x128_S600000x1_S600000x128_1_0_0_1
    (broadcastInDim S50000x128 ![] bcast_S_S50000x128 (constant (F := F) S_ .f32 0x00000000#32))
    (broadcastInDim S600000x1 ![0] bcast_S600000_S600000x1_0
      (shapeCast S600000 (extractStridedSlice S1x600000 ![1, 0] ei slices_S2x600000_S1x600000_1_0)
        shapeCasts_S1x600000_S600000))
    (Host.gather gather_S50000x128_S600000x1_S600000x128_1_0_n_n_0_1_1128 x
      (broadcastInDim S600000x1 ![0] bcast_S600000_S600000x1_0
        (select
          (cmpi .slt
            (shapeCast S600000 (extractStridedSlice S1x600000 ![0, 0] ei slices_S2x600000_S1x600000_0_0)
              shapeCasts_S1x600000_S600000)
            (broadcastInDim S600000 ![] bcast_S_S600000 (constantI S_ 32 0#32)))
          (addi
            (shapeCast S600000 (extractStridedSlice S1x600000 ![0, 0] ei slices_S2x600000_S1x600000_0_0)
              shapeCasts_S1x600000_S600000)
            (broadcastInDim S600000 ![] bcast_S_S600000 (constantI S_ 32 50000#32)))
          (shapeCast S600000 (extractStridedSlice S1x600000 ![0, 0] ei slices_S2x600000_S1x600000_0_0)
            shapeCasts_S1x600000_S600000))))

/-- The aggregation of a matrix of real numbers is a matrix of real numbers, whatever the edge list holds: an entry is
    zero plus a finite sum of gathered entries, and a gathered entry is an entry of the feature matrix. -/
theorem aggK_isReal {x : FVec Ideal S50000x128 .f32} (hx : IsReal x) (ei : IVec S2x600000 32) :
    IsReal (aggK (F := Ideal) x ei) := by
  unfold aggK
  exact IsReal.scatterAdd _ (IsReal.broadcastInDim _ _ (IsReal.constant_zero_f32 _)) _ (IsReal.gather _ hx _)

/-! ## A transposed matrix and a one-row matrix, entry by entry -/

/-- The transpose of a 128 × 128 matrix holds at `(k, j)` the matrix's entry at `(j, k)`. -/
theorem transpose_at (W : FVec F S128x128 .f32) (k j : Fin 128) :
    transpose S128x128 [1, 0] W transposes_S128x128_S128x128_1_0 (ix2 k j) = W (ix2 j k) :=
  transpose_ix2_apply W _ k j

/-- A vector of 128 entries laid out as a one-row matrix holds at `(u, j)` the vector's entry `j`. -/
theorem row_at (b : FVec F S128 .f32) (u : Fin 1) (j : Fin 128) :
    shapeCast S1x128 b shapeCasts_S128_S1x128 (ix2 u j) = b (ix1 j) :=
  shapeCast_a_1a_apply b _ u j

/-! ## The buffers after the host operations -/

variable (m : (ℓ : Loc nD τ sig) → Buf (Elt F) ℓ)

/-- No host operation writes the feature matrix. -/
theorem V1_arg0 (c : Dev nD) : V1 m c main_arg0 = m ((c : Thread nD τ).loc main_arg0) :=
  (V1_of m c main_arg0 (by decide)).trans rfl

/-- The aggregation buffer holds the aggregation of the feature matrix along the edge list. -/
theorem V1_v13 (c : Dev nD) :
    (V1 m c main_v13 : (⟨S50000x128, .f32⟩ : BufTy).Contents (Elt F))
      = aggK (m ((c : Thread nD τ).loc main_arg0)) (m ((c : Thread nD τ).loc main_arg1)) := by
  dsimp only [V1, V0, hostOps0]
  after_all
  rfl

/-- The three transposed weight matrices. -/
theorem V1_v14 (c : Dev nD) :
    (V1 m c main_v14 : (⟨S128x128, .f32⟩ : BufTy).Contents (Elt F))
      = transpose S128x128 [1, 0] (m ((c : Thread nD τ).loc main_arg2)) transposes_S128x128_S128x128_1_0 := by
  dsimp only [V1, V0, hostOps0]
  after_all

theorem V1_v15 (c : Dev nD) :
    (V1 m c main_v15 : (⟨S128x128, .f32⟩ : BufTy).Contents (Elt F))
      = transpose S128x128 [1, 0] (m ((c : Thread nD τ).loc main_arg6)) transposes_S128x128_S128x128_1_0 := by
  dsimp only [V1, V0, hostOps0]
  after_all

theorem V1_v16 (c : Dev nD) :
    (V1 m c main_v16 : (⟨S128x128, .f32⟩ : BufTy).Contents (Elt F))
      = transpose S128x128 [1, 0] (m ((c : Thread nD τ).loc main_arg8)) transposes_S128x128_S128x128_1_0 := by
  dsimp only [V1, V0, hostOps0]
  after_all

/-- The four vectors of 128 entries, each laid out as a one-row matrix. -/
theorem V1_v17 (c : Dev nD) :
    (V1 m c main_v17 : (⟨S1x128, .f32⟩ : BufTy).Contents (Elt F))
      = shapeCast S1x128 (m ((c : Thread nD τ).loc main_arg3)) shapeCasts_S128_S1x128 := by
  dsimp only [V1, V0, hostOps0]
  after_all
  rfl

theorem V1_v18 (c : Dev nD) :
    (V1 m c main_v18 : (⟨S1x128, .f32⟩ : BufTy).Contents (Elt F))
      = shapeCast S1x128 (m ((c : Thread nD τ).loc main_arg7)) shapeCasts_S128_S1x128 := by
  dsimp only [V1, V0, hostOps0]
  after_all
  rfl

theorem V1_v19 (c : Dev nD) :
    (V1 m c main_v19 : (⟨S1x128, .f32⟩ : BufTy).Contents (Elt F))
      = shapeCast S1x128 (m ((c : Thread nD τ).loc main_arg4)) shapeCasts_S128_S1x128 := by
  dsimp only [V1, V0, hostOps0]
  after_all
  rfl

theorem V1_v20 (c : Dev nD) :
    (V1 m c main_v20 : (⟨S1x128, .f32⟩ : BufTy).Contents (Elt F))
      = shapeCast S1x128 (m ((c : Thread nD τ).loc main_arg5)) shapeCasts_S128_S1x128 := by
  dsimp only [V1, V0, hostOps0]
  after_all
  rfl

/-! ## The same buffers read at an entry -/

/-- The first layer's transposed weights at `(k, j)` are the weights at `(j, k)`. -/
theorem V1_v14_at (c : Dev nD) (k j : Fin 128) :
    (V1 m c main_v14 : (⟨S128x128, .f32⟩ : BufTy).Contents (Elt F)) (ix2 k j)
      = (m ((c : Thread nD τ).loc main_arg2) : (⟨S128x128, .f32⟩ : BufTy).Contents (Elt F)) (ix2 j k) := by
  rw [V1_v14]; exact transpose_at _ k j

/-- The second layer's transposed weights at `(k, j)` are the weights at `(j, k)`. -/
theorem V1_v15_at (c : Dev nD) (k j : Fin 128) :
    (V1 m c main_v15 : (⟨S128x128, .f32⟩ : BufTy).Contents (Elt F)) (ix2 k j)
      = (m ((c : Thread nD τ).loc main_arg6) : (⟨S128x128, .f32⟩ : BufTy).Contents (Elt F)) (ix2 j k) := by
  rw [V1_v15]; exact transpose_at _ k j

/-- The residual branch's transposed weights at `(k, j)` are the weights at `(j, k)`. -/
theorem V1_v16_at (c : Dev nD) (k j : Fin 128) :
    (V1 m c main_v16 : (⟨S128x128, .f32⟩ : BufTy).Contents (Elt F)) (ix2 k j)
      = (m ((c : Thread nD τ).loc main_arg8) : (⟨S128x128, .f32⟩ : BufTy).Contents (Elt F)) (ix2 j k) := by
  rw [V1_v16]; exact transpose_at _ k j

/-- The first layer's bias as a one-row matrix: at `(u, j)` the bias's entry `j`. -/
theorem V1_v17_at (c : Dev nD) (u : Fin 1) (j : Fin 128) :
    (V1 m c main_v17 : (⟨S1x128, .f32⟩ : BufTy).Contents (Elt F)) (ix2 u j)
      = (m ((c : Thread nD τ).loc main_arg3) : (⟨S128, .f32⟩ : BufTy).Contents (Elt F)) (ix1 j) := by
  rw [V1_v17]; exact row_at _ u j

/-- The second layer's bias as a one-row matrix. -/
theorem V1_v18_at (c : Dev nD) (u : Fin 1) (j : Fin 128) :
    (V1 m c main_v18 : (⟨S1x128, .f32⟩ : BufTy).Contents (Elt F)) (ix2 u j)
      = (m ((c : Thread nD τ).loc main_arg7) : (⟨S128, .f32⟩ : BufTy).Contents (Elt F)) (ix1 j) := by
  rw [V1_v18]; exact row_at _ u j

/-- The normalization's scale as a one-row matrix. -/
theorem V1_v19_at (c : Dev nD) (u : Fin 1) (j : Fin 128) :
    (V1 m c main_v19 : (⟨S1x128, .f32⟩ : BufTy).Contents (Elt F)) (ix2 u j)
      = (m ((c : Thread nD τ).loc main_arg4) : (⟨S128, .f32⟩ : BufTy).Contents (Elt F)) (ix1 j) := by
  rw [V1_v19]; exact row_at _ u j

/-- The normalization's shift as a one-row matrix. -/
theorem V1_v20_at (c : Dev nD) (u : Fin 1) (j : Fin 128) :
    (V1 m c main_v20 : (⟨S1x128, .f32⟩ : BufTy).Contents (Elt F)) (ix2 u j)
      = (m ((c : Thread nD τ).loc main_arg5) : (⟨S128, .f32⟩ : BufTy).Contents (Elt F)) (ix1 j) := by
  rw [V1_v20]; exact row_at _ u j

/-! ## The aggregation buffer of real features is real -/

/-- When the feature matrix the program was launched with holds real numbers, so does the aggregation buffer after the
    host operations. -/
theorem V1_v13_isReal (m : (ℓ : Loc nD τ sig) → Buf (Elt Ideal) ℓ) (c : Dev nD)
    (hx : IsReal (m ((c : Thread nD τ).loc main_arg0) : FVec Ideal S50000x128 .f32)) :
    IsReal (V1 m c main_v13 : FVec Ideal S50000x128 .f32) := by
  rw [V1_v13]; exact aggK_isReal hx _

end Cert.KernelIdeal.Host

end
-- ==== Proof.AggAgree.lean ====
/-
  The two programs compute the same neighbour aggregation, and it is real on real features.

  The aggregation adds, into a zero array, at each edge's destination row, the feature row of the edge's source (a source
  index below zero first raised by the row count). Both programs spell it with the same operations on the same operands:
  two slices of the edge list, the same reshapes and broadcasts, one gather of rows and one scatter with addition, under
  dimension numbers with the same fields. The two spellings differ only in the proofs of the operations' side conditions,
  and any two proofs of one proposition are equal; so the two aggregations are one function of the features and the
  edge list, for any float values.

  A gather only re-indexes its operand, whatever the indices hold; a scatter with addition gives at each entry the
  operand's entry plus a finite sum of update entries; the operand here is the zero array. So every entry of the
  aggregation of an array of real numbers is a finite sum of real numbers, hence real — for any edge list.
-/
import proofs.«142832_j44555990728952_1_alg».proof.Proof.RefRun
import proofs.«142832_j44555990728952_1_alg».proof.Proof.KernelHost
import proofs.«142832_j44555990728952_1_alg».proof.Proof.LibFinite

noncomputable section

namespace Cert.AggAgree

open Idealize.ShloMosaic
open Cert.Finite

section Agree
variable {F : FTy → Type} [FloatOps F]

-- the gather and the scatter are compared as wholes, argument by argument, never opened
attribute [local irreducible] Host.gather Host.scatterAdd in
/-- The kernel program's aggregation is the reference's, for any float values. -/
theorem agg_agree (x : FVec F Cert.KernelIdeal.S50000x128 .f32) (ei : IVec Cert.KernelIdeal.S2x600000 32) :
    Cert.KernelIdeal.Host.aggK x ei = Cert.ReferenceIdeal.RefRun.agg (F := F) x ei := by
  unfold Cert.KernelIdeal.Host.aggK Cert.ReferenceIdeal.RefRun.agg Cert.ReferenceIdeal.RefRun.srcCol
    Cert.ReferenceIdeal.RefRun.dstCol
  rfl

end Agree

/-- The aggregation of an array of real numbers is an array of real numbers, whatever the edge list holds. -/
theorem agg_real (x : Cert.ReferenceIdeal.RefRun.Feat Ideal) (ei : Cert.ReferenceIdeal.RefRun.Edges Ideal)
    (hx : IsReal x) : IsReal (Cert.ReferenceIdeal.RefRun.agg (F := Ideal) x ei) := by
  unfold Cert.ReferenceIdeal.RefRun.agg
  exact IsReal.scatterAdd (φ := .f32) _ (IsReal.broadcastInDim (φ := .f32) _ _ (IsReal.constant_zero_f32 _)) _
    (IsReal.gather (φ := .f32) _ hx _)

/-- So is the kernel program's aggregation, being the same array. -/
theorem aggK_real (x : FVec Ideal Cert.KernelIdeal.S50000x128 .f32) (ei : IVec Cert.KernelIdeal.S2x600000 32)
    (hx : IsReal x) : IsReal (Cert.KernelIdeal.Host.aggK (F := Ideal) x ei) := by
  rw [agg_agree x ei]
  exact agg_real x ei hx

end Cert.AggAgree

end
-- ==== Proof.StatsArgs.lean ====
/-
  The batch statistics in terms of the program's arguments.

  The statistics call finds the node features as the program was given them, the neighbour sums the host operations
  computed from the features and the edge list, the first weight matrix transposed and the first bias as a one-row
  matrix. So the first linear layer it accumulates is the first linear layer of the arguments — the aggregation being the
  same function of the features and the edge list in both programs —, and the two rows the layer call finds in the
  statistics arrays are that layer's batch mean and its batch variance (the mean of squares minus the square of the mean).
-/
import proofs.«142832_j44555990728952_1_alg».proof.Proof.StatsClosed
import proofs.«142832_j44555990728952_1_alg».proof.Proof.ReadsIdeal
import proofs.«142832_j44555990728952_1_alg».proof.Proof.KernelHost
import proofs.«142832_j44555990728952_1_alg».proof.Proof.AggAgree

set_option maxRecDepth 16384

noncomputable section

namespace Cert.KernelIdeal.StatsArgs

open Cert.KernelIdeal Cert.KernelIdeal.Gen Cert.KernelIdeal.Acc Cert.KernelIdeal.Whole Cert.KernelIdeal.Host
open Cert.KernelIdeal.StatsClosed
open Idealize.ShloMosaic Idealize.ShloMosaic.TcCoe Idealize.ShloMosaic.ValueIdx
open Idealize.SL.Sem
open scoped BigOperators

/-- The first linear layer as a function of the four argument arrays it depends on: the features `X`, the edge list
    `EI`, the first weight matrix `W` (read transposed) and the first bias `B`. -/
def hOf (X : Cert.ReferenceIdeal.RefRun.Feat Ideal) (EI : Cert.ReferenceIdeal.RefRun.Edges Ideal)
    (W : Cert.ReferenceIdeal.RefRun.Wt Ideal) (B : Cert.ReferenceIdeal.RefRun.Chan Ideal) :
    Cert.Spec.Rows → Cert.Spec.Cols → EReal :=
  Cert.Spec.h1 (fun r k => X (ix2 r k) + Cert.ReferenceIdeal.RefRun.agg X EI (ix2 r k)) (fun k j => W (ix2 j k))
    (fun j => B (ix1 j))

variable (m : (ℓ : Loc nD τ sig) → Buf (Elt Ideal) ℓ)

/-- The first linear layer of the arguments the program was launched with, on core `c`. -/
def Hargs (c : Dev nD) : Cert.Spec.Rows → Cert.Spec.Cols → EReal :=
  hOf (m ((c : Thread nD τ).loc main_arg0)) (m ((c : Thread nD τ).loc main_arg1)) (m ((c : Thread nD τ).loc main_arg2))
    (m ((c : Thread nD τ).loc main_arg3))

/-- What the statistics call accumulates is the first linear layer of the arguments. -/
theorem H_args (c : Dev nD) : H (E1 m) c = Hargs m c := by
  unfold H Hargs hOf
  refine congr (congr (congrArg Cert.Spec.h1 ?_) ?_) ?_
  · funext r k
    have e0 := congrFun (V1_arg0 m c) (ix2 r k)
    have e13 := (congrFun (V1_v13 m c) (ix2 r k)).trans
      (congrFun (Cert.AggAgree.agg_agree (F := Ideal) (m ((c : Thread nD τ).loc main_arg0)) (m ((c : Thread nD τ).loc main_arg1))) (ix2 r k))
    exact congrArg₂ (fun a b : EReal => a + b) e0 e13
  · funext k j
    exact V1_v14_at m c k j
  · funext j
    exact V1_v17_at m c (0 : Fin 1) j

/-- The row the layer call finds in the first statistics array is the batch mean of that layer. -/
theorem mu_args (c : Dev nD) (j : Fin 128) :
    rd2 (n := 1) (d := 128) (E2 m c main_v21_0) (0 : Fin 1) j = Cert.Spec.mean (Hargs m c) j :=
  (congrFun (E2_mean m c) (ix2 (0 : Fin 1) j)).trans
    ((meanRow_eq (E1 m) c j).trans (congrArg (fun h => Cert.Spec.mean h j) (H_args m c)))

/-- The row the layer call finds in the second statistics array is the batch variance of that layer, as the mean of squares
    minus the square of the mean. -/
theorem var_args (c : Dev nD) (j : Fin 128) :
    rd2 (n := 1) (d := 128) (E2 m c main_v21_1) (0 : Fin 1) j = Cert.Spec.varSq (Hargs m c) j :=
  (congrFun (E2_var m c) (ix2 (0 : Fin 1) j)).trans
    ((varRow_eq (E1 m) c j).trans (congrArg (fun h => Cert.Spec.varSq h j) (H_args m c)))

end Cert.KernelIdeal.StatsArgs

end
-- ==== Proof.KernelParams.lean ====
/-
  The arrays the two kernel calls read, entry by entry, as functions of the program's arguments.

  The statistics call and the layer call read the node features, the neighbour aggregation, the transposed weight
  matrices and the bias, scale and shift rows out of buffers the host operations wrote (or left alone), and the statistics
  call writes none of them. Read at a row and a column, the feature buffer holds the features; the aggregation buffer holds
  the neighbour aggregation of the features along the edge list, which is the same function the reference computes; a
  transposed weight buffer holds at (k, j) the weight at (j, k); a one-row buffer holds at (0, j) entry j of its vector.
-/
import proofs.«142832_j44555990728952_1_alg».proof.Proof.ReadsIdeal
import proofs.«142832_j44555990728952_1_alg».proof.Proof.KernelHost
import proofs.«142832_j44555990728952_1_alg».proof.Proof.AggAgree

noncomputable section

namespace Cert.KernelIdeal.Params

open Idealize.ShloMosaic Idealize.ShloMosaic.TcCoe Idealize.ShloMosaic.ValueIdx
open Cert.KernelIdeal.Gen Cert.KernelIdeal.Whole

variable (m : (ℓ : Loc nD τ sig) → Buf (Elt Ideal) ℓ) (c : Dev nD)

/-! ## What the statistics call finds -/

/-- The feature buffer holds the features. -/
theorem x_eq1 :
    (fun (r : Fin 50000) (k : Fin 128) => (E1 m c main_arg0 : FVec Ideal S50000x128 .f32) (ix2 r k))
      = fun r k => (m ((c : Thread nD τ).loc main_arg0) : FVec Ideal S50000x128 .f32) (ix2 r k) := by
  funext r k
  show (V1 m c main_arg0 : FVec Ideal S50000x128 .f32) (ix2 r k) = _
  rw [Host.V1_arg0]

/-- The aggregation buffer holds the neighbour aggregation of the features along the edge list. -/
theorem agg_eq1 :
    (fun (r : Fin 50000) (k : Fin 128) => (E1 m c main_v13 : FVec Ideal S50000x128 .f32) (ix2 r k))
      = fun r k => Cert.ReferenceIdeal.RefRun.agg (F := Ideal) (m ((c : Thread nD τ).loc main_arg0))
          (m ((c : Thread nD τ).loc main_arg1)) (ix2 r k) := by
  funext r k
  show (V1 m c main_v13 : FVec Ideal S50000x128 .f32) (ix2 r k) = _
  rw [Host.V1_v13, Cert.AggAgree.agg_agree]

/-- The first layer's transposed weights. -/
theorem w1t_eq1 :
    (fun (k j : Fin 128) => (E1 m c main_v14 : FVec Ideal S128x128 .f32) (ix2 k j))
      = fun k j => (m ((c : Thread nD τ).loc main_arg2) : FVec Ideal S128x128 .f32) (ix2 j k) := by
  funext k j
  exact Host.V1_v14_at m c k j

/-- The first layer's bias row. -/
theorem b1_eq1 :
    (fun (j : Fin 128) => (E1 m c main_v17 : FVec Ideal S1x128 .f32) (ix2 (0 : Fin 1) j))
      = fun j => (m ((c : Thread nD τ).loc main_arg3) : FVec Ideal S128 .f32) (ix1 j) := by
  funext j
  exact Host.V1_v17_at m c 0 j

/-! ## What the layer call finds: the same, the statistics call having written none of these buffers -/

theorem x_eq2 :
    (fun (r : Fin 50000) (k : Fin 128) => (E2 m c main_arg0 : FVec Ideal S50000x128 .f32) (ix2 r k))
      = fun r k => (m ((c : Thread nD τ).loc main_arg0) : FVec Ideal S50000x128 .f32) (ix2 r k) := by
  rw [E2_arg0]; exact x_eq1 m c

theorem agg_eq2 :
    (fun (r : Fin 50000) (k : Fin 128) => (E2 m c main_v13 : FVec Ideal S50000x128 .f32) (ix2 r k))
      = fun r k => Cert.ReferenceIdeal.RefRun.agg (F := Ideal) (m ((c : Thread nD τ).loc main_arg0))
          (m ((c : Thread nD τ).loc main_arg1)) (ix2 r k) := by
  rw [E2_v13]; exact agg_eq1 m c

theorem w1t_eq2 :
    (fun (k j : Fin 128) => (E2 m c main_v14 : FVec Ideal S128x128 .f32) (ix2 k j))
      = fun k j => (m ((c : Thread nD τ).loc main_arg2) : FVec Ideal S128x128 .f32) (ix2 j k) := by
  rw [E2_v14]; exact w1t_eq1 m c

theorem b1_eq2 :
    (fun (j : Fin 128) => (E2 m c main_v17 : FVec Ideal S1x128 .f32) (ix2 (0 : Fin 1) j))
      = fun j => (m ((c : Thread nD τ).loc main_arg3) : FVec Ideal S128 .f32) (ix1 j) := by
  rw [E2_v17]; exact b1_eq1 m c

/-- The normalization's scale row. -/
theorem gamma_eq2 :
    (fun (j : Fin 128) => (E2 m c main_v19 : FVec Ideal S1x128 .f32) (ix2 (0 : Fin 1) j))
      = fun j => (m ((c : Thread nD τ).loc main_arg4) : FVec Ideal S128 .f32) (ix1 j) := by
  rw [E2_v19]; funext j; exact Host.V1_v19_at m c 0 j

/-- The normalization's shift row. -/
theorem beta_eq2 :
    (fun (j : Fin 128) => (E2 m c main_v20 : FVec Ideal S1x128 .f32) (ix2 (0 : Fin 1) j))
      = fun j => (m ((c : Thread nD τ).loc main_arg5) : FVec Ideal S128 .f32) (ix1 j) := by
  rw [E2_v20]; funext j; exact Host.V1_v20_at m c 0 j

/-- The second layer's transposed weights. -/
theorem w2t_eq2 :
    (fun (k j : Fin 128) => (E2 m c main_v15 : FVec Ideal S128x128 .f32) (ix2 k j))
      = fun k j => (m ((c : Thread nD τ).loc main_arg6) : FVec Ideal S128x128 .f32) (ix2 j k) := by
  rw [E2_v15]; funext k j; exact Host.V1_v15_at m c k j

/-- The second layer's bias row. -/
theorem b2_eq2 :
    (fun (j : Fin 128) => (E2 m c main_v18 : FVec Ideal S1x128 .f32) (ix2 (0 : Fin 1) j))
      = fun j => (m ((c : Thread nD τ).loc main_arg7) : FVec Ideal S128 .f32) (ix1 j) := by
  rw [E2_v18]; funext j; exact Host.V1_v18_at m c 0 j

/-- The residual branch's transposed weights. -/
theorem wrt_eq2 :
    (fun (k j : Fin 128) => (E2 m c main_v16 : FVec Ideal S128x128 .f32) (ix2 k j))
      = fun k j => (m ((c : Thread nD τ).loc main_arg8) : FVec Ideal S128x128 .f32) (ix2 j k) := by
  rw [E2_v16]; funext k j; exact Host.V1_v16_at m c k j

end Cert.KernelIdeal.Params

end
-- ==== Proof.RefRead.lean ====
/-
  The reference's stages read at an index, at the ideal values.

  Each named stage of the reference's result is read at row `r` and column `j` as the plain formula over the extended
  reals: a vector repeated down the rows reads its column's entry; a product with a transposed weight matrix is the sum
  over the contracted column of the row's entry times the weight's entry at (j, k); a column mean is the sum down the rows
  divided by the row count; the rectifier is the pointwise one. The neighbour aggregation is never opened: it enters only
  as the array it is. Composed, the reference's result at (r, j) is the specification's layer with the variance spelt as
  the mean of squared deviations.
-/
import proofs.«142832_j44555990728952_1_alg».proof.Proof.RefRun
import proofs.«142832_j44555990728952_1_alg».proof.Proof.Spec
import Idealize.ShloMosaic.Lib.ValueIdx
import Idealize.ShloMosaic.Lib.Pipeline.Value
import Idealize.ShloMosaic.Lib.StackMember
import Idealize.ShloMosaic.PureOps.Ideal.Laws

noncomputable section

namespace Cert.ReferenceIdeal.RefRead

open Cert.ReferenceIdeal Cert.ReferenceIdeal.Gen Cert.ReferenceIdeal.RefRun Idealize.ShloMosaic Idealize.ShloMosaic.ValueIdx
open scoped BigOperators

/-! ## Layout: a per-column vector repeated down the rows, a scalar repeated everywhere -/

/-- A per-column vector repeated down the rows reads, at (r, j), the vector's entry j. For any element type. -/
theorem rowB_apply {F : FTy → Type} [FloatOps F] (v : Chan F) (r : Fin 50000) (j : Fin 128) :
    rowB v (ix2 r j) = v (ix1 j) := by
  unfold rowB
  refine (broadcastInDim_apply _ _ _ (ix2 r j) (ix2 (0 : Fin 1) j) ?_).trans ?_
  · intro a
    match a with
    | ⟨0, _⟩ => rfl
    | ⟨1, _⟩ => rfl
  · refine broadcastInDim_apply _ _ _ (ix2 (0 : Fin 1) j) (ix1 j) ?_
    intro a
    match a with
    | ⟨0, _⟩ => rfl

/-- A scalar repeated over the whole array reads the scalar at every index. -/
theorem splat_apply {F : FTy → Type} [FloatOps F] (s : Scal F) (i : S50000x128.Idx) :
    broadcastInDim S50000x128 ![] bcast_S_S50000x128 s i = s ix0 :=
  broadcastInDim_apply _ _ _ i ix0 fun a => a.elim0

/-! ## The product with a transposed weight matrix -/

/-- The transposed weight matrix at (k, j) is the weight matrix at (j, k). -/
theorem transpose_apply_kj {F : FTy → Type} [FloatOps F] (W : Wt F) (k j : Fin 128) :
    transpose S128x128 [1, 0] W transposes_S128x128_S128x128_1_0 (ix2 k j) = W (ix2 j k) := by
  refine transpose_apply _ _ _ (ix2 k j) (ix2 j k) ?_
  intro b
  match b with
  | ⟨0, _⟩ => rfl
  | ⟨1, _⟩ => rfl

/-- Entry (r, j) of a · Wᵀ: the sum over k of a(r, k) · W(j, k). -/
theorem mulT_apply (a : Feat Ideal) (W : Wt Ideal) (r : Fin 50000) (j : Fin 128) :
    mulT a W (ix2 r j) = ∑ k : Fin 128, a (ix2 r k) * W (ix2 j k) := by
  unfold mulT
  refine (StackMember.dotGeneral_plain_apply (m := 50000) (n := 128) (k := 128) none a _ r j).trans ?_
  exact Finset.sum_congr rfl fun k _ => congrArg (a (ix2 r k) * ·) (transpose_apply_kj W k j)

/-- Entry (r, j) of the linear layer a · Wᵀ + b. -/
theorem lin_apply (a : Feat Ideal) (W : Wt Ideal) (b : Chan Ideal) (r : Fin 50000) (j : Fin 128) :
    lin a W b (ix2 r j) = (∑ k : Fin 128, a (ix2 r k) * W (ix2 j k)) + b (ix1 j) := by
  unfold lin
  show mulT a W (ix2 r j) + rowB b (ix2 r j) = _
  rw [mulT_apply, rowB_apply]

/-! ## The first linear layer -/

/-- The first linear layer at (r, j) is the specification's: of the features plus the aggregation, the weight read transposed. -/
theorem h1_apply (X : Feat Ideal) (EI : Edges Ideal) (W1 : Wt Ideal) (B1 : Chan Ideal) (r : Fin 50000) (j : Fin 128) :
    h1 X EI W1 B1 (ix2 r j)
      = Cert.Spec.h1 (fun r k => X (ix2 r k) + agg X EI (ix2 r k)) (fun k j => W1 (ix2 j k)) (fun j => B1 (ix1 j)) r j := by
  unfold h1 Cert.Spec.h1
  exact (lin_apply _ W1 B1 r j).trans rfl

/-- The first linear layer as a function of row and column. -/
theorem h1_fun (X : Feat Ideal) (EI : Edges Ideal) (W1 : Wt Ideal) (B1 : Chan Ideal) :
    (fun r k => h1 X EI W1 B1 (ix2 r k))
      = Cert.Spec.h1 (fun r k => X (ix2 r k) + agg X EI (ix2 r k)) (fun k j => W1 (ix2 j k)) (fun j => B1 (ix1 j)) :=
  funext fun r => funext fun k => h1_apply X EI W1 B1 r k

/-! ## The batch statistics -/

/-- Summing down the rows keeps the column axis. -/
theorem reduces_rows : S50000x128.Reduces [0] S128 := by decide

/-- The index the column sum reads at row r of column j. -/
theorem lift_eq (j : Fin 128) (r : Fin 50000) : reduces_rows.lift (ix1 j) r = ix2 r j := by
  funext a
  match a with
  | ⟨0, _⟩ => exact Fin.ext rfl
  | ⟨1, _⟩ => exact Fin.ext rfl

/-- The sum down the rows, from the zero pattern, of column j. -/
theorem colSum_apply (h : Feat Ideal) (j : Fin 128) :
    Ideal.hostReduceAdd reducesTo_S50000x128_S128_d0 h (Ideal.ofBits .f32 0x00000000#32) (ix1 j) = ∑ r : Fin 50000, h (ix2 r j) :=
  (Ideal.hostReduceAdd_single reducesTo_S50000x128_S128_d0 reduces_rows h _ (ix1 j)).trans
    ((Cert.Consts.ofBits_zero_add _).trans (Finset.sum_congr rfl fun r _ => congrArg h (lift_eq j r)))

/-- The column mean at column j: the sum down the rows of the entries of column j, divided by the row count. -/
theorem colMean_apply (h : Feat Ideal) (j : Fin 128) :
    colMean h (ix1 j) = Ideal.div (∑ r : Fin 50000, h (ix2 r j)) Cert.Spec.n50000 :=
  show Ideal.div (Ideal.hostReduceAdd reducesTo_S50000x128_S128_d0 h (Ideal.ofBits .f32 0x00000000#32) (ix1 j))
      (Ideal.ofBits .f32 0x47435000#32) = Ideal.div (∑ r : Fin 50000, h (ix2 r j)) (Ideal.ofBits .f32 0x47435000#32) from
    congrArg (fun s => Ideal.div s (Ideal.ofBits .f32 0x47435000#32)) (colSum_apply h j)

/-- The batch mean of column j is the specification's. -/
theorem mu_apply (h : Feat Ideal) (j : Fin 128) : mu h (ix1 j) = Cert.Spec.mean (fun r k => h (ix2 r k)) j := by
  unfold mu Cert.Spec.mean
  exact colMean_apply h j

/-- The deviation from the batch mean at (r, j). -/
theorem centered_apply (h : Feat Ideal) (r : Fin 50000) (j : Fin 128) :
    centered h (ix2 r j) = h (ix2 r j) - Cert.Spec.mean (fun r k => h (ix2 r k)) j := by
  unfold centered
  show h (ix2 r j) - rowB (mu h) (ix2 r j) = _
  rw [rowB_apply, mu_apply]

/-- The batch variance of column j is the specification's mean of squared deviations. -/
theorem var_apply (h : Feat Ideal) (j : Fin 128) : var h (ix1 j) = Cert.Spec.varDev (fun r k => h (ix2 r k)) j := by
  have e : (∑ r : Fin 50000, mulf (centered h) (centered h) (ix2 r j))
      = ∑ r : Fin 50000, (h (ix2 r j) - Cert.Spec.mean (fun r k => h (ix2 r k)) j) * (h (ix2 r j) - Cert.Spec.mean (fun r k => h (ix2 r k)) j) :=
    Finset.sum_congr rfl fun r _ =>
      show centered h (ix2 r j) * centered h (ix2 r j) = _ from by rw [centered_apply]
  unfold var
  exact (colMean_apply _ j).trans (congrArg (fun s => Ideal.div s Cert.Spec.n50000) e)

/-! ## The normalisation and the rectifier -/

/-- The normalised, scaled and shifted value at (r, j) is the specification's, with the batch's own mean and variance. -/
theorem normed_apply (h : Feat Ideal) (γ β : Chan Ideal) (r : Fin 50000) (j : Fin 128) :
    normed h γ β (ix2 r j)
      = Cert.Spec.normed (fun r k => h (ix2 r k)) (Cert.Spec.mean (fun r k => h (ix2 r k)))
          (Cert.Spec.varDev (fun r k => h (ix2 r k))) (fun j => γ (ix1 j)) (fun j => β (ix1 j)) r j := by
  unfold normed Cert.Spec.normed Cert.Spec.eps
  show (centered h (ix2 r j)
        * rowB (Host.rsqrt (addf (var h) (broadcastInDim S128 ![] bcast_S_S128 (constant (F := Ideal) S_ .f32 0x3727C5AC#32)))) (ix2 r j))
      * rowB γ (ix2 r j) + rowB β (ix2 r j) = _
  rw [rowB_apply, rowB_apply, rowB_apply, centered_apply]
  show ((h (ix2 r j) - Cert.Spec.mean (fun r k => h (ix2 r k)) j)
        * Ideal.rsqrt (var h (ix1 j) + Ideal.ofBits .f32 0x3727C5AC#32)) * γ (ix1 j) + β (ix1 j) = _
  rw [var_apply]

/-- The rectifier at an index is the pointwise one, with the slope the scalar's one entry. -/
theorem leaky_apply (a : Feat Ideal) (slope : Scal Ideal) (i : S50000x128.Idx) :
    leaky a slope i = Cert.Spec.leaky (slope ix0) (a i) := by
  unfold leaky
  refine (Cert.Spec.select_cmpf_oge_apply_of_ofBits a _ _ i ?_).trans ?_
  · exact (splat_apply (F := Ideal) (constant (F := Ideal) S_ .f32 0x00000000#32) i).trans rfl
  · exact congrArg (fun s => Cert.Spec.leaky s (a i)) (splat_apply (F := Ideal) slope i)

/-! ## The composition -/

/-- The first activation at (r, k). -/
theorem act1_apply (X : Feat Ideal) (EI : Edges Ideal) (W1 : Wt Ideal) (B1 γ β : Chan Ideal) (r : Fin 50000) (k : Fin 128) :
    act1 X EI W1 B1 γ β (ix2 r k)
      = Cert.Spec.leaky Cert.Spec.s01
          (Cert.Spec.normed
            (Cert.Spec.h1 (fun r k => X (ix2 r k) + agg X EI (ix2 r k)) (fun k j => W1 (ix2 j k)) (fun j => B1 (ix1 j)))
            (Cert.Spec.mean (Cert.Spec.h1 (fun r k => X (ix2 r k) + agg X EI (ix2 r k)) (fun k j => W1 (ix2 j k)) (fun j => B1 (ix1 j))))
            (Cert.Spec.varDev (Cert.Spec.h1 (fun r k => X (ix2 r k) + agg X EI (ix2 r k)) (fun k j => W1 (ix2 j k)) (fun j => B1 (ix1 j))))
            (fun j => γ (ix1 j)) (fun j => β (ix1 j)) r k) := by
  unfold act1
  rw [leaky_apply, normed_apply, h1_fun]
  rfl

/-- The second linear layer at (r, j), over the first activation as a function of row and column. -/
theorem h2_apply (X : Feat Ideal) (EI : Edges Ideal) (W1 : Wt Ideal) (B1 γ β : Chan Ideal) (W2 : Wt Ideal) (B2 : Chan Ideal)
    (r : Fin 50000) (j : Fin 128) :
    h2 X EI W1 B1 γ β W2 B2 (ix2 r j)
      = (∑ k : Fin 128, act1 X EI W1 B1 γ β (ix2 r k) * W2 (ix2 j k)) + B2 (ix1 j) := by
  unfold h2
  exact lin_apply _ W2 B2 r j

/-- The residual branch at (r, j). -/
theorem xres_apply (X : Feat Ideal) (WR : Wt Ideal) (r : Fin 50000) (j : Fin 128) :
    xres X WR (ix2 r j) = ∑ k : Fin 128, X (ix2 r k) * WR (ix2 j k) := by
  unfold xres
  exact mulT_apply X WR r j

/-- THE REFERENCE'S RESULT AT (r, j) is the specification's layer, the variance spelt as the mean of squared deviations,
    of: the features, the aggregation (as the array it is), the three weight matrices read transposed, and the four
    per-column vectors. -/
theorem result_apply (X : Feat Ideal) (EI : Edges Ideal) (W1 : Wt Ideal) (B1 G Bt : Chan Ideal) (W2 : Wt Ideal) (B2 : Chan Ideal)
    (WR : Wt Ideal) (r : Fin 50000) (j : Fin 128) :
    result X EI W1 B1 G Bt W2 B2 WR (ix2 r j)
      = Cert.Spec.layer (fun r k => X (ix2 r k)) (fun r k => agg X EI (ix2 r k)) (fun k j => W1 (ix2 j k))
          (fun k j => W2 (ix2 j k)) (fun k j => WR (ix2 j k)) (fun j => B1 (ix1 j)) (fun j => G (ix1 j)) (fun j => Bt (ix1 j))
          (fun j => B2 (ix1 j)) Cert.Spec.varDev r j := by
  unfold result Cert.Spec.layer Cert.Spec.out
  rw [leaky_apply]
  show Cert.Spec.leaky _ (h2 X EI W1 B1 G Bt W2 B2 (ix2 r j) + xres X WR (ix2 r j)) = _
  rw [h2_apply, xres_apply]
  simp only [act1_apply]
  rfl

end Cert.ReferenceIdeal.RefRead

end
-- ==== Proof.PreReal.lean ====
/-
  From the precondition to "every float input is an array of real numbers", on the extended reals.

  The precondition is the conjunction, over the eight float inputs, of "every entry's absolute value is below +∞": for
  each input an and-reduction, over the whole array, of the entrywise test  |v| < +∞  against the pattern of +∞. A
  conjunction of one-bit words is 1 only when both words are; an and-reduction over every axis that is 1 met a 1 at every
  entry; and an extended real whose absolute value is below +∞ is neither infinity, hence a real number. So each of the
  eight arrays has only real entries. The integer edge list carries no condition and none is concluded for it.
-/
import proofs.«142832_j44555990728952_1_alg».proof.Pre_finite_inputs
import proofs.«142832_j44555990728952_1_alg».proof.Proof.Gen.Pre_finite_inputs
import proofs.«142832_j44555990728952_1_alg».proof.Proof.LibFinite
import proofs.«142832_j44555990728952_1_alg».proof.Proof.Consts
import Idealize.ShloMosaic.Lib.ReduceAll
import Idealize.ShloMosaic.Lib.ValueIdx

noncomputable section

namespace Cert.PreReal

open Idealize.ShloMosaic
open Cert.Pre_finite_inputs
open Cert.Finite

/-- The shape of rank zero has exactly one index. -/
instance subsingleton_scalar_idx : Subsingleton S_.Idx := ⟨fun a b => funext fun d => d.elim0⟩

/-- A conjunction of two arrays of one-bit words that is 1 at an index: both arrays are 1 there. -/
theorem andi_apply_eq_one {s : Shape} (a b : IVec s 1) (i : s.Idx) (h : andi a b i = 1#1) : a i = 1#1 ∧ b i = 1#1 :=
  IntOp.andi_eq_one.1 h

/-- One input's test, over an arbitrary shape: if the and-reduction over every axis of the entrywise comparison
    |v| < +∞ (the bound being the pattern of +∞ broadcast to the array's shape) is 1, then every entry of `v` is a real
    number. -/
theorem isReal_of_all_abs_lt_inf {s : Shape} {axes : List (Fin s.rank)} (v : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf v) (broadcastInDim s ![] hb (constant (F := Ideal) S_ .f32 0x7F800000#32)))
          (constantI S_ 1 1#1) hr hu j = 1#1) :
    IsReal v := fun i => by
  have h1 := Host.reduce_andi_all _ _ hr hu j e i
  exact isRealVal_of_cmpf_abs (v i) _ Cert.Consts.ofBits_inf h1

variable [Facts]

/-- Under the precondition each of the eight float inputs is an array of real numbers. -/
theorem inputs_real (x : FVec Ideal S50000x128 .f32) (ei : IVec S2x600000 32) (W1 : FVec Ideal S128x128 .f32)
    (b1 gamma beta : FVec Ideal S128 .f32) (W2 : FVec Ideal S128x128 .f32) (b2 : FVec Ideal S128 .f32)
    (Wres : FVec Ideal S128x128 .f32)
    (h : fn (F := Ideal) x ei W1 b1 gamma beta W2 b2 Wres = (fun _ => 1#1)) :
    IsReal x ∧ IsReal W1 ∧ IsReal b1 ∧ IsReal gamma ∧ IsReal beta ∧ IsReal W2 ∧ IsReal b2 ∧ IsReal Wres := by
  have h0 := congrFun h ValueIdx.ix0
  dsimp only [fn, fn_part1, fn_part2] at h0
  obtain ⟨h7, hWres⟩ := andi_apply_eq_one _ _ _ h0
  obtain ⟨h6, hb2⟩ := andi_apply_eq_one _ _ _ h7
  obtain ⟨h5, hW2⟩ := andi_apply_eq_one _ _ _ h6
  obtain ⟨h4, hbeta⟩ := andi_apply_eq_one _ _ _ h5
  obtain ⟨h3, hgamma⟩ := andi_apply_eq_one _ _ _ h4
  obtain ⟨h2, hb1⟩ := andi_apply_eq_one _ _ _ h3
  obtain ⟨hx, hW1⟩ := andi_apply_eq_one _ _ _ h2
  exact ⟨isReal_of_all_abs_lt_inf x _ _ _ _ hx, isReal_of_all_abs_lt_inf W1 _ _ _ _ hW1,
    isReal_of_all_abs_lt_inf b1 _ _ _ _ hb1, isReal_of_all_abs_lt_inf gamma _ _ _ _ hgamma,
    isReal_of_all_abs_lt_inf beta _ _ _ _ hbeta, isReal_of_all_abs_lt_inf W2 _ _ _ _ hW2,
    isReal_of_all_abs_lt_inf b2 _ _ _ _ hb2, isReal_of_all_abs_lt_inf Wres _ _ _ _ hWres⟩

end Cert.PreReal

end
-- ==== Proof.Bridge.lean ====
/-
  The two programs' results are one function of the arguments.

  The kernel's result array, after its second call, is the specification's output formula of the arrays that call reads; those
  arrays are the arguments re-laid (a transposed weight, a bias as a row), the neighbour sums — the same function of the features
  and the edge list in both programs —, and the mean and variance rows of the first call, which are the specification's mean and
  its (mean of squares − mean²) of the first layer's output. The reference's result is the same formula with the variance as the
  mean of squared deviations. The two variances agree because the first layer's output is real-valued: the precondition makes every
  float argument finite, and gathering, adding up and multiplying reals gives reals.
-/
import proofs.«142832_j44555990728952_1_alg».proof.Defs
import proofs.«142832_j44555990728952_1_alg».proof.Proof.ReadsIdeal
import proofs.«142832_j44555990728952_1_alg».proof.Proof.TileValue
import proofs.«142832_j44555990728952_1_alg».proof.Proof.StatsArgs
import proofs.«142832_j44555990728952_1_alg».proof.Proof.KernelParams
import proofs.«142832_j44555990728952_1_alg».proof.Proof.RefRead
import proofs.«142832_j44555990728952_1_alg».proof.Proof.PreReal
import proofs.«142832_j44555990728952_1_alg».proof.Proof.AggAgree
import proofs.«142832_j44555990728952_1_alg».proof.Proof.Spec
import proofs.«142832_j44555990728952_1_alg».proof.Proof.LibFinite

set_option maxRecDepth 16384

noncomputable section

namespace Cert.Bridge

open Idealize.ShloMosaic Idealize.ShloMosaic.TcCoe Idealize.ShloMosaic.ValueIdx Idealize.SL.Sem
open Cert.KernelIdeal Cert.KernelIdeal.Gen Cert.KernelIdeal.Whole Cert.KernelIdeal.TileVal Cert.KernelIdeal.Params
open Cert.KernelIdeal.StatsArgs

variable (m : (ℓ : Loc nD τ sig) → Buf (Elt Ideal) ℓ) (c : Dev nD)

set_option maxHeartbeats 2000000 in
/-- The kernel's result at row `r`, feature `j`: the layer's formula of the arguments, with the variance in the form the kernel
    computes it. -/
theorem kernel_value (r : Fin 50000) (j : Fin 128) :
    (E3 m c main_v22 : FVec Ideal S50000x128 .f32) (ix2 r j)
      = Cert.Spec.layer (fun r k => ((m ((c : Thread nD τ).loc main_arg0)) : FVec Ideal S50000x128 .f32) (ix2 r k))
      (fun r k => Cert.ReferenceIdeal.RefRun.agg (F := Ideal) (m ((c : Thread nD τ).loc main_arg0)) (m ((c : Thread nD τ).loc main_arg1)) (ix2 r k))
      (fun k j => ((m ((c : Thread nD τ).loc main_arg2)) : FVec Ideal S128x128 .f32) (ix2 j k)) (fun k j => ((m ((c : Thread nD τ).loc main_arg6)) : FVec Ideal S128x128 .f32) (ix2 j k))
      (fun k j => ((m ((c : Thread nD τ).loc main_arg8)) : FVec Ideal S128x128 .f32) (ix2 j k)) (fun j => ((m ((c : Thread nD τ).loc main_arg3)) : FVec Ideal S128 .f32) (ix1 j))
      (fun j => ((m ((c : Thread nD τ).loc main_arg4)) : FVec Ideal S128 .f32) (ix1 j)) (fun j => ((m ((c : Thread nD τ).loc main_arg5)) : FVec Ideal S128 .f32) (ix1 j))
      (fun j => ((m ((c : Thread nD τ).loc main_arg7)) : FVec Ideal S128 .f32) (ix1 j)) Cert.Spec.varSq r j := by
  have hfin : (E3 m c main_v22 : FVec Ideal S50000x128 .f32) = G (E2 m) c := (E3_result m c).trans (TileVal.final (E2 m) c)
  rw [hfin]
  show Cert.Spec.out (xK (E2 m) c) (actK (E2 m) c) (w2tK (E2 m) c) (wrtK (E2 m) c) (b2K (E2 m) c) r j = _
  have hx : xK (E2 m) c = _ := x_eq2 m c
  have hagg : aggK (E2 m) c = _ := agg_eq2 m c
  have hw1 : w1tK (E2 m) c = _ := w1t_eq2 m c
  have hb1 : b1K (E2 m) c = _ := b1_eq2 m c
  have hg : gammaK (E2 m) c = _ := gamma_eq2 m c
  have hbt : betaK (E2 m) c = _ := beta_eq2 m c
  have hw2 : w2tK (E2 m) c = _ := w2t_eq2 m c
  have hb2 : b2K (E2 m) c = _ := b2_eq2 m c
  have hwr : wrtK (E2 m) c = _ := wrt_eq2 m c
  have hmu : muK (E2 m) c = Cert.Spec.mean (Hargs m c) := funext fun j => mu_args m c j
  have hvar : varK (E2 m) c = Cert.Spec.varSq (Hargs m c) := funext fun j => var_args m c j
  unfold Cert.Spec.layer actK
  rw [hx, hagg, hw1, hb1, hg, hbt, hw2, hb2, hwr, hmu, hvar]
  rfl

set_option maxHeartbeats 2000000 in
/-- Run from memories that agree on the arguments, the idealized kernel and the idealized reference both end, with equal results
    and unchanged arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => E3 m c main_v22, ?_, ?_⟩
  · exact (θ_run Cert.KernelIdeal.defs _ _).mono (fun _ h c => ⟨h c _ (mem_uc main_v22 (by decide)),
      (h c _ (mem_uc main_arg0 (by decide))).trans (B3_main_arg0 m c),
      (h c _ (mem_uc main_arg1 (by decide))).trans (B3_main_arg1 m c),
      (h c _ (mem_uc main_arg2 (by decide))).trans (B3_main_arg2 m c),
      (h c _ (mem_uc main_arg3 (by decide))).trans (B3_main_arg3 m c),
      (h c _ (mem_uc main_arg4 (by decide))).trans (B3_main_arg4 m c),
      (h c _ (mem_uc main_arg5 (by decide))).trans (B3_main_arg5 m c),
      (h c _ (mem_uc main_arg6 (by decide))).trans (B3_main_arg6 m c),
      (h c _ (mem_uc main_arg7 (by decide))).trans (B3_main_arg7 m c),
      (h c _ (mem_uc main_arg8 (by decide))).trans (B3_main_arg8 m c)⟩)
      (run_all (F := Ideal) m g)
  · refine (θ_run Cert.ReferenceIdeal.defs _ _).mono (fun _ h c => ⟨(h c).1.trans ?_, (h c).2⟩)
      (Cert.ReferenceIdeal.RefRun.run (F := Ideal) m' g')
    obtain ⟨e0, e1, e2, e3, e4, e5, e6, e7, e8⟩ := hagree c
    rw [e0, e1, e2, e3, e4, e5, e6, e7, e8]
    obtain ⟨hX, hW1, hB1, -⟩ := Cert.PreReal.inputs_real _ _ _ _ _ _ _ _ _ (hpre c)
    funext i
    obtain ⟨r, j, rfl⟩ : ∃ (r : Fin 50000) (j : Fin 128), i = ix2 r j := ⟨i 0, i 1, eq_ix2 i⟩
    rw [Cert.ReferenceIdeal.RefRead.result_apply]
    refine Eq.trans ?_ (kernel_value m c r j).symm
    exact congrFun (congrFun (Cert.Spec.layer_var_eq_of_isReal _ _ _ _ _ _ _ _ _ (fun r k => hX (ix2 r k))
      (fun r k => Cert.AggAgree.agg_real _ _ hX (ix2 r k)) (fun k j => hW1 (ix2 j k)) (fun j => hB1 (ix1 j))) r) j

end Cert.Bridge

end
-- ==== Proof.lean ====
/-
  One layer of a graph network on 50000 nodes with 128 features: aggregate the neighbours' features along 600000 edges, add the
  node's own, apply a linear layer, normalise every feature by its mean and variance over all nodes, a leaky rectifier, a second
  linear layer, add a linear image of the input, a final leaky rectifier.

  The kernel does the aggregation on the host and the rest in two calls over ten tiles of 5000 nodes: the first accumulates every
  feature's sum and sum of squares over the tiles and ends with the mean and (mean of squares − mean²); the second recomputes the
  first linear layer per tile and applies the rest. The reference is the same formula on whole arrays, with the variance as the
  mean of squared deviations from the mean. On the extended reals the two variances agree because every entry of the first layer's
  output is a real number — the inputs are finite by the precondition, and sums and products of reals are real —, and every other
  step is the same operation on the same values: a tile's row is the array's row, and a sum over ten tiles of 5000 rows is the sum
  over the 50000 rows.

  Each program's frame: the kernel's from the run of its three stretches (host operations, statistics call, layer call), in which no
  argument buffer is ever written; the reference's from its straight-line run.
-/
import proofs.«142832_j44555990728952_1_alg».proof.Defs
import proofs.«142832_j44555990728952_1_alg».proof.Proof.Gen.Kernel
import proofs.«142832_j44555990728952_1_alg».proof.Proof.Gen.KernelIdeal
import proofs.«142832_j44555990728952_1_alg».proof.Proof.Gen.ReferenceIdeal
import proofs.«142832_j44555990728952_1_alg».proof.Proof.Gen.Pre_finite_inputs
import proofs.«142832_j44555990728952_1_alg».proof.Proof.WholeBits
import proofs.«142832_j44555990728952_1_alg».proof.Proof.WholeIdeal
import proofs.«142832_j44555990728952_1_alg».proof.Proof.RefRun
import proofs.«142832_j44555990728952_1_alg».proof.Proof.Bridge
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Whole.frame (F := Bits) m ρ

theorem frame_kernel_ideal : Cert.frame_KernelIdeal (hKernelIdeal := Cert.KernelIdeal.Gen.facts) (hPre_finite_inputs := Cert.Pre_finite_inputs.Gen.facts) :=
  fun m ρ _ => Cert.KernelIdeal.Whole.frame (F := Ideal) m ρ

theorem claim : Cert.Claim := ⟨Cert.Kernel.Gen.facts, Cert.KernelIdeal.Gen.facts, Cert.ReferenceIdeal.Gen.facts, Cert.Pre_finite_inputs.Gen.facts,
  frame_kernel, frame_kernel_ideal, Cert.ReferenceIdeal.RefRun.frame_ri, trivial, Cert.Bridge.algebraic⟩

end Cert.Proof

end
